-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x500000 : Shape := ⟨2, ![2, 500000]⟩
abbrev S500000 : Shape := ⟨1, ![500000]⟩
abbrev S256x256 : Shape := ⟨2, ![256, 256]⟩
abbrev S256 : Shape := ⟨1, ![256]⟩
abbrev S2x2x256x256 : Shape := ⟨4, ![2, 2, 256, 256]⟩
abbrev S2x2x256 : Shape := ⟨3, ![2, 2, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S500000 : S_.BroadcastsInDim S500000 (![] : Fin 0 → Fin S500000.rank)
  reducesTo_S500000_S_d0 : S500000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x2x256x256 : S_.BroadcastsInDim S2x2x256x256 (![] : Fin 0 → Fin S2x2x256x256.rank)
  reducesTo_S2x2x256x256_S_d0_1_2_3 : S2x2x256x256.ReducesTo [0, 1, 2, 3] S_
  bcast_S_S2x2x256 : S_.BroadcastsInDim S2x2x256 (![] : Fin 0 → Fin S2x2x256.rank)
  reducesTo_S2x2x256_S_d0_1_2 : S2x2x256.ReducesTo [0, 1, 2] S_

variable [Facts]

def fn_part2 {F : FTy → Type} [FloatOps F] (main_arg9 : FVec F S2x2x256 .f32) (main_arg10 : FVec F S2x2x256x256 .f32) (main_arg11 : FVec F S2x2x256 .f32) (main_v33 : IVec S_ 1) : IVec S_ 1 :=
  let main_v34 : FVec F S2x2x256 .f32 := Host.absf main_arg9
  let main_cst_12 : FVec F S_ .f32 := constant S_ .f32 0x7F800000#32
  let main_v35 : FVec F S2x2x256 .f32 := broadcastInDim S2x2x256 ![] bcast_S_S2x2x256 main_cst_12
  let main_v36 : IVec S2x2x256 1 := cmpf .olt main_v34 main_v35
  let main_c_13 : IVec S_ 1 := constantI S_ 1 1#1
  let main_v37 : IVec S_ 1 := (fun x v => Host.reduce IntOp.andi x v reducesTo_S2x2x256_S_d0_1_2 h_S_) main_v36 main_c_13
  let main_v38 : IVec S_ 1 := andi main_v33 main_v37
  let main_v39 : FVec F S2x2x256x256 .f32 := Host.absf main_arg10
  let main_cst_14 : FVec F S_ .f32 := constant S_ .f32 0x7F800000#32
  let main_v40 : FVec F S2x2x256x256 .f32 := broadcastInDim S2x2x256x256 ![] bcast_S_S2x2x256x256 main_cst_14
  let main_v41 : IVec S2x2x256x256 1 := cmpf .olt main_v39 main_v40
  let main_c_15 : IVec S_ 1 := constantI S_ 1 1#1
  let main_v42 : IVec S_ 1 := (fun x v => Host.reduce IntOp.andi x v reducesTo_S2x2x256x256_S_d0_1_2_3 h_S_) main_v41 main_c_15
  let main_v43 : IVec S_ 1 := andi main_v38 main_v42
  let main_v44 : FVec F S2x2x256 .f32 := Host.absf main_arg11
  let main_cst_16 : FVec F S_ .f32 := constant S_ .f32 0x7F800000#32
  let main_v45 : FVec F S2x2x256 .f32 := broadcastInDim S2x2x256 ![] bcast_S_S2x2x256 main_cst_16
  let main_v46 : IVec S2x2x256 1 := cmpf .olt main_v44 main_v45
  let main_c_17 : IVec S_ 1 := constantI S_ 1 1#1
  let main_v47 : IVec S_ 1 := (fun x v => Host.reduce IntOp.andi x v reducesTo_S2x2x256_S_d0_1_2 h_S_) main_v46 main_c_17
  let main_v48 : IVec S_ 1 := andi main_v43 main_v47
  main_v48

def fn_part1 {F : FTy → Type} [FloatOps F] (main_arg6 : FVec F S256x256 .f32) (main_arg7 : FVec F S256 .f32) (main_arg8 : FVec F S2x2x256x256 .f32) (main_arg9 : FVec F S2x2x256 .f32) (main_arg10 : FVec F S2x2x256x256 .f32) (main_arg11 : FVec F S2x2x256 .f32) (main_v13 : IVec S_ 1) (main_v16 : IVec S500000 1) : IVec S_ 1 :=
  let main_c_5 : IVec S_ 1 := constantI S_ 1 1#1
  let main_v17 : IVec S_ 1 := (fun x v => Host.reduce IntOp.andi x v reducesTo_S500000_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2x2x256x256 .f32 := Host.absf main_arg8
  let main_cst_10 : FVec F S_ .f32 := constant S_ .f32 0x7F800000#32
  let main_v30 : FVec F S2x2x256x256 .f32 := broadcastInDim S2x2x256x256 ![] bcast_S_S2x2x256x256 main_cst_10
  let main_v31 : IVec S2x2x256x256 1 := cmpf .olt main_v29 main_v30
  let main_c_11 : IVec S_ 1 := constantI S_ 1 1#1
  let main_v32 : IVec S_ 1 := (fun x v => Host.reduce IntOp.andi x v reducesTo_S2x2x256x256_S_d0_1_2_3 h_S_) main_v31 main_c_11
  let main_v33 : IVec S_ 1 := andi main_v28 main_v32
  fn_part2 (F := F) main_arg9 main_arg10 main_arg11 main_v33

def fn {F : FTy → Type} [FloatOps F] (main_arg0 : FVec F S50000x256 .f32) (main_arg1 : FVec F S50000x256 .f32) (main_arg2 : IVec S2x500000 32) (main_arg3 : IVec S2x500000 32) (main_arg4 : FVec F S500000 .f32) (main_arg5 : FVec F S500000 .f32) (main_arg6 : FVec F S256x256 .f32) (main_arg7 : FVec F S256 .f32) (main_arg8 : FVec F S2x2x256x256 .f32) (main_arg9 : FVec F S2x2x256 .f32) (main_arg10 : FVec F S2x2x256x256 .f32) (main_arg11 : FVec F S2x2x256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S500000 .f32 := Host.absf main_arg4
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S500000 .f32 := Host.absf main_arg5
  let main_cst_4 : FVec F S_ .f32 := constant S_ .f32 0x7F800000#32
  let main_v15 : FVec F S500000 .f32 := broadcastInDim S500000 ![] bcast_S_S500000 main_cst_4
  let main_v16 : IVec S500000 1 := cmpf .olt main_v14 main_v15
  fn_part1 (F := F) main_arg6 main_arg7 main_arg8 main_arg9 main_arg10 main_arg11 main_v13 main_v16
-- ==== Kernel.lean ====
abbrev S50000x256 : Shape := ⟨2, ![50000, 256]⟩
abbrev S2x500000 : Shape := ⟨2, ![2, 500000]⟩
abbrev S500000 : Shape := ⟨1, ![500000]⟩
abbrev S256x256 : Shape := ⟨2, ![256, 256]⟩
abbrev S256 : Shape := ⟨1, ![256]⟩
abbrev S2x2x256x256 : Shape := ⟨4, ![2, 2, 256, 256]⟩
abbrev S2x2x256 : Shape := ⟨3, ![2, 2, 256]⟩
abbrev S1x50000x256 : Shape := ⟨3, ![1, 50000, 256]⟩
abbrev S2x50000x256 : Shape := ⟨3, ![2, 50000, 256]⟩
abbrev S1x2000x256 : Shape := ⟨3, ![1, 2000, 256]⟩
abbrev S2000x256 : Shape := ⟨2, ![2000, 256]⟩
abbrev S1x256 : Shape := ⟨2, ![1, 256]⟩
abbrev S1x500000 : Shape := ⟨2, ![1, 500000]⟩
abbrev S_ : Shape := ⟨0, ![]⟩
abbrev S500000x1 : Shape := ⟨2, ![500000, 1]⟩
abbrev S500000x256 : Shape := ⟨2, ![500000, 256]⟩
abbrev S1x2x256 : Shape := ⟨3, ![1, 2, 256]⟩
abbrev S2x256 : Shape := ⟨2, ![2, 256]⟩
abbrev S2x1x256 : Shape := ⟨3, ![2, 1, 256]⟩
abbrev S1x2x256x256 : Shape := ⟨4, ![1, 2, 256, 256]⟩
abbrev S2x256x256 : Shape := ⟨3, ![2, 256, 256]⟩
abbrev S1x256x256 : Shape := ⟨3, ![1, 256, 256]⟩
abbrev S1x1x256 : Shape := ⟨3, ![1, 1, 256]⟩

abbrev nBuf : Space → Nat
  | .hbm => 132
  | .vmem => 34
  | .smem => 0
  | _ => 0

abbrev hbmTy0_0 (i : Nat) : BufTy := match i % 128 with
  | 0 => ⟨S50000x256, .f32⟩
  | 1 => ⟨S50000x256, .f32⟩
  | 2 => ⟨S2x500000, .i32⟩
  | 3 => ⟨S2x500000, .i32⟩
  | 4 => ⟨S500000, .f32⟩
  | 5 => ⟨S500000, .f32⟩
  | 6 => ⟨S256x256, .f32⟩
  | 7 => ⟨S256, .f32⟩
  | 8 => ⟨S2x2x256x256, .f32⟩
  | 9 => ⟨S2x2x256, .f32⟩
  | 10 => ⟨S2x2x256x256, .f32⟩
  | 11 => ⟨S2x2x256, .f32⟩
  | 12 => ⟨S1x50000x256, .f32⟩
  | 13 => ⟨S1x50000x256, .f32⟩
  | 14 => ⟨S2x50000x256, .f32⟩
  | 15 => ⟨S2x50000x256, .f32⟩
  | 16 => ⟨S1x500000, .i32⟩
  | 17 => ⟨S500000, .i32⟩
  | 18 => ⟨S1x500000, .i32⟩
  | 19 => ⟨S500000, .i32⟩
  | 20 => ⟨S1x50000x256, .f32⟩
  | 21 => ⟨S50000x256, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x256, .f32⟩
  | 31 => ⟨S500000x1, .f32⟩
  | 32 => ⟨S500000x256, .f32⟩
  | 33 => ⟨S500000x256, .f32⟩
  | 34 => ⟨S_, .f32⟩
  | 35 => ⟨S50000x256, .f32⟩
  | 36 => ⟨S500000x1, .i32⟩
  | 37 => ⟨S50000x256, .f32⟩
  | 38 => ⟨S1x500000, .i32⟩
  | 39 => ⟨S500000, .i32⟩
  | 40 => ⟨S1x500000, .i32⟩
  | 41 => ⟨S500000, .i32⟩
  | 42 => ⟨S1x50000x256, .f32⟩
  | 43 => ⟨S50000x256, .f32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x256, .f32⟩
  | 53 => ⟨S500000x1, .f32⟩
  | 54 => ⟨S500000x256, .f32⟩
  | 55 => ⟨S500000x256, .f32⟩
  | 56 => ⟨S_, .f32⟩
  | 57 => ⟨S50000x256, .f32⟩
  | 58 => ⟨S500000x1, .i32⟩
  | 59 => ⟨S50000x256, .f32⟩
  | 60 => ⟨S1x50000x256, .f32⟩
  | 61 => ⟨S1x50000x256, .f32⟩
  | 62 => ⟨S2x50000x256, .f32⟩
  | 63 => ⟨S1x2x256, .f32⟩
  | 64 => ⟨S2x256, .f32⟩
  | 65 => ⟨S2x1x256, .f32⟩
  | 66 => ⟨S1x2x256, .f32⟩
  | 67 => ⟨S2x256, .f32⟩
  | 68 => ⟨S2x1x256, .f32⟩
  | 69 => ⟨S1x2x256x256, .f32⟩
  | 70 => ⟨S2x256x256, .f32⟩
  | 71 => ⟨S1x2x256x256, .f32⟩
  | 72 => ⟨S2x256x256, .f32⟩
  | 73 => ⟨S2x50000x256, .f32⟩
  | 74 => ⟨S1x500000, .i32⟩
  | 75 => ⟨S500000, .i32⟩
  | 76 => ⟨S1x500000, .i32⟩
  | 77 => ⟨S500000, .i32⟩
  | 78 => ⟨S1x50000x256, .f32⟩
  | 79 => ⟨S50000x256, .f32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S500000x256, .f32⟩
  | 89 => ⟨S500000x1, .f32⟩
  | 90 => ⟨S500000x256, .f32⟩
  | 91 => ⟨S500000x256, .f32⟩
  | 92 => ⟨S_, .f32⟩
  | 93 => ⟨S50000x256, .f32⟩
  | 94 => ⟨S500000x1, .i32⟩
  | 95 => ⟨S50000x256, .f32⟩
  | 96 => ⟨S1x500000, .i32⟩
  | 97 => ⟨S500000, .i32⟩
  | 98 => ⟨S1x500000, .i32⟩
  | 99 => ⟨S500000, .i32⟩
  | 100 => ⟨S1x50000x256, .f32⟩
  | 101 => ⟨S50000x256, .f32⟩
  | 102 => ⟨S_, .i32⟩
  | 103 => ⟨S500000, .i32⟩
  | 104 => ⟨S500000, .i1⟩
  | 105 => ⟨S_, .i32⟩
  | 106 => ⟨S500000, .i32⟩
  | 107 => ⟨S500000, .i32⟩
  | 108 => ⟨S500000, .i32⟩
  | 109 => ⟨S500000x1, .i32⟩
  | 110 => ⟨S500000x256, .f32⟩
  | 111 => ⟨S500000x1, .f32⟩
  | 112 => ⟨S500000x256, .f32⟩
  | 113 => ⟨S500000x256, .f32⟩
  | 114 => ⟨S_, .f32⟩
  | 115 => ⟨S50000x256, .f32⟩
  | 116 => ⟨S500000x1, .i32⟩
  | 117 => ⟨S50000x256, .f32⟩
  | 118 => ⟨S1x50000x256, .f32⟩
  | 119 => ⟨S1x50000x256, .f32⟩
  | 120 => ⟨S2x50000x256, .f32⟩
  | 121 => ⟨S1x2x256, .f32⟩
  | 122 => ⟨S2x256, .f32⟩
  | 123 => ⟨S2x1x256, .f32⟩
  | 124 => ⟨S1x2x256, .f32⟩
  | 125 => ⟨S2x256, .f32⟩
  | 126 => ⟨S2x1x256, .f32⟩
  | 127 => ⟨S1x2x256x256, .f32⟩
  | _ => ⟨S50000x256, .f32⟩

abbrev hbmTy0_1 (i : Nat) : BufTy := match i % 128 with
  | 0 => ⟨S2x256x256, .f32⟩
  | 1 => ⟨S1x2x256x256, .f32⟩
  | 2 => ⟨S2x256x256, .f32⟩
  | 3 => ⟨S2x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S1x2000x256, .f32⟩
  | .local _ .vmem, ⟨1, _⟩ => ⟨S1x2000x256, .f32⟩
  | .local _ .vmem, ⟨2, _⟩ => ⟨S256x256, .f32⟩
  | .local _ .vmem, ⟨3, _⟩ => ⟨S256, .f32⟩
  | .local _ .vmem, ⟨4, _⟩ => ⟨S1x2000x256, .f32⟩
  | .local _ .vmem, ⟨5, _⟩ => ⟨S1x2000x256, .f32⟩
  | .local _ .vmem, ⟨6, _⟩ => ⟨S1x2000x256, .f32⟩
  | .local _ .vmem, ⟨7, _⟩ => ⟨S1x2000x256, .f32⟩
  | .local _ .vmem, ⟨8, _⟩ => ⟨S1x2000x256, .f32⟩
  | .local _ .vmem, ⟨9, _⟩ => ⟨S1x2000x256, .f32⟩
  | .local _ .vmem, ⟨10, _⟩ => ⟨S1x256x256, .f32⟩
  | .local _ .vmem, ⟨11, _⟩ => ⟨S1x256x256, .f32⟩
  | .local _ .vmem, ⟨12, _⟩ => ⟨S1x1x256, .f32⟩
  | .local _ .vmem, ⟨13, _⟩ => ⟨S1x1x256, .f32⟩
  | .local _ .vmem, ⟨14, _⟩ => ⟨S1x256x256, .f32⟩
  | .local _ .vmem, ⟨15, _⟩ => ⟨S1x256x256, .f32⟩
  | .local _ .vmem, ⟨16, _⟩ => ⟨S1x1x256, .f32⟩
  | .local _ .vmem, ⟨17, _⟩ => ⟨S1x1x256, .f32⟩
  | .local _ .vmem, ⟨18, _⟩ => ⟨S1x2000x256, .f32⟩
  | .local _ .vmem, ⟨19, _⟩ => ⟨S1x2000x256, .f32⟩
  | .local _ .vmem, ⟨20, _⟩ => ⟨S1x2000x256, .f32⟩
  | .local _ .vmem, ⟨21, _⟩ => ⟨S1x2000x256, .f32⟩
  | .local _ .vmem, ⟨22, _⟩ => ⟨S1x2000x256, .f32⟩
  | .local _ .vmem, ⟨23, _⟩ => ⟨S1x2000x256, .f32⟩
  | .local _ .vmem, ⟨24, _⟩ => ⟨S1x256x256, .f32⟩
  | .local _ .vmem, ⟨25, _⟩ => ⟨S1x256x256, .f32⟩
  | .local _ .vmem, ⟨26, _⟩ => ⟨S1x1x256, .f32⟩
  | .local _ .vmem, ⟨27, _⟩ => ⟨S1x1x256, .f32⟩
  | .local _ .vmem, ⟨28, _⟩ => ⟨S1x256x256, .f32⟩
  | .local _ .vmem, ⟨29, _⟩ => ⟨S1x256x256, .f32⟩
  | .local _ .vmem, ⟨30, _⟩ => ⟨S1x1x256, .f32⟩
  | .local _ .vmem, ⟨31, _⟩ => ⟨S1x1x256, .f32⟩
  | .local _ .vmem, ⟨32, _⟩ => ⟨S1x2000x256, .f32⟩
  | .local _ .vmem, ⟨33, _⟩ => ⟨S1x2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_1 : Ref sig .tc := ⟨.hbm, 44, rfl⟩
abbrev main_v29 : Ref sig .tc := ⟨.hbm, 45, rfl⟩
abbrev main_v30 : Ref sig .tc := ⟨.hbm, 46, rfl⟩
abbrev main_c_2 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_4 : Ref sig .tc := ⟨.hbm, 80, rfl⟩
abbrev main_v62 : Ref sig .tc := ⟨.hbm, 81, rfl⟩
abbrev main_v63 : Ref sig .tc := ⟨.hbm, 82, rfl⟩
abbrev main_c_5 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_6 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_c_7 : Ref sig .tc := ⟨.hbm, 102, rfl⟩
abbrev main_v81 : Ref sig .tc := ⟨.hbm, 103, rfl⟩
abbrev main_v82 : Ref sig .tc := ⟨.hbm, 104, rfl⟩
abbrev main_c_8 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_cst_9 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨2, ![2, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 25], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 25], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  inb_S1x2000x256_S1x2000x256_0_0_0 : ∀ a, (![0, 0, 0] : Fin 3 → Nat) a + S1x2000x256.size a ≤ S1x2000x256.size a
  h_S1x2000x256 : 0 < S1x2000x256.numel
  shapeCasts_S1x2000x256_S2000x256 : S1x2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  shapeCasts_S2000x256_S1x2000x256 : S2000x256.ShapeCasts S1x2000x256
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x50000x256_S1x50000x256_0_0_0 : S2x50000x256.Slices ![0, 0, 0] S1x50000x256
  shapeCasts_S1x50000x256_S50000x256 : S1x50000x256.ShapeCasts S50000x256
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S50000x256 : S_.BroadcastsInDim S50000x256 (![] : Fin 0 → Fin S50000x256.rank)
  slices_S2x50000x256_S1x50000x256_1_0_0 : S2x50000x256.Slices ![1, 0, 0] S1x50000x256
  slices_S2x2x256_S1x2x256_0_0_0 : S2x2x256.Slices ![0, 0, 0] S1x2x256
  shapeCasts_S1x2x256_S2x256 : S1x2x256.ShapeCasts S2x256
  shapeCasts_S2x256_S2x1x256 : S2x256.ShapeCasts S2x1x256
  slices_S2x2x256x256_S1x2x256x256_0_0_0_0 : S2x2x256x256.Slices ![0, 0, 0, 0] S1x2x256x256
  shapeCasts_S1x2x256x256_S2x256x256 : S1x2x256x256.ShapeCasts S2x256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  slices_S2x2x256_S1x2x256_1_0_0 : S2x2x256.Slices ![1, 0, 0] S1x2x256
  slices_S2x2x256x256_S1x2x256x256_1_0_0_0 : S2x2x256x256.Slices ![1, 0, 0, 0] S1x2x256x256
  dot_S2000x256_S256x256_S2000x256_1_0_0_1_n_n_wf : DotDims.WF S2000x256 S256x256 S2000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x256.size a ≤ S2x50000x256.size a
  hwx0_0 : ∀ i : grid0.Coords, EltTy.bits .f32 = 32 ∨ (Rect.block (s := S2x50000x256) S1x2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2000x256.size a ≤ S2x50000x256.size a
  hwx0_3 : ∀ i : grid0.Coords, EltTy.bits .f32 = 32 ∨ (Rect.block (s := S2x50000x256) S1x2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2000x256.size a ≤ S2x50000x256.size a
  hwx1_0 : ∀ i : grid1.Coords, EltTy.bits .f32 = 32 ∨ (Rect.block (s := S2x50000x256) S1x2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2000x256.size a ≤ S2x50000x256.size a
  hwx1_1 : ∀ i : grid1.Coords, EltTy.bits .f32 = 32 ∨ (Rect.block (s := S2x50000x256) S1x2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x256.size a ≤ S2x256x256.size a
  hwx1_2 : ∀ i : grid1.Coords, EltTy.bits .f32 = 32 ∨ (Rect.block (s := S2x256x256) S1x256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x256.size a ≤ S2x1x256.size a
  hwx1_3 : ∀ i : grid1.Coords, EltTy.bits .f32 = 32 ∨ (Rect.block (s := S2x1x256) S1x1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x256.size a ≤ S2x256x256.size a
  hwx1_4 : ∀ i : grid1.Coords, EltTy.bits .f32 = 32 ∨ (Rect.block (s := S2x256x256) S1x256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x256.size a ≤ S2x1x256.size a
  hwx1_5 : ∀ i : grid1.Coords, EltTy.bits .f32 = 32 ∨ (Rect.block (s := S2x1x256) S1x1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2000x256.size a ≤ S2x50000x256.size a
  hwx1_6 : ∀ i : grid1.Coords, EltTy.bits .f32 = 32 ∨ (Rect.block (s := S2x50000x256) S1x2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2000x256.size a ≤ S2x50000x256.size a
  hwx2_0 : ∀ i : grid2.Coords, EltTy.bits .f32 = 32 ∨ (Rect.block (s := S2x50000x256) S1x2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2000x256.size a ≤ S2x50000x256.size a
  hwx2_1 : ∀ i : grid2.Coords, EltTy.bits .f32 = 32 ∨ (Rect.block (s := S2x50000x256) S1x2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x256.size a ≤ S2x256x256.size a
  hwx2_2 : ∀ i : grid2.Coords, EltTy.bits .f32 = 32 ∨ (Rect.block (s := S2x256x256) S1x256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x256.size a ≤ S2x1x256.size a
  hwx2_3 : ∀ i : grid2.Coords, EltTy.bits .f32 = 32 ∨ (Rect.block (s := S2x1x256) S1x1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x256x256.size a ≤ S2x256x256.size a
  hwx2_4 : ∀ i : grid2.Coords, EltTy.bits .f32 = 32 ∨ (Rect.block (s := S2x256x256) S1x256x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x256.size a ≤ S2x1x256.size a
  hwx2_5 : ∀ i : grid2.Coords, EltTy.bits .f32 = 32 ∨ (Rect.block (s := S2x1x256) S1x1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x2000x256.size a ≤ S2x50000x256.size a
  hwx2_6 : ∀ i : grid2.Coords, EltTy.bits .f32 = 32 ∨ (Rect.block (s := S2x50000x256) S1x2000x256.size (cc2_transform_6 i) (hinb2_6 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf

abbrev win0_0 : Pipeline.Window sig grid0 :=
  Pipeline.Window.ofSpec (Memref.whole main_v2) S1x2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S1x2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x1x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x256x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1x2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v96) S1x2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v104) S1x256x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v99) S1x1x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v106) S1x256x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v102) S1x1x256.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v107) S1x2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x500000 : Shape := ⟨2, ![2, 500000]⟩
abbrev S500000 : Shape := ⟨1, ![500000]⟩
abbrev S256x256 : Shape := ⟨2, ![256, 256]⟩
abbrev S256 : Shape := ⟨1, ![256]⟩
abbrev S2x2x256x256 : Shape := ⟨4, ![2, 2, 256, 256]⟩
abbrev S2x2x256 : Shape := ⟨3, ![2, 2, 256]⟩
abbrev S1x256 : Shape := ⟨2, ![1, 256]⟩
abbrev S1x500000 : Shape := ⟨2, ![1, 500000]⟩
abbrev S1x1x256x256 : Shape := ⟨4, ![1, 1, 256, 256]⟩
abbrev S1x1x256 : Shape := ⟨3, ![1, 1, 256]⟩
abbrev S_ : Shape := ⟨0, ![]⟩
abbrev S500000x1 : Shape := ⟨2, ![500000, 1]⟩
abbrev S500000x256 : Shape := ⟨2, ![500000, 256]⟩
abbrev S1x50000x256 : Shape := ⟨3, ![1, 50000, 256]⟩
abbrev S2x50000x256 : Shape := ⟨3, ![2, 50000, 256]⟩

abbrev nBuf : Space → Nat
  | .hbm => 213
  | .vmem => 0
  | .smem => 0
  | _ => 0

abbrev hbmTy0_0 (i : Nat) : BufTy := match i % 128 with
  | 0 => ⟨S50000x256, .f32⟩
  | 1 => ⟨S50000x256, .f32⟩
  | 2 => ⟨S2x500000, .i32⟩
  | 3 => ⟨S2x500000, .i32⟩
  | 4 => ⟨S500000, .f32⟩
  | 5 => ⟨S500000, .f32⟩
  | 6 => ⟨S256x256, .f32⟩
  | 7 => ⟨S256, .f32⟩
  | 8 => ⟨S2x2x256x256, .f32⟩
  | 9 => ⟨S2x2x256, .f32⟩
  | 10 => ⟨S2x2x256x256, .f32⟩
  | 11 => ⟨S2x2x256, .f32⟩
  | 12 => ⟨S50000x256, .f32⟩
  | 13 => ⟨S1x256, .f32⟩
  | 14 => ⟨S50000x256, .f32⟩
  | 15 => ⟨S50000x256, .f32⟩
  | 16 => ⟨S50000x256, .f32⟩
  | 17 => ⟨S1x256, .f32⟩
  | 18 => ⟨S50000x256, .f32⟩
  | 19 => ⟨S50000x256, .f32⟩
  | 20 => ⟨S1x500000, .i32⟩
  | 21 => ⟨S500000, .i32⟩
  | 22 => ⟨S1x500000, .i32⟩
  | 23 => ⟨S500000, .i32⟩
  | 24 => ⟨S1x1x256x256, .f32⟩
  | 25 => ⟨S256x256, .f32⟩
  | 26 => ⟨S1x1x256, .f32⟩
  | 27 => ⟨S256, .f32⟩
  | 28 => ⟨S1x1x256x256, .f32⟩
  | 29 => ⟨S256x256, .f32⟩
  | 30 => ⟨S1x1x256, .f32⟩
  | 31 => ⟨S256, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x256, .f32⟩
  | 41 => ⟨S500000x1, .f32⟩
  | 42 => ⟨S500000x256, .f32⟩
  | 43 => ⟨S500000x256, .f32⟩
  | 44 => ⟨S_, .f32⟩
  | 45 => ⟨S50000x256, .f32⟩
  | 46 => ⟨S500000x1, .i32⟩
  | 47 => ⟨S50000x256, .f32⟩
  | 48 => ⟨S50000x256, .f32⟩
  | 49 => ⟨S50000x256, .f32⟩
  | 50 => ⟨S1x256, .f32⟩
  | 51 => ⟨S50000x256, .f32⟩
  | 52 => ⟨S50000x256, .f32⟩
  | 53 => ⟨S_, .f32⟩
  | 54 => ⟨S50000x256, .f32⟩
  | 55 => ⟨S50000x256, .f32⟩
  | 56 => ⟨S50000x256, .f32⟩
  | 57 => ⟨S1x256, .f32⟩
  | 58 => ⟨S50000x256, .f32⟩
  | 59 => ⟨S50000x256, .f32⟩
  | 60 => ⟨S1x500000, .i32⟩
  | 61 => ⟨S500000, .i32⟩
  | 62 => ⟨S1x500000, .i32⟩
  | 63 => ⟨S500000, .i32⟩
  | 64 => ⟨S1x1x256x256, .f32⟩
  | 65 => ⟨S256x256, .f32⟩
  | 66 => ⟨S1x1x256, .f32⟩
  | 67 => ⟨S256, .f32⟩
  | 68 => ⟨S1x1x256x256, .f32⟩
  | 69 => ⟨S256x256, .f32⟩
  | 70 => ⟨S1x1x256, .f32⟩
  | 71 => ⟨S256, .f32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x256, .f32⟩
  | 81 => ⟨S500000x1, .f32⟩
  | 82 => ⟨S500000x256, .f32⟩
  | 83 => ⟨S500000x256, .f32⟩
  | 84 => ⟨S_, .f32⟩
  | 85 => ⟨S50000x256, .f32⟩
  | 86 => ⟨S500000x1, .i32⟩
  | 87 => ⟨S50000x256, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S_, .f32⟩
  | 94 => ⟨S50000x256, .f32⟩
  | 95 => ⟨S50000x256, .f32⟩
  | 96 => ⟨S50000x256, .f32⟩
  | 97 => ⟨S1x256, .f32⟩
  | 98 => ⟨S50000x256, .f32⟩
  | 99 => ⟨S50000x256, .f32⟩
  | 100 => ⟨S_, .f32⟩
  | 101 => ⟨S50000x256, .f32⟩
  | 102 => ⟨S50000x256, .i1⟩
  | 103 => ⟨S_, .f32⟩
  | 104 => ⟨S50000x256, .f32⟩
  | 105 => ⟨S50000x256, .i1⟩
  | 106 => ⟨S_, .f32⟩
  | 107 => ⟨S_, .f32⟩
  | 108 => ⟨S50000x256, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S50000x256, .f32⟩
  | 115 => ⟨S_, .f32⟩
  | 116 => ⟨S50000x256, .f32⟩
  | 117 => ⟨S50000x256, .i1⟩
  | 118 => ⟨S_, .f32⟩
  | 119 => ⟨S50000x256, .f32⟩
  | 120 => ⟨S50000x256, .i1⟩
  | 121 => ⟨S_, .f32⟩
  | 122 => ⟨S_, .f32⟩
  | 123 => ⟨S50000x256, .f32⟩
  | 124 => ⟨S50000x256, .f32⟩
  | 125 => ⟨S50000x256, .f32⟩
  | 126 => ⟨S_, .f32⟩
  | 127 => ⟨S50000x256, .f32⟩
  | _ => ⟨S50000x256, .f32⟩

abbrev hbmTy0_1 (i : Nat) : BufTy := match i % 128 with
  | 0 => ⟨S50000x256, .f32⟩
  | 1 => ⟨S50000x256, .f32⟩
  | 2 => ⟨S1x500000, .i32⟩
  | 3 => ⟨S500000, .i32⟩
  | 4 => ⟨S1x500000, .i32⟩
  | 5 => ⟨S500000, .i32⟩
  | 6 => ⟨S1x1x256x256, .f32⟩
  | 7 => ⟨S256x256, .f32⟩
  | 8 => ⟨S1x1x256, .f32⟩
  | 9 => ⟨S256, .f32⟩
  | 10 => ⟨S1x1x256x256, .f32⟩
  | 11 => ⟨S256x256, .f32⟩
  | 12 => ⟨S1x1x256, .f32⟩
  | 13 => ⟨S256, .f32⟩
  | 14 => ⟨S_, .i32⟩
  | 15 => ⟨S500000, .i32⟩
  | 16 => ⟨S500000, .i1⟩
  | 17 => ⟨S_, .i32⟩
  | 18 => ⟨S500000, .i32⟩
  | 19 => ⟨S500000, .i32⟩
  | 20 => ⟨S500000, .i32⟩
  | 21 => ⟨S500000x1, .i32⟩
  | 22 => ⟨S500000x256, .f32⟩
  | 23 => ⟨S500000x1, .f32⟩
  | 24 => ⟨S500000x256, .f32⟩
  | 25 => ⟨S500000x256, .f32⟩
  | 26 => ⟨S_, .f32⟩
  | 27 => ⟨S50000x256, .f32⟩
  | 28 => ⟨S500000x1, .i32⟩
  | 29 => ⟨S50000x256, .f32⟩
  | 30 => ⟨S50000x256, .f32⟩
  | 31 => ⟨S50000x256, .f32⟩
  | 32 => ⟨S1x256, .f32⟩
  | 33 => ⟨S50000x256, .f32⟩
  | 34 => ⟨S50000x256, .f32⟩
  | 35 => ⟨S_, .f32⟩
  | 36 => ⟨S50000x256, .f32⟩
  | 37 => ⟨S50000x256, .f32⟩
  | 38 => ⟨S50000x256, .f32⟩
  | 39 => ⟨S1x256, .f32⟩
  | 40 => ⟨S50000x256, .f32⟩
  | 41 => ⟨S50000x256, .f32⟩
  | 42 => ⟨S1x500000, .i32⟩
  | 43 => ⟨S500000, .i32⟩
  | 44 => ⟨S1x500000, .i32⟩
  | 45 => ⟨S500000, .i32⟩
  | 46 => ⟨S1x1x256x256, .f32⟩
  | 47 => ⟨S256x256, .f32⟩
  | 48 => ⟨S1x1x256, .f32⟩
  | 49 => ⟨S256, .f32⟩
  | 50 => ⟨S1x1x256x256, .f32⟩
  | 51 => ⟨S256x256, .f32⟩
  | 52 => ⟨S1x1x256, .f32⟩
  | 53 => ⟨S256, .f32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x256, .f32⟩
  | 63 => ⟨S500000x1, .f32⟩
  | 64 => ⟨S500000x256, .f32⟩
  | 65 => ⟨S500000x256, .f32⟩
  | 66 => ⟨S_, .f32⟩
  | 67 => ⟨S50000x256, .f32⟩
  | 68 => ⟨S500000x1, .i32⟩
  | 69 => ⟨S50000x256, .f32⟩
  | 70 => ⟨S50000x256, .f32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S50000x256, .f32⟩
  | 77 => ⟨S50000x256, .f32⟩
  | 78 => ⟨S50000x256, .f32⟩
  | 79 => ⟨S1x256, .f32⟩
  | 80 => ⟨S50000x256, .f32⟩
  | 81 => ⟨S50000x256, .f32⟩
  | 82 => ⟨S1x50000x256, .f32⟩
  | 83 => ⟨S1x50000x256, .f32⟩
  | 84 => ⟨S2x50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_c_1 : Ref sig .tc := ⟨.hbm, 72, rfl⟩
abbrev main_v55 : Ref sig .tc := ⟨.hbm, 73, rfl⟩
abbrev main_v56 : Ref sig .tc := ⟨.hbm, 74, rfl⟩
abbrev main_c_2 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_3 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_call1_cst : Ref sig .tc := ⟨.hbm, 93, rfl⟩
abbrev main_call1_v0 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_cst_0 : Ref sig .tc := ⟨.hbm, 103, rfl⟩
abbrev main_call2_v2 : Ref sig .tc := ⟨.hbm, 104, rfl⟩
abbrev main_call2_v3 : Ref sig .tc := ⟨.hbm, 105, rfl⟩
abbrev main_call2_cst_1 : Ref sig .tc := ⟨.hbm, 106, rfl⟩
abbrev main_call2_call0_v0 : Ref sig .tc := ⟨.hbm, 107, rfl⟩
abbrev main_call2_call0_v1 : Ref sig .tc := ⟨.hbm, 108, rfl⟩
abbrev main_call2_v4 : Ref sig .tc := ⟨.hbm, 109, rfl⟩
abbrev main_call2_v5 : Ref sig .tc := ⟨.hbm, 110, rfl⟩
abbrev main_call2_cst_2 : Ref sig .tc := ⟨.hbm, 111, rfl⟩
abbrev main_call2_v6 : Ref sig .tc := ⟨.hbm, 112, rfl⟩
abbrev main_call2_v7 : Ref sig .tc := ⟨.hbm, 113, rfl⟩
abbrev main_v78 : Ref sig .tc := ⟨.hbm, 114, rfl⟩
abbrev main_call3_cst : Ref sig .tc := ⟨.hbm, 115, rfl⟩
abbrev main_call3_v0 : Ref sig .tc := ⟨.hbm, 116, rfl⟩
abbrev main_call3_v1 : Ref sig .tc := ⟨.hbm, 117, rfl⟩
abbrev main_call3_cst_0 : Ref sig .tc := ⟨.hbm, 118, rfl⟩
abbrev main_call3_v2 : Ref sig .tc := ⟨.hbm, 119, rfl⟩
abbrev main_call3_v3 : Ref sig .tc := ⟨.hbm, 120, rfl⟩
abbrev main_call3_cst_1 : Ref sig .tc := ⟨.hbm, 121, rfl⟩
abbrev main_call3_call0_v0 : Ref sig .tc := ⟨.hbm, 122, rfl⟩
abbrev main_call3_call0_v1 : Ref sig .tc := ⟨.hbm, 123, rfl⟩
abbrev main_call3_v4 : Ref sig .tc := ⟨.hbm, 124, rfl⟩
abbrev main_call3_v5 : Ref sig .tc := ⟨.hbm, 125, rfl⟩
abbrev main_call3_cst_2 : Ref sig .tc := ⟨.hbm, 126, rfl⟩
abbrev main_call3_v6 : Ref sig .tc := ⟨.hbm, 127, rfl⟩
abbrev main_call3_v7 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_c_4 : Ref sig .tc := ⟨.hbm, 142, rfl⟩
abbrev main_v92 : Ref sig .tc := ⟨.hbm, 143, rfl⟩
abbrev main_v93 : Ref sig .tc := ⟨.hbm, 144, rfl⟩
abbrev main_c_5 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_6 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_call4_cst : Ref sig .tc := ⟨.hbm, 163, rfl⟩
abbrev main_call4_v0 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_c_7 : Ref sig .tc := ⟨.hbm, 182, rfl⟩
abbrev main_v127 : Ref sig .tc := ⟨.hbm, 183, rfl⟩
abbrev main_v128 : Ref sig .tc := ⟨.hbm, 184, rfl⟩
abbrev main_c_8 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_cst_9 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_call5_cst : Ref sig .tc := ⟨.hbm, 203, rfl⟩
abbrev main_call5_v0 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S2x2x256x256_S1x1x256x256_0_0_0_0 : S2x2x256x256.Slices ![0, 0, 0, 0] S1x1x256x256
  shapeCasts_S1x1x256x256_S256x256 : S1x1x256x256.ShapeCasts S256x256
  slices_S2x2x256_S1x1x256_0_0_0 : S2x2x256.Slices ![0, 0, 0] S1x1x256
  shapeCasts_S1x1x256_S256 : S1x1x256.ShapeCasts S256
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S50000x256 : S_.BroadcastsInDim S50000x256 (![] : Fin 0 → Fin S50000x256.rank)
  slices_S2x2x256x256_S1x1x256x256_0_1_0_0 : S2x2x256x256.Slices ![0, 1, 0, 0] S1x1x256x256
  slices_S2x2x256_S1x1x256_0_1_0 : S2x2x256.Slices ![0, 1, 0] S1x1x256
  slices_S2x2x256x256_S1x1x256x256_1_0_0_0 : S2x2x256x256.Slices ![1, 0, 0, 0] S1x1x256x256
  slices_S2x2x256_S1x1x256_1_0_0 : S2x2x256.Slices ![1, 0, 0] S1x1x256
  slices_S2x2x256x256_S1x1x256x256_1_1_0_0 : S2x2x256x256.Slices ![1, 1, 0, 0] S1x1x256x256
  slices_S2x2x256_S1x1x256_1_1_0 : S2x2x256.Slices ![1, 1, 0] S1x1x256
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  dot_S50000x256_S256x256_S50000x256_1_0_0_1_n_n_wf : DotDims.WF S50000x256 S256x256 S50000x256 [1] [0] [0] [1] [] []
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf

class Facts : Prop extends Facts₀ where

variable [Facts]
-- ==== Proof.KerRun.lean ====
/-
  The idealized kernel's run with its result named.

  Every weakly fair execution of the program terminates without a fault, leaves the twelve argument arrays
  as launched, and leaves the result array (the last region's output) at the contents the last region's
  write-backs fold to: the value `W6` of the chain of boundary contents — launch memory, the host operations
  before each region, each region's arrays at what its grid leaves.  The argument is the frame's: the same
  segments, the same launch, read at one more buffer.
-/
import proofs.«135935_j163208757329_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_named : θ_run defs (onTc (τ := τ) (main (F := F))) ⟨m, fun _ => 0, ρ⟩ (fun r => ∀ c : Dev nD,
      r.2.mem ((c.tc : Thread nD τ).loc main_v107) = W6 m ρ c (Proc.devRef .tc main_v107)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v107 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.KerRun

end
-- ==== Proof.KerGlue.lean ====
/-
  The host operations around the kernel's three regions, as whole-array functions.

  The kernel's program stacks the two node types into one array (`stack2`), takes a type's slab out again
  (`unstack0`, `unstack1`), picks a layer's weights and biases (`wl0`, `wl1`, `bl0`, `bl1`), and between
  regions aggregates messages along the edges (`aggK`): every edge reads its source node's row, scales it
  by the edge's attention weight, and adds it into its destination node's row, starting from zero.
  The aggregation is never opened: both programs apply the same chain to equal arguments.

  The lemmas read the buffers a region is entered from through the stretch of host operations before it.
-/
import proofs.«135935_j163208757329_2_alg».proof.Proof.Gen.KernelIdeal.Launch
import Idealize.ShloMosaic.Lib.StableHlo.Run

set_option maxRecDepth 16384

noncomputable section

namespace Cert.KernelIdeal.Glue

open Cert.KernelIdeal Idealize.ShloMosaic Idealize.ShloMosaic.TcCoe Idealize.ShloMosaic.StableHlo
open Cert.KernelIdeal.Facts₀ Cert.KernelIdeal.Facts

variable {F : FTy → Type} [FloatOps F]

/-- Two node arrays stacked along a new leading axis. -/
def stack2 (a b : FVec F S50000x256 .f32) : FVec F S2x50000x256 .f32 :=
  concatenate S2x50000x256 0
    [⟨S1x50000x256, broadcastInDim S1x50000x256 ![1, 2] bcast_S50000x256_S1x50000x256_1_2 a⟩,
     ⟨S1x50000x256, broadcastInDim S1x50000x256 ![1, 2] bcast_S50000x256_S1x50000x256_1_2 b⟩]
    concatenates_S1x50000x256_S1x50000x256_S2x50000x256_d0

/-- Slab 0 and slab 1 of a stacked array. -/
def unstack0 (X : FVec F S2x50000x256 .f32) : FVec F S50000x256 .f32 :=
  shapeCast S50000x256 (extractStridedSlice S1x50000x256 ![0, 0, 0] X slices_S2x50000x256_S1x50000x256_0_0_0)
    shapeCasts_S1x50000x256_S50000x256
def unstack1 (X : FVec F S2x50000x256 .f32) : FVec F S50000x256 .f32 :=
  shapeCast S50000x256 (extractStridedSlice S1x50000x256 ![1, 0, 0] X slices_S2x50000x256_S1x50000x256_1_0_0)
    shapeCasts_S1x50000x256_S50000x256

/-- Row 0 (sources) and row 1 (destinations) of an edge list. -/
def erow0 (ei : IVec S2x500000 32) : IVec S500000 32 :=
  shapeCast S500000 (extractStridedSlice S1x500000 ![0, 0] ei slices_S2x500000_S1x500000_0_0) shapeCasts_S1x500000_S500000
def erow1 (ei : IVec S2x500000 32) : IVec S500000 32 :=
  shapeCast S500000 (extractStridedSlice S1x500000 ![1, 0] ei slices_S2x500000_S1x500000_1_0) shapeCasts_S1x500000_S500000

/-- Message aggregation: gather the source rows (a negative index counted from the end), scale each by its
    edge's weight, add into the destination rows of a zero array. -/
def aggK (h : FVec F S50000x256 .f32) (ei : IVec S2x500000 32) (attn : FVec F S500000 .f32) : FVec F S50000x256 .f32 :=
  Host.scatterAdd scatter_S50000x256_S500000x1_S500000x256_1_0_0_1
    (broadcastInDim S50000x256 ![] bcast_S_S50000x256 (constant S_ .f32 0x00000000#32))
    (broadcastInDim S500000x1 ![0] bcast_S500000_S500000x1_0 (erow1 ei))
    (mulf
      (Host.gather gather_S50000x256_S500000x1_S500000x256_1_0_n_n_0_1_1256 h
        (broadcastInDim S500000x1 ![0] bcast_S500000_S500000x1_0
          (select (cmpi .slt (erow0 ei) (broadcastInDim S500000 ![] bcast_S_S500000 (constantI S_ 32 0#32)))
            (addi (erow0 ei) (broadcastInDim S500000 ![] bcast_S_S500000 (constantI S_ 32 50000#32)))
            (erow0 ei))))
      (broadcastInDim S500000x256 ![0, 1] bcast_S500000x1_S500000x256_0_1
        (broadcastInDim S500000x1 ![0] bcast_S500000_S500000x1_0 attn)))

/-- A layer's weight matrices (one per node type) and bias rows. -/
def wl0 (W : FVec F S2x2x256x256 .f32) : FVec F S2x256x256 .f32 :=
  shapeCast S2x256x256 (extractStridedSlice S1x2x256x256 ![0, 0, 0, 0] W slices_S2x2x256x256_S1x2x256x256_0_0_0_0)
    shapeCasts_S1x2x256x256_S2x256x256
def wl1 (W : FVec F S2x2x256x256 .f32) : FVec F S2x256x256 .f32 :=
  shapeCast S2x256x256 (extractStridedSlice S1x2x256x256 ![1, 0, 0, 0] W slices_S2x2x256x256_S1x2x256x256_1_0_0_0)
    shapeCasts_S1x2x256x256_S2x256x256
def bl0 (b : FVec F S2x2x256 .f32) : FVec F S2x1x256 .f32 :=
  shapeCast S2x1x256 (shapeCast S2x256 (extractStridedSlice S1x2x256 ![0, 0, 0] b slices_S2x2x256_S1x2x256_0_0_0)
    shapeCasts_S1x2x256_S2x256) shapeCasts_S2x256_S2x1x256
def bl1 (b : FVec F S2x2x256 .f32) : FVec F S2x1x256 .f32 :=
  shapeCast S2x1x256 (shapeCast S2x256 (extractStridedSlice S1x2x256 ![1, 0, 0] b slices_S2x2x256_S1x2x256_1_0_0)
    shapeCasts_S1x2x256_S2x256) shapeCasts_S2x256_S2x1x256

variable (W : Valuation τ sig (Elt F))

/-! ## Before the encoder -/

theorem read0_v2 : after (Gen.hostOps0 (F := F)) W (Proc.devRef .tc main_v2)
    = stack2 (W (Proc.devRef .tc main_arg0)) (W (Proc.devRef .tc main_arg1)) := by
  after_results; rfl
theorem read0_arg6 : after (Gen.hostOps0 (F := F)) W (Proc.devRef .tc main_arg6) = W (Proc.devRef .tc main_arg6) := by
  after_results
theorem read0_arg7 : after (Gen.hostOps0 (F := F)) W (Proc.devRef .tc main_arg7) = W (Proc.devRef .tc main_arg7) := by
  after_results

end Cert.KernelIdeal.Glue

end
-- ==== Proof.KerKeep.lean ====
/-
  The host operations before the second and third regions write none of the arguments the later regions
  still read: the two edge lists, the two attention vectors and the four parameter arrays.
-/
import proofs.«135935_j163208757329_2_alg».proof.Proof.KerGlue

set_option maxRecDepth 16384

noncomputable section

namespace Cert.KernelIdeal.Glue

open Cert.KernelIdeal Idealize.ShloMosaic Idealize.ShloMosaic.TcCoe Idealize.ShloMosaic.StableHlo

variable {F : FTy → Type} [FloatOps F] (W : Valuation τ sig (Elt F))

/-- The arguments read after the encoder. -/
abbrev laterArgs : List (Ref sig .tc) :=
  [main_arg2, main_arg3, main_arg4, main_arg5, main_arg8, main_arg9, main_arg10, main_arg11]

theorem keep0 (b : Ref sig .tc) (hb : b ∈ laterArgs) :
    after (Gen.hostOps0 (F := F)) W (Proc.devRef .tc b) = W (Proc.devRef .tc b) := by
  simp only [laterArgs, List.mem_cons, List.not_mem_nil, or_false] at hb
  rcases hb with rfl | rfl | rfl | rfl | rfl | rfl | rfl | rfl <;> after_results_simp

theorem keep1 (b : Ref sig .tc) (hb : b ∈ laterArgs) :
    after (Gen.hostOps1 (F := F)) W (Proc.devRef .tc b) = W (Proc.devRef .tc b) := by
  simp only [laterArgs, List.mem_cons, List.not_mem_nil, or_false] at hb
  rcases hb with rfl | rfl | rfl | rfl | rfl | rfl | rfl | rfl <;> after_results_simp

end Cert.KernelIdeal.Glue

end
-- ==== Proof.KerRead1.lean ====
/-
  The buffers region 1 of the kernel's program is entered from, read through the host operations before it:
  the stacked aggregate of the two node types, the layer's weights and biases, and the previous hidden state
  (which no host operation writes).
-/
import proofs.«135935_j163208757329_2_alg».proof.Proof.KerGlue

set_option maxRecDepth 16384

noncomputable section

namespace Cert.KernelIdeal.Glue

open Cert.KernelIdeal Idealize.ShloMosaic Idealize.ShloMosaic.TcCoe Idealize.ShloMosaic.StableHlo
open Cert.KernelIdeal.Facts₀ Cert.KernelIdeal.Facts

variable {F : FTy → Type} [FloatOps F] (W : Valuation τ sig (Elt F))

theorem read1_agg : after (Gen.hostOps1 (F := F)) W (Proc.devRef .tc main_v44)
    = stack2 (aggK (unstack0 (W (Proc.devRef .tc main_v3))) (W (Proc.devRef .tc main_arg2)) (W (Proc.devRef .tc main_arg4)))
        (aggK (unstack1 (W (Proc.devRef .tc main_v3))) (W (Proc.devRef .tc main_arg3)) (W (Proc.devRef .tc main_arg5))) := by
  simp only [Gen.hostOps1, after_cons, after_nil]
  -- the stacking function is carried as a variable while each buffer is read back: no operand is rewritten
  -- inside the list of shaped pieces
  generalize hf : ((fun a b => concatenate S2x50000x256 0 [⟨S1x50000x256, a⟩, ⟨S1x50000x256, b⟩] concatenates_S1x50000x256_S1x50000x256_S2x50000x256_d0) :
      (⟨S1x50000x256, .f32⟩ : BufTy).Contents (Elt F) → (⟨S1x50000x256, .f32⟩ : BufTy).Contents (Elt F) → (⟨S2x50000x256, .f32⟩ : BufTy).Contents (Elt F)) = f
  after_results_simp
  subst hf
  rfl

theorem read1_h : after (Gen.hostOps1 (F := F)) W (Proc.devRef .tc main_v3) = W (Proc.devRef .tc main_v3) := by
  after_results_simp

theorem read1_W1 : after (Gen.hostOps1 (F := F)) W (Proc.devRef .tc main_v52) = wl0 (W (Proc.devRef .tc main_arg8)) := by
  after_results_simp; rfl
theorem read1_b1 : after (Gen.hostOps1 (F := F)) W (Proc.devRef .tc main_v47) = bl0 (W (Proc.devRef .tc main_arg9)) := by
  after_results_simp; rfl
theorem read1_W2 : after (Gen.hostOps1 (F := F)) W (Proc.devRef .tc main_v54) = wl0 (W (Proc.devRef .tc main_arg10)) := by
  after_results_simp; rfl
theorem read1_b2 : after (Gen.hostOps1 (F := F)) W (Proc.devRef .tc main_v50) = bl0 (W (Proc.devRef .tc main_arg11)) := by
  after_results_simp; rfl

end Cert.KernelIdeal.Glue

end
-- ==== Proof.KerRead2.lean ====
/-
  The buffers region 2 of the kernel's program is entered from, read through the host operations before it:
  the stacked aggregate of the two node types, the layer's weights and biases, and the previous hidden state
  (which no host operation writes).
-/
import proofs.«135935_j163208757329_2_alg».proof.Proof.KerGlue

set_option maxRecDepth 16384

noncomputable section

namespace Cert.KernelIdeal.Glue

open Cert.KernelIdeal Idealize.ShloMosaic Idealize.ShloMosaic.TcCoe Idealize.ShloMosaic.StableHlo
open Cert.KernelIdeal.Facts₀ Cert.KernelIdeal.Facts

variable {F : FTy → Type} [FloatOps F] (W : Valuation τ sig (Elt F))

theorem read2_agg : after (Gen.hostOps2 (F := F)) W (Proc.devRef .tc main_v96)
    = stack2 (aggK (unstack0 (W (Proc.devRef .tc main_v55))) (W (Proc.devRef .tc main_arg2)) (W (Proc.devRef .tc main_arg4)))
        (aggK (unstack1 (W (Proc.devRef .tc main_v55))) (W (Proc.devRef .tc main_arg3)) (W (Proc.devRef .tc main_arg5))) := by
  simp only [Gen.hostOps2, after_cons, after_nil]
  -- the stacking function is carried as a variable while each buffer is read back: no operand is rewritten
  -- inside the list of shaped pieces
  generalize hf : ((fun a b => concatenate S2x50000x256 0 [⟨S1x50000x256, a⟩, ⟨S1x50000x256, b⟩] concatenates_S1x50000x256_S1x50000x256_S2x50000x256_d0) :
      (⟨S1x50000x256, .f32⟩ : BufTy).Contents (Elt F) → (⟨S1x50000x256, .f32⟩ : BufTy).Contents (Elt F) → (⟨S2x50000x256, .f32⟩ : BufTy).Contents (Elt F)) = f
  after_results_simp
  subst hf
  rfl

theorem read2_h : after (Gen.hostOps2 (F := F)) W (Proc.devRef .tc main_v55) = W (Proc.devRef .tc main_v55) := by
  after_results_simp

theorem read2_W1 : after (Gen.hostOps2 (F := F)) W (Proc.devRef .tc main_v104) = wl1 (W (Proc.devRef .tc main_arg8)) := by
  after_results_simp; rfl
theorem read2_b1 : after (Gen.hostOps2 (F := F)) W (Proc.devRef .tc main_v99) = bl1 (W (Proc.devRef .tc main_arg9)) := by
  after_results_simp; rfl
theorem read2_W2 : after (Gen.hostOps2 (F := F)) W (Proc.devRef .tc main_v106) = wl1 (W (Proc.devRef .tc main_arg10)) := by
  after_results_simp; rfl
theorem read2_b2 : after (Gen.hostOps2 (F := F)) W (Proc.devRef .tc main_v102) = bl1 (W (Proc.devRef .tc main_arg11)) := by
  after_results_simp; rfl

end Cert.KernelIdeal.Glue

end
-- ==== Proof.Spec.lean ====
/-
  The mathematics of the two programs, one row at a time, over the extended reals.

  A node's hidden vector is a row of 256 numbers.  An affine layer sends a row `z` to `z · W + b`
  (`rowLin`); the network applied to every node is two affine layers with a rectifier between them
  (`rowMlp`); between the two message-passing rounds each entry goes through the exponential linear
  unit (`eluK`: the entry itself when positive, `exp x - 1` otherwise).  Nothing here looks at more
  than one row of the node matrix: that is why a kernel that walks the nodes 2000 rows at a time computes the
  same array as a program that multiplies the whole matrix at once.

  The whole-array functions `G0`, `Gmlp` read a stacked array (node type, node, feature) and produce one
  entry of the stacked result from the row of the same type and node.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- node type × node × feature -/
abbrev TNH : Shape := ⟨3, ![2, 50000, 256]⟩
/-- node × feature -/
abbrev NH : Shape := ⟨2, ![50000, 256]⟩
/-- a weight matrix -/
abbrev HH : Shape := ⟨2, ![256, 256]⟩
/-- a bias row -/
abbrev Hv : Shape := ⟨1, ![256]⟩
/-- one weight matrix per node type -/
abbrev THH : Shape := ⟨3, ![2, 256, 256]⟩
/-- one bias row per node type, kept as a 1 × 256 matrix -/
abbrev T1H : Shape := ⟨3, ![2, 1, 256]⟩

/-- The float word of zero and of one, as extended reals. -/
abbrev zeroW : EReal := Ideal.ofBits .f32 0x00000000#32
abbrev oneW : EReal := Ideal.ofBits .f32 0x3F800000#32

/-- Entry `j` of `z · W + b`. -/
def rowLin (z : Fin 256 → EReal) (W : Fin 256 → Fin 256 → EReal) (b : Fin 256 → EReal) (j : Fin 256) : EReal :=
  (∑ k : Fin 256, z k * W k j) + b j

/-- The rectifier. -/
def relu0 (x : EReal) : EReal := max x zeroW

/-- The exponential linear unit as the kernel spells it: `x` when `x > 0`, else `exp x - 1`. -/
def eluK (x : EReal) : EReal :=
  Scalar.select (FloatOps.cmpf (F := Ideal) (φ := .f32) .ogt x zeroW) x (Ideal.exp x - oneW)

/-- Entry `j` of `relu (z · W1 + b1) · W2 + b2`. -/
def rowMlp (z : Fin 256 → EReal) (W1 : Fin 256 → Fin 256 → EReal) (b1 : Fin 256 → EReal)
    (W2 : Fin 256 → Fin 256 → EReal) (b2 : Fin 256 → EReal) (j : Fin 256) : EReal :=
  rowLin (fun k => relu0 (rowLin z W1 b1 k)) W2 b2 j

/-- The encoder on the stacked node features: entry (t, n, j) is row (t, n) of `X` through `· W + b`. -/
def G0 (X : TNH.Idx → EReal) (W : HH.Idx → EReal) (b : Hv.Idx → EReal) : TNH.Idx → EReal := fun i =>
  rowLin (fun k => X (ix3 (i 0) (i 1) k)) (fun k j => W (ix2 k j)) (fun j => b (ix1 j)) (i 2)

/-- One round's node update on the stacked arrays: entry (t, n, j) is `act` of row (t, n) of `A + Hh`
    through the two-layer network of node type `t`. -/
def Gmlp (act : EReal → EReal) (A Hh : TNH.Idx → EReal) (W1 : THH.Idx → EReal) (b1 : T1H.Idx → EReal)
    (W2 : THH.Idx → EReal) (b2 : T1H.Idx → EReal) : TNH.Idx → EReal := fun i =>
  act (rowMlp (fun k => A (ix3 (i 0) (i 1) k) + Hh (ix3 (i 0) (i 1) k))
    (fun k j => W1 (ix3 (i 0) k j)) (fun j => b1 (ix3 (i 0) (0 : Fin 1) j))
    (fun k j => W2 (ix3 (i 0) k j)) (fun j => b2 (ix3 (i 0) (0 : Fin 1) j)) (i 2))

/-- Round one ends in the exponential linear unit, round two does not. -/
abbrev G1 := Gmlp eluK
abbrev G2 := Gmlp id

end Cert.Gin

end
-- ==== Proof.RowLemmas.lean ====
/-
  The arithmetic of one block, read at an index.

  A block of the node matrix is 2000 rows of 256 numbers.  Each kernel body drops the block's unit axis,
  multiplies by a 256 × 256 matrix, adds a bias row to every row, and puts the unit axis back.  Read at
  the entry (row r, column j), a product with a zero accumulator is the sum over k of A(r,k) · B(k,j);
  rounding to a narrower format is the identity on the extended reals; a bias row broadcast down the rows
  reads the bias at column j.  So each body's result at (r, j) is the row function of the specification
  applied to row r of the block.
-/
import proofs.«135935_j163208757329_2_alg».proof.Proof.Spec
import proofs.«135935_j163208757329_2_alg».proof.Proof.Gen.KernelIdeal.Skeleton
import Idealize.ShloMosaic.Lib.Pipeline.Value
import Idealize.ShloMosaic.Lib.ValueLayout
import Idealize.ShloMosaic.PureOps.Ideal.Laws

noncomputable section

namespace Cert.KernelIdeal.RegionValue

open Cert.KernelIdeal Idealize.ShloMosaic Idealize.ShloMosaic.ValueIdx
open Cert.Gin (rowLin relu0 eluK rowMlp zeroW oneW Gmlp TNH THH T1H)

/-- The product of a 2000 × 256 block with a 256 × 256 matrix, accumulated into zero, read at (r, j):
    the sum over the contracted coordinate of the products of the entries. -/
theorem matmul_row {φ₁ φ₂ : FTy} (A : FVec Ideal S2000x256 φ₁) (B : FVec Ideal S256x256 φ₂) (r : Fin 2000) (j : Fin 256) :
    matmul dot_S2000x256_S256x256_S2000x256_1_0_0_1_n_n none A B (constant (F := Ideal) S2000x256 .f32 0x00000000#32) (ix2 r j)
      = ∑ k : Fin 256, A (ix2 r k) * B (ix2 k j) := by
  show FloatOps.matmul _ none A B _ (ix2 r j) = _
  rw [Ideal.matmul_constant_zero_apply,
    ← Equiv.sum_comp (contrEquiv1 dot_S2000x256_S256x256_S2000x256_1_0_0_1_n_n 256 rfl rfl).symm]
  refine Finset.sum_congr rfl fun k _ => ?_
  have ck := contrEquiv1_symm_val dot_S2000x256_S256x256_S2000x256_1_0_0_1_n_n 256 rfl rfl k
  have l : dot_S2000x256_S256x256_S2000x256_1_0_0_1_n_n.lhsIdx (ix2 r j)
      ((contrEquiv1 _ 256 rfl rfl).symm k) = ix2 r k := by
    funext ax; apply Fin.ext
    match ax with
    | ⟨0, _⟩ => simp [DotDims.lhsIdx, dot_S2000x256_S256x256_S2000x256_1_0_0_1_n_n]; rfl
    | ⟨1, _⟩ => simp [DotDims.lhsIdx, dot_S2000x256_S256x256_S2000x256_1_0_0_1_n_n]; exact ck
  have rr : dot_S2000x256_S256x256_S2000x256_1_0_0_1_n_n.rhsIdx (ix2 r j)
      ((contrEquiv1 _ 256 rfl rfl).symm k) = ix2 k j := by
    funext ax; apply Fin.ext
    match ax with
    | ⟨0, _⟩ => simp [DotDims.rhsIdx, dot_S2000x256_S256x256_S2000x256_1_0_0_1_n_n]; exact ck
    | ⟨1, _⟩ => simp [DotDims.rhsIdx, dot_S2000x256_S256x256_S2000x256_1_0_0_1_n_n]; rfl
  rw [l, rr]

/-- The encoder's body at (row r, column j) of its block: row r through the affine layer. -/
theorem pay0_apply (x0 : Vec Ideal S1x2000x256 .f32) (x1 : Vec Ideal S256x256 .f32) (x2 : Vec Ideal S256 .f32)
    (u : Fin 1) (r : Fin 2000) (j : Fin 256) :
    Gen.k0_pay1 x0 x1 x2 (ix3 u r j)
      = rowLin (fun k => x0 (ix3 (0 : Fin 1) r k)) (fun k j => x1 (ix2 k j)) (fun j => x2 (ix1 j)) j := by
  unfold Gen.k0_pay1
  rw [shapeCast_ab_1ab_apply, addf_apply, matmul_row, broadcastTo_1b_ab_apply, shapeCast_a_1a_apply]
  unfold rowLin
  refine congrArg (· + x2 (ix1 j)) (Finset.sum_congr rfl fun k _ => ?_)
  rw [truncf_apply, truncf_apply, shapeCast_1ab_ab_apply]

/-- The zero offsets of a whole-block access, as a constant function (ranks 3, 2 and 1). -/
theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The exponential of a block, entry by entry. -/
theorem exp_apply {s : Shape} {φ : FTy} (x : FVec Ideal s φ) (i : s.Idx) : exp x i = Ideal.exp (x i) := rfl

/-- The two-layer network on a block, read at (r, j): the sum of two blocks, rounded, times the first weight
    matrix, plus the first bias row, rectified, rounded, times the second weight matrix, plus the second bias
    row, is `rowMlp` of row r of the summed blocks.  Both message-passing bodies contain this term. -/
theorem mlp_core (z0 z1 : FVec Ideal S2000x256 .f32) (w1 w2 : FVec Ideal S256x256 .f32) (c1 c2 : FVec Ideal S1x256 .f32)
    (hlt : FTy.bits .bf16 < FTy.bits .f32) (hb : S1x256.Broadcasts S2000x256) (r : Fin 2000) (j : Fin 256) :
    addf (matmul dot_S2000x256_S256x256_S2000x256_1_0_0_1_n_n none
        (truncf .bf16 (maximumf (addf (matmul dot_S2000x256_S256x256_S2000x256_1_0_0_1_n_n none
            (truncf .bf16 (addf z0 z1) hlt) (truncf .bf16 w1 hlt) (constant (F := Ideal) S2000x256 .f32 0x00000000#32))
          (broadcastTo S2000x256 c1 hb)) (broadcast S2000x256 (Scalar.ofBits (F := Ideal) .f32 0x00000000#32))) hlt)
        (truncf .bf16 w2 hlt) (constant (F := Ideal) S2000x256 .f32 0x00000000#32))
      (broadcastTo S2000x256 c2 hb) (ix2 r j)
    = rowMlp (fun k => z0 (ix2 r k) + z1 (ix2 r k)) (fun k j => w1 (ix2 k j)) (fun j => c1 (ix2 (0 : Fin 1) j))
        (fun k j => w2 (ix2 k j)) (fun j => c2 (ix2 (0 : Fin 1) j)) j := by
  rw [addf_apply, matmul_row, broadcastTo_1b_ab_apply]
  unfold rowMlp rowLin
  refine congrArg (· + c2 (ix2 (0 : Fin 1) j)) (Finset.sum_congr rfl fun k _ => ?_)
  rw [truncf_apply, truncf_apply, maximumf_apply, broadcast_apply, addf_apply, matmul_row, broadcastTo_1b_ab_apply]
  unfold relu0
  refine congrArg (fun z => max (z + c1 (ix2 (0 : Fin 1) k)) zeroW * w2 (ix2 k j)) (Finset.sum_congr rfl fun k' _ => ?_)
  rw [truncf_apply, truncf_apply, addf_apply]

/-- The second round's body at (row r, column j) of its block: row r of the two summed input blocks through the
    two-layer network. -/
theorem pay2_apply (v0 v2 : Vec Ideal S1x2000x256 .f32) (v6 : Vec Ideal S1x256x256 .f32) (v10 : Vec Ideal S1x1x256 .f32)
    (v17 : Vec Ideal S1x256x256 .f32) (v21 : Vec Ideal S1x1x256 .f32) (u : Fin 1) (r : Fin 2000) (j : Fin 256) :
    Gen.k2_pay1 v0 v2 v6 v10 v17 v21 (ix3 u r j)
      = rowMlp (fun k => v0 (ix3 (0 : Fin 1) r k) + v2 (ix3 (0 : Fin 1) r k)) (fun k j => v6 (ix3 (0 : Fin 1) k j))
          (fun j => v10 (ix3 (0 : Fin 1) (0 : Fin 1) j)) (fun k j => v17 (ix3 (0 : Fin 1) k j))
          (fun j => v21 (ix3 (0 : Fin 1) (0 : Fin 1) j)) j := by
  unfold Gen.k2_pay1
  rw [shapeCast_ab_1ab_apply, mlp_core]
  simp only [shapeCast_1ab_ab_apply]

/-- The first round's body at (row r, column j) of its block: the same, through the exponential linear unit. -/
theorem pay1_apply (v0 v2 : Vec Ideal S1x2000x256 .f32) (v6 : Vec Ideal S1x256x256 .f32) (v10 : Vec Ideal S1x1x256 .f32)
    (v17 : Vec Ideal S1x256x256 .f32) (v21 : Vec Ideal S1x1x256 .f32) (u : Fin 1) (r : Fin 2000) (j : Fin 256) :
    Gen.k1_pay1 (Gen.k1_pay2 v0 v2 v6 v10 v17 v21) (ix3 u r j)
      = eluK (rowMlp (fun k => v0 (ix3 (0 : Fin 1) r k) + v2 (ix3 (0 : Fin 1) r k)) (fun k j => v6 (ix3 (0 : Fin 1) k j))
          (fun j => v10 (ix3 (0 : Fin 1) (0 : Fin 1) j)) (fun k j => v17 (ix3 (0 : Fin 1) k j))
          (fun j => v21 (ix3 (0 : Fin 1) (0 : Fin 1) j)) j) := by
  unfold Gen.k1_pay1
  rw [shapeCast_ab_1ab_apply]
  unfold Gen.k1_pay2
  rw [select_apply, cmpf_apply, subf_apply, exp_apply, broadcast_apply, broadcast_apply, mlp_core]
  simp only [shapeCast_1ab_ab_apply]
  rfl

/-- One entry of a message-passing block.  If row r of the two input blocks is row (a, n) of the arrays `A` and
    `Hh`, and the weight and bias blocks are those of node type a, then `act` of the two-layer network on row r,
    at column j, is `Gmlp act` of the arrays at (a, n, j). -/
theorem blockMlp_entry (act : EReal → EReal) (A Hh : TNH.Idx → EReal) (W1 : THH.Idx → EReal) (b1 : T1H.Idx → EReal)
    (W2 : THH.Idx → EReal) (b2 : T1H.Idx → EReal)
    (x0 x1 : Vec Ideal S1x2000x256 .f32) (x2 : Vec Ideal S1x256x256 .f32) (x3 : Vec Ideal S1x1x256 .f32)
    (x4 : Vec Ideal S1x256x256 .f32) (x5 : Vec Ideal S1x1x256 .f32)
    (r : Fin 2000) (j : Fin 256) (a : Fin 2) (n : Fin 50000)
    (h0 : ∀ k : Fin 256, x0 (ix3 (0 : Fin 1) r k) = A (ix3 a n k))
    (h1 : ∀ k : Fin 256, x1 (ix3 (0 : Fin 1) r k) = Hh (ix3 a n k))
    (h2 : ∀ k j : Fin 256, x2 (ix3 (0 : Fin 1) k j) = W1 (ix3 a k j))
    (h3 : ∀ j : Fin 256, x3 (ix3 (0 : Fin 1) (0 : Fin 1) j) = b1 (ix3 a (0 : Fin 1) j))
    (h4 : ∀ k j : Fin 256, x4 (ix3 (0 : Fin 1) k j) = W2 (ix3 a k j))
    (h5 : ∀ j : Fin 256, x5 (ix3 (0 : Fin 1) (0 : Fin 1) j) = b2 (ix3 a (0 : Fin 1) j)) :
    act (rowMlp (fun k => x0 (ix3 (0 : Fin 1) r k) + x1 (ix3 (0 : Fin 1) r k)) (fun k j => x2 (ix3 (0 : Fin 1) k j))
        (fun j => x3 (ix3 (0 : Fin 1) (0 : Fin 1) j)) (fun k j => x4 (ix3 (0 : Fin 1) k j))
        (fun j => x5 (ix3 (0 : Fin 1) (0 : Fin 1) j)) j)
      = Gmlp act A Hh W1 b1 W2 b2 (ix3 a n j) := by
  show _ = act (rowMlp (fun k => A (ix3 a n k) + Hh (ix3 a n k)) (fun k j => W1 (ix3 a k j))
    (fun j => b1 (ix3 a (0 : Fin 1) j)) (fun k j => W2 (ix3 a k j)) (fun j => b2 (ix3 a (0 : Fin 1) j)) j)
  simp only [h0, h1, h2, h3, h4, h5]

end Cert.KernelIdeal.RegionValue

end
-- ==== Proof.Region0.lean ====
/-
  The encoder region's result as one array.

  The grid has 2 × 25 points; point t works on node type t / 25 and on the 2000 nodes starting at
  (t % 25) · 2000.  Its input block is those rows of the stacked feature array, its weight and bias
  blocks are the whole weight matrix and bias row, and what it writes back is the same rows of the
  result.  Since an affine layer looks at one row at a time, each point writes its block of the
  whole-array function `G0`, and the 50 blocks cover the array: node type a, node n lies in the block
  of point a · 25 + n / 2000.
-/
import proofs.«135935_j163208757329_2_alg».proof.Proof.Spec
import proofs.«135935_j163208757329_2_alg».proof.Proof.RowLemmas
import proofs.«135935_j163208757329_2_alg».proof.Proof.Gen.KernelIdeal.Frame
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx
open Idealize.ShloMosaic.Pipeline (Dat)
open Cert.Gin (G0 rowLin TNH HH Hv)

variable (V : (c : Dev nD) → (b : Ref sig .tc) → Buf (Elt Ideal) ((c : Thread nD τ).loc b))

/-- One entry of the encoder's block: if row r of the input block is row (a, n) of `X`, and the weight and bias
    blocks are `W` and `b`, the body's result at (r, j) is `G0 X W b` at (a, n, j). -/
theorem block0_entry (X : TNH.Idx → EReal) (W : HH.Idx → EReal) (b : Hv.Idx → EReal)
    (x0 : Vec Ideal S1x2000x256 .f32) (x1 : Vec Ideal S256x256 .f32) (x2 : Vec Ideal S256 .f32)
    (u : Fin 1) (r : Fin 2000) (j : Fin 256) (a : Fin 2) (n : Fin 50000)
    (h0 : ∀ k : Fin 256, x0 (ix3 (0 : Fin 1) r k) = X (ix3 a n k))
    (h1 : ∀ k j : Fin 256, x1 (ix2 k j) = W (ix2 k j)) (h2 : ∀ j : Fin 256, x2 (ix1 j) = b (ix1 j)) :
    Gen.k0_pay1 x0 x1 x2 (ix3 u r j) = G0 X W b (ix3 a n j) := by
  rw [pay0_apply]
  show rowLin _ _ _ j = rowLin (fun k => X (ix3 a n k)) (fun k j => W (ix2 k j)) (fun j => b (ix1 j)) j
  simp only [h0, h1, h2]

/-- The printed index maps over the 50 grid points: the feature window moves with the result window, the weight
    and bias windows stay at block 0, and the result's block is (t / 25, t % 25, 0). -/
theorem idx_facts0 : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val / 25 ∧ win0_3.index t (1 : Fin 3) = t.val % 25
    ∧ win0_3.index t (2 : Fin 3) = 0 :=
  (by decide +kernel : ∀ t : Fin grid0.N, _)

/-- What point t writes back is block t of `G0` of the arrays as the region finds them. -/
theorem flushed0_eq (c : Dev nD) (t : Fin cfg0.N) :
    (Gen.dat0 (F := Ideal) V c).flushed 3 t = ((cfg0.win 3).blk t).view.read (Elt Ideal)
      (G0 (V c (Pipeline.arrRef spec0 0)) (V c (Pipeline.arrRef spec0 1)) (V c (Pipeline.arrRef spec0 2))) := by
  show (cfg0.win 3).cut (grid0.coords t) ((Gen.dat0 (F := Ideal) V c).after 3 t) = _
  rw [Gen.after0_3]
  unfold Gen.out0_3
  rw [View.canon_unit_zero zero3]
  simp only [View.ld_unit_zero (S := S1x2000x256) zero3, View.ld_unit_zero (S := S256x256) zero2,
    View.ld_unit_zero (S := S256) zero1]
  obtain ⟨e00, e01, e02, e10, e11, e20, e30, e31, e32⟩ := idx_facts0 t
  have ht : t.val < 50 := lt_of_lt_of_eq t.isLt Gen.N_0
  funext y
  have hy0 : (y 0).val < 1 := (y 0).isLt
  have hy1 : (y 1).val < 2000 := (y 1).isLt
  have hy2 : (y 2).val < 256 := (y 2).isLt
  show Gen.k0_pay1 (Gen.iblk0 V c 0 t) (Gen.iblk0 V c 1 t) (Gen.iblk0 V c 2 t) y
    = G0 (V c (Pipeline.arrRef spec0 0)) (V c (Pipeline.arrRef spec0 1)) (V c (Pipeline.arrRef spec0 2))
        (((cfg0.win 3).blk t).view.emb y)
  have ey : y = ix3 (⟨(y 0).val, hy0⟩ : Fin 1) (⟨(y 1).val, hy1⟩ : Fin 2000) (⟨(y 2).val, hy2⟩ : Fin 256) :=
    funext fun a => match a with | ⟨0, _⟩ => rfl | ⟨1, _⟩ => rfl | ⟨2, _⟩ => rfl
  have ei : ((cfg0.win 3).blk t).view.emb y
      = ix3 (⟨t.val / 25, by omega⟩ : Fin 2) (⟨t.val % 25 * 2000 + (y 1).val, by omega⟩ : Fin 50000)
          (⟨(y 2).val, hy2⟩ : Fin 256) := by
    funext a; apply Fin.ext
    match a with
    | ⟨0, _⟩ => show win0_3.index t (0 : Fin 3) * 1 + 1 * (y 0).val = t.val / 25; omega
    | ⟨1, _⟩ => show win0_3.index t (1 : Fin 3) * 2000 + 1 * (y 1).val = t.val % 25 * 2000 + (y 1).val; omega
    | ⟨2, _⟩ => show win0_3.index t (2 : Fin 3) * 256 + 1 * (y 2).val = (y 2).val; omega
  rw [ei]
  refine (congrArg (Gen.k0_pay1 (Gen.iblk0 V c 0 t) (Gen.iblk0 V c 1 t) (Gen.iblk0 V c 2 t)) ey).trans ?_
  refine block0_entry _ _ _ _ _ _ _ _ _ _ _ (fun k => ?_) (fun k j => ?_) (fun j => ?_)
  · show V c (Pipeline.arrRef spec0 0) (((cfg0.win 0).blk t).view.emb (ix3 (0 : Fin 1) (⟨(y 1).val, hy1⟩ : Fin 2000) k)) = _
    refine congrArg _ (funext fun a => Fin.ext ?_)
    match a with
    | ⟨0, _⟩ => show win0_0.index t (0 : Fin 3) * 1 + 1 * 0 = t.val / 25; omega
    | ⟨1, _⟩ => show win0_0.index t (1 : Fin 3) * 2000 + 1 * (y 1).val = t.val % 25 * 2000 + (y 1).val; omega
    | ⟨2, _⟩ => show win0_0.index t (2 : Fin 3) * 256 + 1 * k.val = k.val; omega
  · show V c (Pipeline.arrRef spec0 1) (((cfg0.win 1).blk t).view.emb (ix2 k j)) = _
    refine congrArg _ (funext fun a => Fin.ext ?_)
    match a with
    | ⟨0, _⟩ => show win0_1.index t (0 : Fin 2) * 256 + 1 * k.val = k.val; omega
    | ⟨1, _⟩ => show win0_1.index t (1 : Fin 2) * 256 + 1 * j.val = j.val; omega
  · show V c (Pipeline.arrRef spec0 2) (((cfg0.win 2).blk t).view.emb (ix1 j)) = _
    refine congrArg _ (funext fun a => Fin.ext ?_)
    match a with
    | ⟨0, _⟩ => show win0_2.index t (0 : Fin 1) * 256 + 1 * j.val = j.val; omega

/-- An index of the result array is in point t's block iff each coordinate is in the block's range on its axis. -/
theorem mem_blk0 (t : Fin cfg0.N) (i : S2x50000x256.Idx) :
    i ∈ ((cfg0.win 3).blk t).view.set ↔ ∀ a : Fin 3, win0_3.index t a * S1x2000x256.size a ≤ (i a).val
      ∧ (i a).val < win0_3.index t a * S1x2000x256.size a + S1x2000x256.size a := by
  show i ∈ ((View.whole main_v3).slice (win0_3.rect t)).set ↔ _
  rw [View.set_slice_whole, Rect.mem_set_unit]
  exact Iff.rfl

/-- The result array after the region: `G0` of the feature, weight and bias arrays as the region finds them. -/
theorem final0 (c : Dev nD) : (Gen.dat0 (F := Ideal) V c).arrAt 3 cfg0.N
    = G0 (V c (Pipeline.arrRef spec0 0)) (V c (Pipeline.arrRef spec0 1)) (V c (Pipeline.arrRef spec0 2)) :=
  (Gen.dat0 (F := Ideal) V c).arrAt_eq_of_cover 3 _ (fun t _ => flushed0_eq V c t) fun i => by
    have hi0 : (i 0).val < 2 := (i 0).isLt
    have hi1 : (i 1).val < 50000 := (i 1).isLt
    have hi2 : (i 2).val < 256 := (i 2).isLt
    obtain ⟨t, ht⟩ : ∃ t : Fin cfg0.N, t.val = (i 0).val * 25 + (i 1).val / 2000 :=
      ⟨⟨(i 0).val * 25 + (i 1).val / 2000, by rw [show cfg0.N = 50 from Gen.N_0]; omega⟩, rfl⟩
    obtain ⟨e00, e01, e02, e10, e11, e20, e30, e31, e32⟩ := idx_facts0 t
    refine ⟨t, Gen.flush0_3 t, ?_⟩
    rw [mem_blk0]
    intro a
    match a with
    | ⟨0, _⟩ => show win0_3.index t (0 : Fin 3) * 1 ≤ (i 0).val ∧ (i 0).val < win0_3.index t (0 : Fin 3) * 1 + 1; omega
    | ⟨1, _⟩ => show win0_3.index t (1 : Fin 3) * 2000 ≤ (i 1).val ∧ (i 1).val < win0_3.index t (1 : Fin 3) * 2000 + 2000; omega
    | ⟨2, _⟩ => show win0_3.index t (2 : Fin 3) * 256 ≤ (i 2).val ∧ (i 2).val < win0_3.index t (2 : Fin 3) * 256 + 256; omega

end Cert.KernelIdeal.RegionValue

end
-- ==== Proof.Region1.lean ====
/-
  The first message-passing region's result as one array.

  The grid has 2 × 25 points; point t works on node type t / 25 and on the 2000 nodes starting at
  (t % 25) · 2000.  Its two input blocks are those rows of the aggregated messages and of the hidden
  states, its weight and bias blocks are the matrices and bias rows of node type t / 25, and what it
  writes back is the same rows of the result.  The two-layer network, and the exponential linear unit after it, looks at one row at a
  time, so each point writes its block of the whole-array function `G1`, and the 50 blocks cover the
  array: node type a, node n lies in the block of point a · 25 + n / 2000.
-/
import proofs.«135935_j163208757329_2_alg».proof.Proof.Spec
import proofs.«135935_j163208757329_2_alg».proof.Proof.RowLemmas
import proofs.«135935_j163208757329_2_alg».proof.Proof.Gen.KernelIdeal.Frame
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx
open Idealize.ShloMosaic.Pipeline (Dat)
open Cert.Gin (G1 Gmlp eluK rowMlp TNH THH T1H)

variable (V : (c : Dev nD) → (b : Ref sig .tc) → Buf (Elt Ideal) ((c : Thread nD τ).loc b))

/-- One entry of this region's block: the body's result at (r, j) is `G1` of the arrays at (a, n, j), when row r
    of the input blocks is row (a, n) of the arrays and the weight and bias blocks are those of node type a. -/
theorem block1_entry (A Hh : TNH.Idx → EReal) (W1 : THH.Idx → EReal) (b1 : T1H.Idx → EReal)
    (W2 : THH.Idx → EReal) (b2 : T1H.Idx → EReal)
    (x0 x1 : Vec Ideal S1x2000x256 .f32) (x2 : Vec Ideal S1x256x256 .f32) (x3 : Vec Ideal S1x1x256 .f32)
    (x4 : Vec Ideal S1x256x256 .f32) (x5 : Vec Ideal S1x1x256 .f32)
    (u : Fin 1) (r : Fin 2000) (j : Fin 256) (a : Fin 2) (n : Fin 50000)
    (h0 : ∀ k : Fin 256, x0 (ix3 (0 : Fin 1) r k) = A (ix3 a n k))
    (h1 : ∀ k : Fin 256, x1 (ix3 (0 : Fin 1) r k) = Hh (ix3 a n k))
    (h2 : ∀ k j : Fin 256, x2 (ix3 (0 : Fin 1) k j) = W1 (ix3 a k j))
    (h3 : ∀ j : Fin 256, x3 (ix3 (0 : Fin 1) (0 : Fin 1) j) = b1 (ix3 a (0 : Fin 1) j))
    (h4 : ∀ k j : Fin 256, x4 (ix3 (0 : Fin 1) k j) = W2 (ix3 a k j))
    (h5 : ∀ j : Fin 256, x5 (ix3 (0 : Fin 1) (0 : Fin 1) j) = b2 (ix3 a (0 : Fin 1) j)) :
    Gen.k1_pay1 (Gen.k1_pay2 x0 x1 x2 x3 x4 x5) (ix3 u r j) = G1 A Hh W1 b1 W2 b2 (ix3 a n j) := by
  rw [pay1_apply]
  exact blockMlp_entry eluK A Hh W1 b1 W2 b2 x0 x1 x2 x3 x4 x5 r j a n h0 h1 h2 h3 h4 h5

/-- The printed index maps over the 50 grid points: the message and hidden-state windows move with the result
    window, whose block is (t / 25, t % 25, 0); the weight and bias windows sit at block (t / 25, 0, 0). -/
theorem idx_facts1 : ∀ t : Fin cfg1.N,
    win1_6.index t (0 : Fin 3) = t.val / 25 ∧ win1_6.index t (1 : Fin 3) = t.val % 25
    ∧ win1_6.index t (2 : Fin 3) = 0
    ∧ win1_0.index t (0 : Fin 3) = t.val / 25 ∧ win1_0.index t (1 : Fin 3) = t.val % 25
    ∧ win1_0.index t (2 : Fin 3) = 0
    ∧ win1_1.index t (0 : Fin 3) = t.val / 25 ∧ win1_1.index t (1 : Fin 3) = t.val % 25
    ∧ win1_1.index t (2 : Fin 3) = 0
    ∧ win1_2.index t (0 : Fin 3) = t.val / 25 ∧ win1_2.index t (1 : Fin 3) = 0 ∧ win1_2.index t (2 : Fin 3) = 0
    ∧ win1_3.index t (0 : Fin 3) = t.val / 25 ∧ win1_3.index t (1 : Fin 3) = 0 ∧ win1_3.index t (2 : Fin 3) = 0
    ∧ win1_4.index t (0 : Fin 3) = t.val / 25 ∧ win1_4.index t (1 : Fin 3) = 0 ∧ win1_4.index t (2 : Fin 3) = 0
    ∧ win1_5.index t (0 : Fin 3) = t.val / 25 ∧ win1_5.index t (1 : Fin 3) = 0 ∧ win1_5.index t (2 : Fin 3) = 0 :=
  (by decide +kernel : ∀ t : Fin grid1.N, _)

set_option maxHeartbeats 2000000 in
/-- What point t writes back is block t of `G1` of the arrays as the region finds them. -/
theorem flushed1_eq (c : Dev nD) (t : Fin cfg1.N) :
    (Gen.dat1 (F := Ideal) V c).flushed 6 t = ((cfg1.win 6).blk t).view.read (Elt Ideal)
      (G1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((Gen.dat1 (F := Ideal) V c).after 6 t) = _
  rw [Gen.after1_6]
  unfold Gen.out1_6
  rw [View.canon_unit_zero zero3]
  simp only [View.ld_unit_zero (S := S1x2000x256) zero3, View.ld_unit_zero (S := S1x256x256) zero3,
    View.ld_unit_zero (S := S1x1x256) zero3]
  obtain ⟨e60, e61, e62, e00, e01, e02, e10, e11, e12, e20, e21, e22, e30, e31, e32, e40, e41, e42, e50, e51, e52⟩ :=
    idx_facts1 t
  have ht : t.val < 50 := lt_of_lt_of_eq t.isLt Gen.N_1
  funext y
  have hy0 : (y 0).val < 1 := (y 0).isLt
  have hy1 : (y 1).val < 2000 := (y 1).isLt
  have hy2 : (y 2).val < 256 := (y 2).isLt
  show Gen.k1_pay1 (Gen.k1_pay2 (Gen.iblk1 V c 0 t) (Gen.iblk1 V c 1 t) (Gen.iblk1 V c 2 t) (Gen.iblk1 V c 3 t) (Gen.iblk1 V c 4 t) (Gen.iblk1 V c 5 t)) y
    = G1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (((cfg1.win 6).blk t).view.emb y)
  have ey : y = ix3 (⟨(y 0).val, hy0⟩ : Fin 1) (⟨(y 1).val, hy1⟩ : Fin 2000) (⟨(y 2).val, hy2⟩ : Fin 256) :=
    funext fun a => match a with | ⟨0, _⟩ => rfl | ⟨1, _⟩ => rfl | ⟨2, _⟩ => rfl
  have ei : ((cfg1.win 6).blk t).view.emb y
      = ix3 (⟨t.val / 25, by omega⟩ : Fin 2) (⟨t.val % 25 * 2000 + (y 1).val, by omega⟩ : Fin 50000)
          (⟨(y 2).val, hy2⟩ : Fin 256) := by
    funext a; apply Fin.ext
    match a with
    | ⟨0, _⟩ => show win1_6.index t (0 : Fin 3) * 1 + 1 * (y 0).val = t.val / 25; omega
    | ⟨1, _⟩ => show win1_6.index t (1 : Fin 3) * 2000 + 1 * (y 1).val = t.val % 25 * 2000 + (y 1).val; omega
    | ⟨2, _⟩ => show win1_6.index t (2 : Fin 3) * 256 + 1 * (y 2).val = (y 2).val; omega
  rw [ei]
  refine (congrArg (Gen.k1_pay1 (Gen.k1_pay2 (Gen.iblk1 V c 0 t) (Gen.iblk1 V c 1 t) (Gen.iblk1 V c 2 t) (Gen.iblk1 V c 3 t) (Gen.iblk1 V c 4 t) (Gen.iblk1 V c 5 t))) ey).trans ?_
  refine block1_entry (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
    (Gen.iblk1 V c 0 t) (Gen.iblk1 V c 1 t) (Gen.iblk1 V c 2 t) (Gen.iblk1 V c 3 t) (Gen.iblk1 V c 4 t) (Gen.iblk1 V c 5 t)
    (⟨(y 0).val, hy0⟩ : Fin 1) (⟨(y 1).val, hy1⟩ : Fin 2000) (⟨(y 2).val, hy2⟩ : Fin 256)
    (⟨t.val / 25, by omega⟩ : Fin 2) (⟨t.val % 25 * 2000 + (y 1).val, by omega⟩ : Fin 50000)
    (fun k => ?_) (fun k => ?_) (fun k j => ?_) (fun j => ?_) (fun k j => ?_) (fun j => ?_)
  · show V c (Pipeline.arrRef spec1 0) (((cfg1.win 0).blk t).view.emb (ix3 (0 : Fin 1) (⟨(y 1).val, hy1⟩ : Fin 2000) k)) = _
    refine congrArg _ (funext fun a => Fin.ext ?_)
    match a with
    | ⟨0, _⟩ => show win1_0.index t (0 : Fin 3) * 1 + 1 * 0 = t.val / 25; omega
    | ⟨1, _⟩ => show win1_0.index t (1 : Fin 3) * 2000 + 1 * (y 1).val = t.val % 25 * 2000 + (y 1).val; omega
    | ⟨2, _⟩ => show win1_0.index t (2 : Fin 3) * 256 + 1 * k.val = k.val; omega
  · show V c (Pipeline.arrRef spec1 1) (((cfg1.win 1).blk t).view.emb (ix3 (0 : Fin 1) (⟨(y 1).val, hy1⟩ : Fin 2000) k)) = _
    refine congrArg _ (funext fun a => Fin.ext ?_)
    match a with
    | ⟨0, _⟩ => show win1_1.index t (0 : Fin 3) * 1 + 1 * 0 = t.val / 25; omega
    | ⟨1, _⟩ => show win1_1.index t (1 : Fin 3) * 2000 + 1 * (y 1).val = t.val % 25 * 2000 + (y 1).val; omega
    | ⟨2, _⟩ => show win1_1.index t (2 : Fin 3) * 256 + 1 * k.val = k.val; omega
  · show V c (Pipeline.arrRef spec1 2) (((cfg1.win 2).blk t).view.emb (ix3 (0 : Fin 1) k j)) = _
    refine congrArg _ (funext fun a => Fin.ext ?_)
    match a with
    | ⟨0, _⟩ => show win1_2.index t (0 : Fin 3) * 1 + 1 * 0 = t.val / 25; omega
    | ⟨1, _⟩ => show win1_2.index t (1 : Fin 3) * 256 + 1 * k.val = k.val; omega
    | ⟨2, _⟩ => show win1_2.index t (2 : Fin 3) * 256 + 1 * j.val = j.val; omega
  · show V c (Pipeline.arrRef spec1 3) (((cfg1.win 3).blk t).view.emb (ix3 (0 : Fin 1) (0 : Fin 1) j)) = _
    refine congrArg _ (funext fun a => Fin.ext ?_)
    match a with
    | ⟨0, _⟩ => show win1_3.index t (0 : Fin 3) * 1 + 1 * 0 = t.val / 25; omega
    | ⟨1, _⟩ => show win1_3.index t (1 : Fin 3) * 1 + 1 * 0 = 0; omega
    | ⟨2, _⟩ => show win1_3.index t (2 : Fin 3) * 256 + 1 * j.val = j.val; omega
  · show V c (Pipeline.arrRef spec1 4) (((cfg1.win 4).blk t).view.emb (ix3 (0 : Fin 1) k j)) = _
    refine congrArg _ (funext fun a => Fin.ext ?_)
    match a with
    | ⟨0, _⟩ => show win1_4.index t (0 : Fin 3) * 1 + 1 * 0 = t.val / 25; omega
    | ⟨1, _⟩ => show win1_4.index t (1 : Fin 3) * 256 + 1 * k.val = k.val; omega
    | ⟨2, _⟩ => show win1_4.index t (2 : Fin 3) * 256 + 1 * j.val = j.val; omega
  · show V c (Pipeline.arrRef spec1 5) (((cfg1.win 5).blk t).view.emb (ix3 (0 : Fin 1) (0 : Fin 1) j)) = _
    refine congrArg _ (funext fun a => Fin.ext ?_)
    match a with
    | ⟨0, _⟩ => show win1_5.index t (0 : Fin 3) * 1 + 1 * 0 = t.val / 25; omega
    | ⟨1, _⟩ => show win1_5.index t (1 : Fin 3) * 1 + 1 * 0 = 0; omega
    | ⟨2, _⟩ => show win1_5.index t (2 : Fin 3) * 256 + 1 * j.val = j.val; omega

/-- An index of the result array is in point t's block iff each coordinate is in the block's range on its axis. -/
theorem mem_blk1 (t : Fin cfg1.N) (i : S2x50000x256.Idx) :
    i ∈ ((cfg1.win 6).blk t).view.set ↔ ∀ a : Fin 3, win1_6.index t a * S1x2000x256.size a ≤ (i a).val
      ∧ (i a).val < win1_6.index t a * S1x2000x256.size a + S1x2000x256.size a := by
  show i ∈ ((View.whole main_v55).slice (win1_6.rect t)).set ↔ _
  rw [View.set_slice_whole, Rect.mem_set_unit]
  exact Iff.rfl

/-- The result array after the region: `G1` of the six input arrays as the region finds them. -/
theorem final1 (c : Dev nD) : (Gen.dat1 (F := Ideal) V c).arrAt 6 cfg1.N
    = G1 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) :=
  (Gen.dat1 (F := Ideal) V c).arrAt_eq_of_cover 6 _ (fun t _ => flushed1_eq V c t) fun i => by
    have hi0 : (i 0).val < 2 := (i 0).isLt
    have hi1 : (i 1).val < 50000 := (i 1).isLt
    have hi2 : (i 2).val < 256 := (i 2).isLt
    obtain ⟨t, ht⟩ : ∃ t : Fin cfg1.N, t.val = (i 0).val * 25 + (i 1).val / 2000 :=
      ⟨⟨(i 0).val * 25 + (i 1).val / 2000, by rw [show cfg1.N = 50 from Gen.N_1]; omega⟩, rfl⟩
    obtain ⟨e60, e61, e62, -⟩ := idx_facts1 t
    refine ⟨t, Gen.flush1_6 t, ?_⟩
    rw [mem_blk1]
    intro a
    match a with
    | ⟨0, _⟩ => show win1_6.index t (0 : Fin 3) * 1 ≤ (i 0).val ∧ (i 0).val < win1_6.index t (0 : Fin 3) * 1 + 1; omega
    | ⟨1, _⟩ => show win1_6.index t (1 : Fin 3) * 2000 ≤ (i 1).val ∧ (i 1).val < win1_6.index t (1 : Fin 3) * 2000 + 2000; omega
    | ⟨2, _⟩ => show win1_6.index t (2 : Fin 3) * 256 ≤ (i 2).val ∧ (i 2).val < win1_6.index t (2 : Fin 3) * 256 + 256; omega

end Cert.KernelIdeal.RegionValue

end
-- ==== Proof.Region2.lean ====
/-
  The second message-passing region's result as one array.

  The grid has 2 × 25 points; point t works on node type t / 25 and on the 2000 nodes starting at
  (t % 25) · 2000.  Its two input blocks are those rows of the aggregated messages and of the hidden
  states, its weight and bias blocks are the matrices and bias rows of node type t / 25, and what it
  writes back is the same rows of the result.  The two-layer network looks at one row at a
  time, so each point writes its block of the whole-array function `G2`, and the 50 blocks cover the
  array: node type a, node n lies in the block of point a · 25 + n / 2000.
-/
import proofs.«135935_j163208757329_2_alg».proof.Proof.Spec
import proofs.«135935_j163208757329_2_alg».proof.Proof.RowLemmas
import proofs.«135935_j163208757329_2_alg».proof.Proof.Gen.KernelIdeal.Frame
import Idealize.ShloMosaic.Lib.Pipeline.Value

noncomputable section

namespace Cert.KernelIdeal.RegionValue

open Cert.KernelIdeal Idealize.ShloMosaic Idealize.ShloMosaic.TcCoe Idealize.SL.Sem Idealize.ShloMosaic.ValueIdx
open Idealize.ShloMosaic.Pipeline (Dat)
open Cert.Gin (G2 Gmlp eluK rowMlp TNH THH T1H)

variable (V : (c : Dev nD) → (b : Ref sig .tc) → Buf (Elt Ideal) ((c : Thread nD τ).loc b))

/-- One entry of this region's block: the body's result at (r, j) is `G2` of the arrays at (a, n, j), when row r
    of the input blocks is row (a, n) of the arrays and the weight and bias blocks are those of node type a. -/
theorem block2_entry (A Hh : TNH.Idx → EReal) (W1 : THH.Idx → EReal) (b1 : T1H.Idx → EReal)
    (W2 : THH.Idx → EReal) (b2 : T1H.Idx → EReal)
    (x0 x1 : Vec Ideal S1x2000x256 .f32) (x2 : Vec Ideal S1x256x256 .f32) (x3 : Vec Ideal S1x1x256 .f32)
    (x4 : Vec Ideal S1x256x256 .f32) (x5 : Vec Ideal S1x1x256 .f32)
    (u : Fin 1) (r : Fin 2000) (j : Fin 256) (a : Fin 2) (n : Fin 50000)
    (h0 : ∀ k : Fin 256, x0 (ix3 (0 : Fin 1) r k) = A (ix3 a n k))
    (h1 : ∀ k : Fin 256, x1 (ix3 (0 : Fin 1) r k) = Hh (ix3 a n k))
    (h2 : ∀ k j : Fin 256, x2 (ix3 (0 : Fin 1) k j) = W1 (ix3 a k j))
    (h3 : ∀ j : Fin 256, x3 (ix3 (0 : Fin 1) (0 : Fin 1) j) = b1 (ix3 a (0 : Fin 1) j))
    (h4 : ∀ k j : Fin 256, x4 (ix3 (0 : Fin 1) k j) = W2 (ix3 a k j))
    (h5 : ∀ j : Fin 256, x5 (ix3 (0 : Fin 1) (0 : Fin 1) j) = b2 (ix3 a (0 : Fin 1) j)) :
    Gen.k2_pay1 x0 x1 x2 x3 x4 x5 (ix3 u r j) = G2 A Hh W1 b1 W2 b2 (ix3 a n j) := by
  rw [pay2_apply]
  exact blockMlp_entry id A Hh W1 b1 W2 b2 x0 x1 x2 x3 x4 x5 r j a n h0 h1 h2 h3 h4 h5

/-- The printed index maps over the 50 grid points: the message and hidden-state windows move with the result
    window, whose block is (t / 25, t % 25, 0); the weight and bias windows sit at block (t / 25, 0, 0). -/
theorem idx_facts2 : ∀ t : Fin cfg2.N,
    win2_6.index t (0 : Fin 3) = t.val / 25 ∧ win2_6.index t (1 : Fin 3) = t.val % 25
    ∧ win2_6.index t (2 : Fin 3) = 0
    ∧ win2_0.index t (0 : Fin 3) = t.val / 25 ∧ win2_0.index t (1 : Fin 3) = t.val % 25
    ∧ win2_0.index t (2 : Fin 3) = 0
    ∧ win2_1.index t (0 : Fin 3) = t.val / 25 ∧ win2_1.index t (1 : Fin 3) = t.val % 25
    ∧ win2_1.index t (2 : Fin 3) = 0
    ∧ win2_2.index t (0 : Fin 3) = t.val / 25 ∧ win2_2.index t (1 : Fin 3) = 0 ∧ win2_2.index t (2 : Fin 3) = 0
    ∧ win2_3.index t (0 : Fin 3) = t.val / 25 ∧ win2_3.index t (1 : Fin 3) = 0 ∧ win2_3.index t (2 : Fin 3) = 0
    ∧ win2_4.index t (0 : Fin 3) = t.val / 25 ∧ win2_4.index t (1 : Fin 3) = 0 ∧ win2_4.index t (2 : Fin 3) = 0
    ∧ win2_5.index t (0 : Fin 3) = t.val / 25 ∧ win2_5.index t (1 : Fin 3) = 0 ∧ win2_5.index t (2 : Fin 3) = 0 :=
  (by decide +kernel : ∀ t : Fin grid2.N, _)

set_option maxHeartbeats 2000000 in
/-- What point t writes back is block t of `G2` of the arrays as the region finds them. -/
theorem flushed2_eq (c : Dev nD) (t : Fin cfg2.N) :
    (Gen.dat2 (F := Ideal) V c).flushed 6 t = ((cfg2.win 6).blk t).view.read (Elt Ideal)
      (G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((Gen.dat2 (F := Ideal) V c).after 6 t) = _
  rw [Gen.after2_6]
  unfold Gen.out2_6
  rw [View.canon_unit_zero zero3]
  simp only [View.ld_unit_zero (S := S1x2000x256) zero3, View.ld_unit_zero (S := S1x256x256) zero3,
    View.ld_unit_zero (S := S1x1x256) zero3]
  obtain ⟨e60, e61, e62, e00, e01, e02, e10, e11, e12, e20, e21, e22, e30, e31, e32, e40, e41, e42, e50, e51, e52⟩ :=
    idx_facts2 t
  have ht : t.val < 50 := lt_of_lt_of_eq t.isLt Gen.N_2
  funext y
  have hy0 : (y 0).val < 1 := (y 0).isLt
  have hy1 : (y 1).val < 2000 := (y 1).isLt
  have hy2 : (y 2).val < 256 := (y 2).isLt
  show Gen.k2_pay1 (Gen.iblk2 V c 0 t) (Gen.iblk2 V c 1 t) (Gen.iblk2 V c 2 t) (Gen.iblk2 V c 3 t) (Gen.iblk2 V c 4 t) (Gen.iblk2 V c 5 t) y
    = G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))
        (((cfg2.win 6).blk t).view.emb y)
  have ey : y = ix3 (⟨(y 0).val, hy0⟩ : Fin 1) (⟨(y 1).val, hy1⟩ : Fin 2000) (⟨(y 2).val, hy2⟩ : Fin 256) :=
    funext fun a => match a with | ⟨0, _⟩ => rfl | ⟨1, _⟩ => rfl | ⟨2, _⟩ => rfl
  have ei : ((cfg2.win 6).blk t).view.emb y
      = ix3 (⟨t.val / 25, by omega⟩ : Fin 2) (⟨t.val % 25 * 2000 + (y 1).val, by omega⟩ : Fin 50000)
          (⟨(y 2).val, hy2⟩ : Fin 256) := by
    funext a; apply Fin.ext
    match a with
    | ⟨0, _⟩ => show win2_6.index t (0 : Fin 3) * 1 + 1 * (y 0).val = t.val / 25; omega
    | ⟨1, _⟩ => show win2_6.index t (1 : Fin 3) * 2000 + 1 * (y 1).val = t.val % 25 * 2000 + (y 1).val; omega
    | ⟨2, _⟩ => show win2_6.index t (2 : Fin 3) * 256 + 1 * (y 2).val = (y 2).val; omega
  rw [ei]
  refine (congrArg (Gen.k2_pay1 (Gen.iblk2 V c 0 t) (Gen.iblk2 V c 1 t) (Gen.iblk2 V c 2 t) (Gen.iblk2 V c 3 t) (Gen.iblk2 V c 4 t) (Gen.iblk2 V c 5 t)) ey).trans ?_
  refine block2_entry (V c (Pipeline.arrRef spec2 0)) (V c (Pipeline.arrRef spec2 1)) (V c (Pipeline.arrRef spec2 2)) (V c (Pipeline.arrRef spec2 3)) (V c (Pipeline.arrRef spec2 4)) (V c (Pipeline.arrRef spec2 5))
    (Gen.iblk2 V c 0 t) (Gen.iblk2 V c 1 t) (Gen.iblk2 V c 2 t) (Gen.iblk2 V c 3 t) (Gen.iblk2 V c 4 t) (Gen.iblk2 V c 5 t)
    (⟨(y 0).val, hy0⟩ : Fin 1) (⟨(y 1).val, hy1⟩ : Fin 2000) (⟨(y 2).val, hy2⟩ : Fin 256)
    (⟨t.val / 25, by omega⟩ : Fin 2) (⟨t.val % 25 * 2000 + (y 1).val, by omega⟩ : Fin 50000)
    (fun k => ?_) (fun k => ?_) (fun k j => ?_) (fun j => ?_) (fun k j => ?_) (fun j => ?_)
  · show V c (Pipeline.arrRef spec2 0) (((cfg2.win 0).blk t).view.emb (ix3 (0 : Fin 1) (⟨(y 1).val, hy1⟩ : Fin 2000) k)) = _
    refine congrArg _ (funext fun a => Fin.ext ?_)
    match a with
    | ⟨0, _⟩ => show win2_0.index t (0 : Fin 3) * 1 + 1 * 0 = t.val / 25; omega
    | ⟨1, _⟩ => show win2_0.index t (1 : Fin 3) * 2000 + 1 * (y 1).val = t.val % 25 * 2000 + (y 1).val; omega
    | ⟨2, _⟩ => show win2_0.index t (2 : Fin 3) * 256 + 1 * k.val = k.val; omega
  · show V c (Pipeline.arrRef spec2 1) (((cfg2.win 1).blk t).view.emb (ix3 (0 : Fin 1) (⟨(y 1).val, hy1⟩ : Fin 2000) k)) = _
    refine congrArg _ (funext fun a => Fin.ext ?_)
    match a with
    | ⟨0, _⟩ => show win2_1.index t (0 : Fin 3) * 1 + 1 * 0 = t.val / 25; omega
    | ⟨1, _⟩ => show win2_1.index t (1 : Fin 3) * 2000 + 1 * (y 1).val = t.val % 25 * 2000 + (y 1).val; omega
    | ⟨2, _⟩ => show win2_1.index t (2 : Fin 3) * 256 + 1 * k.val = k.val; omega
  · show V c (Pipeline.arrRef spec2 2) (((cfg2.win 2).blk t).view.emb (ix3 (0 : Fin 1) k j)) = _
    refine congrArg _ (funext fun a => Fin.ext ?_)
    match a with
    | ⟨0, _⟩ => show win2_2.index t (0 : Fin 3) * 1 + 1 * 0 = t.val / 25; omega
    | ⟨1, _⟩ => show win2_2.index t (1 : Fin 3) * 256 + 1 * k.val = k.val; omega
    | ⟨2, _⟩ => show win2_2.index t (2 : Fin 3) * 256 + 1 * j.val = j.val; omega
  · show V c (Pipeline.arrRef spec2 3) (((cfg2.win 3).blk t).view.emb (ix3 (0 : Fin 1) (0 : Fin 1) j)) = _
    refine congrArg _ (funext fun a => Fin.ext ?_)
    match a with
    | ⟨0, _⟩ => show win2_3.index t (0 : Fin 3) * 1 + 1 * 0 = t.val / 25; omega
    | ⟨1, _⟩ => show win2_3.index t (1 : Fin 3) * 1 + 1 * 0 = 0; omega
    | ⟨2, _⟩ => show win2_3.index t (2 : Fin 3) * 256 + 1 * j.val = j.val; omega
  · show V c (Pipeline.arrRef spec2 4) (((cfg2.win 4).blk t).view.emb (ix3 (0 : Fin 1) k j)) = _
    refine congrArg _ (funext fun a => Fin.ext ?_)
    match a with
    | ⟨0, _⟩ => show win2_4.index t (0 : Fin 3) * 1 + 1 * 0 = t.val / 25; omega
    | ⟨1, _⟩ => show win2_4.index t (1 : Fin 3) * 256 + 1 * k.val = k.val; omega
    | ⟨2, _⟩ => show win2_4.index t (2 : Fin 3) * 256 + 1 * j.val = j.val; omega
  · show V c (Pipeline.arrRef spec2 5) (((cfg2.win 5).blk t).view.emb (ix3 (0 : Fin 1) (0 : Fin 1) j)) = _
    refine congrArg _ (funext fun a => Fin.ext ?_)
    match a with
    | ⟨0, _⟩ => show win2_5.index t (0 : Fin 3) * 1 + 1 * 0 = t.val / 25; omega
    | ⟨1, _⟩ => show win2_5.index t (1 : Fin 3) * 1 + 1 * 0 = 0; omega
    | ⟨2, _⟩ => show win2_5.index t (2 : Fin 3) * 256 + 1 * j.val = j.val; omega

/-- An index of the result array is in point t's block iff each coordinate is in the block's range on its axis. -/
theorem mem_blk2 (t : Fin cfg2.N) (i : S2x50000x256.Idx) :
    i ∈ ((cfg2.win 6).blk t).view.set ↔ ∀ a : Fin 3, win2_6.index t a * S1x2000x256.size a ≤ (i a).val
      ∧ (i a).val < win2_6.index t a * S1x2000x256.size a + S1x2000x256.size a := by
  show i ∈ ((View.whole main_v107).slice (win2_6.rect t)).set ↔ _
  rw [View.set_slice_whole, Rect.mem_set_unit]
  exact Iff.rfl

/-- The result array after the region: `G2` of the six input arrays as the region finds them. -/
theorem final2 (c : Dev nD) : (Gen.dat2 (F := Ideal) V c).arrAt 6 cfg2.N
    = G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (Gen.dat2 (F := Ideal) V c).arrAt_eq_of_cover 6 _ (fun t _ => flushed2_eq V c t) fun i => by
    have hi0 : (i 0).val < 2 := (i 0).isLt
    have hi1 : (i 1).val < 50000 := (i 1).isLt
    have hi2 : (i 2).val < 256 := (i 2).isLt
    obtain ⟨t, ht⟩ : ∃ t : Fin cfg2.N, t.val = (i 0).val * 25 + (i 1).val / 2000 :=
      ⟨⟨(i 0).val * 25 + (i 1).val / 2000, by rw [show cfg2.N = 50 from Gen.N_2]; omega⟩, rfl⟩
    obtain ⟨e60, e61, e62, -⟩ := idx_facts2 t
    refine ⟨t, Gen.flush2_6 t, ?_⟩
    rw [mem_blk2]
    intro a
    match a with
    | ⟨0, _⟩ => show win2_6.index t (0 : Fin 3) * 1 ≤ (i 0).val ∧ (i 0).val < win2_6.index t (0 : Fin 3) * 1 + 1; omega
    | ⟨1, _⟩ => show win2_6.index t (1 : Fin 3) * 2000 ≤ (i 1).val ∧ (i 1).val < win2_6.index t (1 : Fin 3) * 2000 + 2000; omega
    | ⟨2, _⟩ => show win2_6.index t (2 : Fin 3) * 256 ≤ (i 2).val ∧ (i 2).val < win2_6.index t (2 : Fin 3) * 256 + 256; omega

end Cert.KernelIdeal.RegionValue

end
-- ==== Proof.KerValue.lean ====
/-
  The idealized kernel's result as one function of its arguments.

  Region by region: the encoder's output is the affine map of the stacked features; each round's node update
  takes the stacked aggregate (the edges' messages summed into their destinations, per node type) and the
  previous hidden state through the two-layer network, the first round ending in the exponential linear unit.
  The contents a region is entered from are the previous region's output and the launch arguments read
  through the host operations in between; no host operation and no region writes an argument.
-/
import proofs.«135935_j163208757329_2_alg».proof.Proof.KerRun
import proofs.«135935_j163208757329_2_alg».proof.Proof.KerKeep
import proofs.«135935_j163208757329_2_alg».proof.Proof.KerRead1
import proofs.«135935_j163208757329_2_alg».proof.Proof.KerRead2
import proofs.«135935_j163208757329_2_alg».proof.Proof.Region0
import proofs.«135935_j163208757329_2_alg».proof.Proof.Region1
import proofs.«135935_j163208757329_2_alg».proof.Proof.Region2

set_option maxRecDepth 16384

noncomputable section

namespace Cert.KernelIdeal.KerValue

open Cert.KernelIdeal Idealize.ShloMosaic Idealize.ShloMosaic.TcCoe Idealize.ShloMosaic.StableHlo Idealize.SL.Sem
open Cert.KernelIdeal.Glue

/-- The encoder's output on the stacked features. -/
def hid0 (xa xb : FVec Ideal S50000x256 .f32) (encW : FVec Ideal S256x256 .f32) (encb : FVec Ideal S256 .f32) :
    FVec Ideal S2x50000x256 .f32 :=
  Cert.Gin.G0 (stack2 xa xb) encW encb

/-- The stacked aggregate of a stacked hidden state: each node type along its own edges. -/
def aggs (H : FVec Ideal S2x50000x256 .f32) (eia eib : IVec S2x500000 32) (ata atb : FVec Ideal S500000 .f32) :
    FVec Ideal S2x50000x256 .f32 :=
  stack2 (aggK (unstack0 H) eia ata) (aggK (unstack1 H) eib atb)

/-- The hidden state after the first round. -/
def hid1 (xa xb : FVec Ideal S50000x256 .f32) (eia eib : IVec S2x500000 32) (ata atb : FVec Ideal S500000 .f32)
    (encW : FVec Ideal S256x256 .f32) (encb : FVec Ideal S256 .f32)
    (W1 : FVec Ideal S2x2x256x256 .f32) (b1 : FVec Ideal S2x2x256 .f32)
    (W2 : FVec Ideal S2x2x256x256 .f32) (b2 : FVec Ideal S2x2x256 .f32) : FVec Ideal S2x50000x256 .f32 :=
  Cert.Gin.G1 (aggs (hid0 xa xb encW encb) eia eib ata atb) (hid0 xa xb encW encb) (wl0 W1) (bl0 b1) (wl0 W2) (bl0 b2)

/-- The kernel's result: the second round over the first. -/
def kerOut (xa xb : FVec Ideal S50000x256 .f32) (eia eib : IVec S2x500000 32) (ata atb : FVec Ideal S500000 .f32)
    (encW : FVec Ideal S256x256 .f32) (encb : FVec Ideal S256 .f32)
    (W1 : FVec Ideal S2x2x256x256 .f32) (b1 : FVec Ideal S2x2x256 .f32)
    (W2 : FVec Ideal S2x2x256x256 .f32) (b2 : FVec Ideal S2x2x256 .f32) : FVec Ideal S2x50000x256 .f32 :=
  Cert.Gin.G2 (aggs (hid1 xa xb eia eib ata atb encW encb W1 b1 W2 b2) eia eib ata atb)
    (hid1 xa xb eia eib ata atb encW encb W1 b1 W2 b2) (wl1 W1) (bl1 b1) (wl1 W2) (bl1 b2)

variable (m : (ℓ : Loc nD τ sig) → Buf (Elt Ideal) ℓ) (ρ : Dev nD → PrngReg) (c : Dev nD)

/-! ## An argument's buffer at the later boundaries is the launch memory's -/

theorem W2_arg (b : Ref sig .tc) (hb : b ∈ laterArgs) :
    Gen.W2 m ρ c (Proc.devRef .tc b) = m ((c : Thread nD τ).loc b) := by
  have h1 : Gen.W2 m ρ c (Proc.devRef .tc b) = Gen.W1 m ρ c (Proc.devRef .tc b) := by
    have hb' := hb
    simp only [laterArgs, List.mem_cons, List.not_mem_nil, or_false] at hb'
    rcases hb' with rfl | rfl | rfl | rfl | rfl | rfl | rfl | rfl <;> exact Gen.W2_of_ne m ρ c _ (by decide)
  exact h1.trans ((keep0 (Gen.W0 m ρ c) b hb).trans rfl)

theorem W4_arg (b : Ref sig .tc) (hb : b ∈ laterArgs) :
    Gen.W4 m ρ c (Proc.devRef .tc b) = m ((c : Thread nD τ).loc b) := by
  have h1 : Gen.W4 m ρ c (Proc.devRef .tc b) = Gen.W3 m ρ c (Proc.devRef .tc b) := by
    have hb' := hb
    simp only [laterArgs, List.mem_cons, List.not_mem_nil, or_false] at hb'
    rcases hb' with rfl | rfl | rfl | rfl | rfl | rfl | rfl | rfl <;> exact Gen.W4_of_ne m ρ c _ (by decide)
  exact h1.trans ((keep1 (Gen.W2 m ρ c) b hb).trans (W2_arg m ρ c b hb))

/-! ## Each region's output -/

theorem H0_eq : Gen.W2 m ρ c (Proc.devRef .tc main_v3)
    = hid0 (m ((c : Thread nD τ).loc main_arg0)) (m ((c : Thread nD τ).loc main_arg1))
        (m ((c : Thread nD τ).loc main_arg6)) (m ((c : Thread nD τ).loc main_arg7)) := by
  refine (Gen.W2_arr m ρ c 3).trans ?_
  rw [RegionValue.final0]
  show Cert.Gin.G0 (after Gen.hostOps0 (Gen.W0 m ρ c) (Proc.devRef .tc main_v2))
      (after Gen.hostOps0 (Gen.W0 m ρ c) (Proc.devRef .tc main_arg6))
      (after Gen.hostOps0 (Gen.W0 m ρ c) (Proc.devRef .tc main_arg7)) = _
  rw [read0_v2, read0_arg6, read0_arg7]
  rfl

theorem H1_eq : Gen.W4 m ρ c (Proc.devRef .tc main_v55)
    = hid1 (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11)) := by
  refine (Gen.W4_arr m ρ c 6).trans ?_
  rw [RegionValue.final1]
  show Cert.Gin.G1 (after Gen.hostOps1 (Gen.W2 m ρ c) (Proc.devRef .tc main_v44))
      (after Gen.hostOps1 (Gen.W2 m ρ c) (Proc.devRef .tc main_v3))
      (after Gen.hostOps1 (Gen.W2 m ρ c) (Proc.devRef .tc main_v52))
      (after Gen.hostOps1 (Gen.W2 m ρ c) (Proc.devRef .tc main_v47))
      (after Gen.hostOps1 (Gen.W2 m ρ c) (Proc.devRef .tc main_v54))
      (after Gen.hostOps1 (Gen.W2 m ρ c) (Proc.devRef .tc main_v50)) = _
  rw [read1_agg, read1_h, read1_W1, read1_b1, read1_W2, read1_b2, H0_eq,
    W2_arg m ρ c main_arg2 (by simp [laterArgs]), W2_arg m ρ c main_arg3 (by simp [laterArgs]),
    W2_arg m ρ c main_arg4 (by simp [laterArgs]), W2_arg m ρ c main_arg5 (by simp [laterArgs]),
    W2_arg m ρ c main_arg8 (by simp [laterArgs]), W2_arg m ρ c main_arg9 (by simp [laterArgs]),
    W2_arg m ρ c main_arg10 (by simp [laterArgs]), W2_arg m ρ c main_arg11 (by simp [laterArgs])]
  rfl

/-- The result buffer at the last boundary is the kernel's function of the launch arguments. -/
theorem out_eq : Gen.W6 m ρ c (Proc.devRef .tc main_v107)
    = kerOut (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11)) := by
  refine (Gen.W6_arr m ρ c 6).trans ?_
  rw [RegionValue.final2]
  show Cert.Gin.G2 (after Gen.hostOps2 (Gen.W4 m ρ c) (Proc.devRef .tc main_v96))
      (after Gen.hostOps2 (Gen.W4 m ρ c) (Proc.devRef .tc main_v55))
      (after Gen.hostOps2 (Gen.W4 m ρ c) (Proc.devRef .tc main_v104))
      (after Gen.hostOps2 (Gen.W4 m ρ c) (Proc.devRef .tc main_v99))
      (after Gen.hostOps2 (Gen.W4 m ρ c) (Proc.devRef .tc main_v106))
      (after Gen.hostOps2 (Gen.W4 m ρ c) (Proc.devRef .tc main_v102)) = _
  rw [read2_agg, read2_h, read2_W1, read2_b1, read2_W2, read2_b2, H1_eq,
    W4_arg m ρ c main_arg2 (by simp [laterArgs]), W4_arg m ρ c main_arg3 (by simp [laterArgs]),
    W4_arg m ρ c main_arg4 (by simp [laterArgs]), W4_arg m ρ c main_arg5 (by simp [laterArgs]),
    W4_arg m ρ c main_arg8 (by simp [laterArgs]), W4_arg m ρ c main_arg9 (by simp [laterArgs]),
    W4_arg m ρ c main_arg10 (by simp [laterArgs]), W4_arg m ρ c main_arg11 (by simp [laterArgs])]
  rfl

/-- The kernel's run, its result named as a function of the launch arguments. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v107)
        = kerOut (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
            (m ((c : Thread nD τ).loc main_arg6)) (m ((c : Thread nD τ).loc main_arg7))
            (m ((c : Thread nD τ).loc main_arg8)) (m ((c : Thread nD τ).loc main_arg9))
            (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun r h c => ⟨(h c).1.trans (out_eq m g c), (h c).2⟩) (KerRun.run_named m g)

end Cert.KernelIdeal.KerValue

end
-- ==== Proof.KerLayout.lean ====
/-
  The kernel program's layout functions read at an index.

  Stacking two node arrays and taking a slab back out, or picking a layer and a node type out of the
  parameter arrays, moves no number: entry (t, n, j) of the stack is entry (n, j) of array t, entry (n, j) of slab
  t is entry (t, n, j) of the stack, and the layer-`l` weights at (t, k, j) are the parameter array at (l, t, k, j).
-/
import proofs.«135935_j163208757329_2_alg».proof.Proof.KerGlue
import Idealize.ShloMosaic.Lib.Pipeline.Value
import Idealize.ShloMosaic.Lib.ValueIdx
import Idealize.ShloMosaic.Lib.ValueLayout

set_option maxRecDepth 16384

noncomputable section

namespace Cert.KernelIdeal.Glue

open Cert.KernelIdeal Idealize.ShloMosaic Idealize.ShloMosaic.ValueIdx

variable {F : FTy → Type} [FloatOps F]

theorem unstack0_apply (X : FVec F S2x50000x256 .f32) (n : Fin 50000) (j : Fin 256) :
    unstack0 X (ix2 n j) = X (ix3 (0 : Fin 2) n j) := by
  unfold unstack0
  rw [shapeCast_1ab_ab_apply]
  exact extractStridedSlice_apply _ X _ _ _ (fun a => by match a with | ⟨0, _⟩ => rfl | ⟨1, _⟩ => exact (Nat.zero_add _).symm | ⟨2, _⟩ => exact (Nat.zero_add _).symm)

theorem unstack1_apply (X : FVec F S2x50000x256 .f32) (n : Fin 50000) (j : Fin 256) :
    unstack1 X (ix2 n j) = X (ix3 (1 : Fin 2) n j) := by
  unfold unstack1
  rw [shapeCast_1ab_ab_apply]
  exact extractStridedSlice_apply _ X _ _ _ (fun a => by match a with | ⟨0, _⟩ => rfl | ⟨1, _⟩ => exact (Nat.zero_add _).symm | ⟨2, _⟩ => exact (Nat.zero_add _).symm)

theorem bcast1_apply (a : FVec F S50000x256 .f32) (n : Fin 50000) (j : Fin 256) :
    broadcastInDim S1x50000x256 ![1, 2] Facts₀.bcast_S50000x256_S1x50000x256_1_2 a (ix3 (0 : Fin 1) n j) = a (ix2 n j) :=
  broadcastInDim_apply _ _ a _ _ (fun c => by
    match c with
    | ⟨0, _⟩ => exact (if_neg (show ¬((50000 : ℕ) = 1) by decide)).symm
    | ⟨1, _⟩ => exact (if_neg (show ¬((256 : ℕ) = 1) by decide)).symm)

theorem stack2_apply0 (a b : FVec F S50000x256 .f32) (n : Fin 50000) (j : Fin 256) :
    stack2 a b (ix3 (0 : Fin 2) n j) = a (ix2 n j) := by
  unfold stack2
  rw [concatenate_pair_apply_left (t := S2x50000x256) (s₁ := S1x50000x256) (s₂ := S1x50000x256) (0 : Fin 3) _ _ _ (ix3 (0 : Fin 2) n j) rfl (ix3 (0 : Fin 1) n j)
    (fun c => by match c with | ⟨0, _⟩ => rfl | ⟨1, _⟩ => rfl | ⟨2, _⟩ => rfl)]
  exact bcast1_apply a n j

theorem stack2_apply1 (a b : FVec F S50000x256 .f32) (n : Fin 50000) (j : Fin 256) :
    stack2 a b (ix3 (1 : Fin 2) n j) = b (ix2 n j) := by
  unfold stack2
  rw [concatenate_pair_apply_right (t := S2x50000x256) (s₁ := S1x50000x256) (s₂ := S1x50000x256) (0 : Fin 3) _ _ _ (ix3 (1 : Fin 2) n j) rfl rfl (ix3 (0 : Fin 1) n j)
    (fun c hc => by
      match c with
      | ⟨0, _⟩ => exact absurd rfl hc
      | ⟨1, _⟩ => rfl
      | ⟨2, _⟩ => rfl)
    rfl]
  exact bcast1_apply b n j

theorem wl0_apply (W : FVec F S2x2x256x256 .f32) (t : Fin 2) (k j : Fin 256) :
    wl0 W (ix3 t k j) = W (ix4 (0 : Fin 2) t k j) := by
  unfold wl0
  rw [shapeCast_1abc_abc_apply]
  exact extractStridedSlice_apply _ W _ _ _ (fun a => by
    match a with | ⟨0, _⟩ => rfl | ⟨1, _⟩ => exact (Nat.zero_add _).symm | ⟨2, _⟩ => exact (Nat.zero_add _).symm | ⟨3, _⟩ => exact (Nat.zero_add _).symm)

theorem wl1_apply (W : FVec F S2x2x256x256 .f32) (t : Fin 2) (k j : Fin 256) :
    wl1 W (ix3 t k j) = W (ix4 (1 : Fin 2) t k j) := by
  unfold wl1
  rw [shapeCast_1abc_abc_apply]
  exact extractStridedSlice_apply _ W _ _ _ (fun a => by
    match a with | ⟨0, _⟩ => rfl | ⟨1, _⟩ => exact (Nat.zero_add _).symm | ⟨2, _⟩ => exact (Nat.zero_add _).symm | ⟨3, _⟩ => exact (Nat.zero_add _).symm)

theorem cast_2x1_apply (y : (⟨2, ![2, 256]⟩ : Shape).Idx → F .f32) (h : (⟨2, ![2, 256]⟩ : Shape).ShapeCasts ⟨3, ![2, 1, 256]⟩)
    (t : Fin 2) (j : Fin 256) : shapeCast ⟨3, ![2, 1, 256]⟩ y h (ix3 t (0 : Fin 1) j) = y (ix2 t j) :=
  shapeCast_apply y h _ _ (by
    rw [Shape.rowMajor_val_three, Shape.rowMajor_val_two]
    show t.val * 256 + j.val = (t.val * 1 + 0) * 256 + j.val
    omega)

theorem bl0_apply (b : FVec F S2x2x256 .f32) (t : Fin 2) (j : Fin 256) :
    bl0 b (ix3 t (0 : Fin 1) j) = b (ix3 (0 : Fin 2) t j) := by
  unfold bl0
  rw [cast_2x1_apply, shapeCast_1ab_ab_apply]
  exact extractStridedSlice_apply _ b _ _ _ (fun a => by
    match a with | ⟨0, _⟩ => rfl | ⟨1, _⟩ => exact (Nat.zero_add _).symm | ⟨2, _⟩ => exact (Nat.zero_add _).symm)

theorem bl1_apply (b : FVec F S2x2x256 .f32) (t : Fin 2) (j : Fin 256) :
    bl1 b (ix3 t (0 : Fin 1) j) = b (ix3 (1 : Fin 2) t j) := by
  unfold bl1
  rw [cast_2x1_apply, shapeCast_1ab_ab_apply]
  exact extractStridedSlice_apply _ b _ _ _ (fun a => by
    match a with | ⟨0, _⟩ => rfl | ⟨1, _⟩ => exact (Nat.zero_add _).symm | ⟨2, _⟩ => exact (Nat.zero_add _).symm)

end Cert.KernelIdeal.Glue

end
-- ==== Proof.RefDefs.lean ====
/-
  The reference program's result as one composed term of its arguments: the named whole-array functions.

  Each function's body is exactly the program's operations: an affine layer on every node (`enc`), the
  rectifier (`relu`), the exponential linear unit (`elu`), one round of message passing (`agg`: gather the
  source rows, scale each by its edge weight, scatter-add into the destination rows), the slice of a stacked
  weight or bias at a round and node type (`wsl`, `bsl`), a round's node update (`layer`), each node type
  after round one and after round two (`hid`, `fin`), and the two node types' results stacked (`out`).
  `aggCore`, `layerCore` and `outCore` are the same bodies over the index rows, the zero row and the two
  final arrays as arguments; the functions above are these at the rows cut from the edge list.
-/
import proofs.«135935_j163208757329_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- An affine layer on every node: `x · W + b`, the bias row copied to every node. -/
def enc (x : FVec F S50000x256 .f32) (W : FVec F S256x256 .f32) (b : FVec F S256 .f32) : FVec F S50000x256 .f32 :=
  addf (Host.dotGeneral dot_S50000x256_S256x256_S50000x256_1_0_0_1_n_n none x W)
    (broadcastInDim S50000x256 ![0, 1] bcast_S1x256_S50000x256_0_1 (broadcastInDim S1x256 ![1] bcast_S256_S1x256_1 b))

/-- The rectifier: the maximum with zero, entry by entry. -/
def relu (z : FVec F S50000x256 .f32) : FVec F S50000x256 .f32 :=
  maximumf z (broadcastInDim S50000x256 ![] bcast_S_S50000x256 (constant S_ .f32 0x00000000#32))

/-- The exponential linear unit: `z` where `z > 0`, else `1 · expm1 z'` with `z'` zero where `z > 0` and `z` elsewhere. -/
def elu (z : FVec F S50000x256 .f32) : FVec F S50000x256 .f32 :=
  select (cmpf .ogt z (broadcastInDim S50000x256 ![] bcast_S_S50000x256 (constant S_ .f32 0x00000000#32))) z
    (mulf (broadcastInDim S50000x256 ![] bcast_S_S50000x256 (constant S_ .f32 0x3F800000#32))
      (Host.expm1 (select (cmpf .ogt z (broadcastInDim S50000x256 ![] bcast_S_S50000x256 (constant S_ .f32 0x00000000#32)))
        (broadcastInDim S50000x256 ![] bcast_S_S50000x256 (id (constant S_ .f32 0x00000000#32))) z)))

/-- One round of message passing over an edge list `ei` (row 0 the sources, row 1 the destinations) with edge
    weights `attn`: the source rows of `h` gathered (a negative source index counted from the end), each scaled
    by its edge's weight, and added into the destination rows of a zero array. -/
def agg (h : FVec F S50000x256 .f32) (ei : IVec S2x500000 32) (attn : FVec F S500000 .f32) : FVec F S50000x256 .f32 :=
  Host.scatterAdd scatter_S50000x256_S500000x1_S500000x256_1_0_0_1
    (broadcastInDim S50000x256 ![] bcast_S_S50000x256 (constant S_ .f32 0x00000000#32))
    (broadcastInDim S500000x1 ![0] bcast_S500000_S500000x1_0 (shapeCast S500000 (extractStridedSlice S1x500000 ![1, 0] ei slices_S2x500000_S1x500000_1_0) shapeCasts_S1x500000_S500000))
    (mulf
      (Host.gather gather_S50000x256_S500000x1_S500000x256_1_0_n_n_0_1_1256 h
        (broadcastInDim S500000x1 ![0] bcast_S500000_S500000x1_0
          (select (cmpi .slt (shapeCast S500000 (extractStridedSlice S1x500000 ![0, 0] ei slices_S2x500000_S1x500000_0_0) shapeCasts_S1x500000_S500000) (broadcastInDim S500000 ![] bcast_S_S500000 (constantI S_ 32 0#32)))
            (addi (shapeCast S500000 (extractStridedSlice S1x500000 ![0, 0] ei slices_S2x500000_S1x500000_0_0) shapeCasts_S1x500000_S500000) (broadcastInDim S500000 ![] bcast_S_S500000 (constantI S_ 32 50000#32)))
            (shapeCast S500000 (extractStridedSlice S1x500000 ![0, 0] ei slices_S2x500000_S1x500000_0_0) shapeCasts_S1x500000_S500000))))
      (broadcastInDim S500000x256 ![0, 1] bcast_S500000x1_S500000x256_0_1 (broadcastInDim S500000x1 ![0] bcast_S500000_S500000x1_0 attn)))

/-- The same round over the source row, the destination row and the zero row as arguments. -/
def aggCore (h : FVec F S50000x256 .f32) (src dst zr : IVec S500000 32) (attn : FVec F S500000 .f32) : FVec F S50000x256 .f32 :=
  Host.scatterAdd scatter_S50000x256_S500000x1_S500000x256_1_0_0_1
    (broadcastInDim S50000x256 ![] bcast_S_S50000x256 (constant S_ .f32 0x00000000#32))
    (broadcastInDim S500000x1 ![0] bcast_S500000_S500000x1_0 dst)
    (mulf
      (Host.gather gather_S50000x256_S500000x1_S500000x256_1_0_n_n_0_1_1256 h
        (broadcastInDim S500000x1 ![0] bcast_S500000_S500000x1_0
          (select (cmpi .slt src zr)
            (addi src (broadcastInDim S500000 ![] bcast_S_S500000 (constantI S_ 32 50000#32)))
            src)))
      (broadcastInDim S500000x256 ![0, 1] bcast_S500000x1_S500000x256_0_1 (broadcastInDim S500000x1 ![0] bcast_S500000_S500000x1_0 attn)))

theorem agg_eq_core (h : FVec F S50000x256 .f32) (ei : IVec S2x500000 32) (attn : FVec F S500000 .f32) :
    agg h ei attn = aggCore h (shapeCast S500000 (extractStridedSlice S1x500000 ![0, 0] ei slices_S2x500000_S1x500000_0_0) shapeCasts_S1x500000_S500000) (shapeCast S500000 (extractStridedSlice S1x500000 ![1, 0] ei slices_S2x500000_S1x500000_1_0) shapeCasts_S1x500000_S500000) (broadcastInDim S500000 ![] bcast_S_S500000 (constantI S_ 32 0#32)) attn := rfl

theorem wsl_slices (l t : Fin 2) : S2x2x256x256.Slices ![l.val, t.val, 0, 0] S1x1x256x256 := by
  fin_cases l <;> fin_cases t <;> decide

theorem bsl_slices (l t : Fin 2) : S2x2x256.Slices ![l.val, t.val, 0] S1x1x256 := by
  fin_cases l <;> fin_cases t <;> decide

/-- The weight matrix of round `l` and node type `t` out of the stacked weights. -/
def wsl (l t : Fin 2) (W : FVec F S2x2x256x256 .f32) : FVec F S256x256 .f32 :=
  shapeCast S256x256 (extractStridedSlice S1x1x256x256 ![l.val, t.val, 0, 0] W (wsl_slices l t)) shapeCasts_S1x1x256x256_S256x256

/-- The bias row of round `l` and node type `t` out of the stacked biases. -/
def bsl (l t : Fin 2) (b : FVec F S2x2x256 .f32) : FVec F S256 .f32 :=
  shapeCast S256 (extractStridedSlice S1x1x256 ![l.val, t.val, 0] b (bsl_slices l t)) shapeCasts_S1x1x256_S256

/-- A round's node update: the aggregated messages plus the node's own row, through the two-layer network. -/
def layer (h : FVec F S50000x256 .f32) (ei : IVec S2x500000 32) (attn : FVec F S500000 .f32)
    (W1 : FVec F S256x256 .f32) (b1 : FVec F S256 .f32) (W2 : FVec F S256x256 .f32) (b2 : FVec F S256 .f32) : FVec F S50000x256 .f32 :=
  enc (relu (enc (addf (agg h ei attn) h) W1 b1)) W2 b2

/-- The same update over the index rows as arguments. -/
def layerCore (h : FVec F S50000x256 .f32) (src dst zr : IVec S500000 32) (attn : FVec F S500000 .f32)
    (W1 : FVec F S256x256 .f32) (b1 : FVec F S256 .f32) (W2 : FVec F S256x256 .f32) (b2 : FVec F S256 .f32) : FVec F S50000x256 .f32 :=
  enc (relu (enc (addf (aggCore h src dst zr attn) h) W1 b1)) W2 b2

theorem layer_eq_core (h : FVec F S50000x256 .f32) (ei : IVec S2x500000 32) (attn : FVec F S500000 .f32)
    (W1 : FVec F S256x256 .f32) (b1 : FVec F S256 .f32) (W2 : FVec F S256x256 .f32) (b2 : FVec F S256 .f32) :
    layer h ei attn W1 b1 W2 b2 = layerCore h (shapeCast S500000 (extractStridedSlice S1x500000 ![0, 0] ei slices_S2x500000_S1x500000_0_0) shapeCasts_S1x500000_S500000) (shapeCast S500000 (extractStridedSlice S1x500000 ![1, 0] ei slices_S2x500000_S1x500000_1_0) shapeCasts_S1x500000_S500000) (broadcastInDim S500000 ![] bcast_S_S500000 (constantI S_ 32 0#32)) attn W1 b1 W2 b2 := rfl

/-- Node type `t` after round one: the encoder, the round's update at the type's weights, the exponential linear unit. -/
def hid (t : Fin 2) (x : FVec F S50000x256 .f32) (ei : IVec S2x500000 32) (attn : FVec F S500000 .f32)
    (encW : FVec F S256x256 .f32) (encb : FVec F S256 .f32)
    (W1 : FVec F S2x2x256x256 .f32) (b1 : FVec F S2x2x256 .f32) (W2 : FVec F S2x2x256x256 .f32) (b2 : FVec F S2x2x256 .f32) : FVec F S50000x256 .f32 :=
  elu (layer (enc x encW encb) ei attn (wsl 0 t W1) (bsl 0 t b1) (wsl 0 t W2) (bsl 0 t b2))

/-- Node type `t` after round two: round two's update of `hid t` at the type's weights. -/
def fin (t : Fin 2) (x : FVec F S50000x256 .f32) (ei : IVec S2x500000 32) (attn : FVec F S500000 .f32)
    (encW : FVec F S256x256 .f32) (encb : FVec F S256 .f32)
    (W1 : FVec F S2x2x256x256 .f32) (b1 : FVec F S2x2x256 .f32) (W2 : FVec F S2x2x256x256 .f32) (b2 : FVec F S2x2x256 .f32) : FVec F S50000x256 .f32 :=
  layer (hid t x ei attn encW encb W1 b1 W2 b2) ei attn (wsl 1 t W1) (bsl 1 t b1) (wsl 1 t W2) (bsl 1 t b2)

/-- Two node arrays stacked along a new leading axis. -/
def outCore (a b : FVec F S50000x256 .f32) : FVec F S2x50000x256 .f32 :=
  concatenate S2x50000x256 0
    [⟨S1x50000x256, broadcastInDim S1x50000x256 ![1, 2] bcast_S50000x256_S1x50000x256_1_2 a⟩,
     ⟨S1x50000x256, broadcastInDim S1x50000x256 ![1, 2] bcast_S50000x256_S1x50000x256_1_2 b⟩]
    concatenates_S1x50000x256_S1x50000x256_S2x50000x256_d0

/-- The program's result: the two node types' final rows, stacked along a new leading axis. -/
def out (x_a x_b : FVec F S50000x256 .f32) (ei_aa ei_bb : IVec S2x500000 32) (attn_aa attn_bb : FVec F S500000 .f32)
    (encW : FVec F S256x256 .f32) (encb : FVec F S256 .f32)
    (W1 : FVec F S2x2x256x256 .f32) (b1 : FVec F S2x2x256 .f32) (W2 : FVec F S2x2x256x256 .f32) (b2 : FVec F S2x2x256 .f32) : FVec F S2x50000x256 .f32 :=
  concatenate S2x50000x256 0
    [⟨S1x50000x256, broadcastInDim S1x50000x256 ![1, 2] bcast_S50000x256_S1x50000x256_1_2 (fin 0 x_a ei_aa attn_aa encW encb W1 b1 W2 b2)⟩,
     ⟨S1x50000x256, broadcastInDim S1x50000x256 ![1, 2] bcast_S50000x256_S1x50000x256_1_2 (fin 1 x_b ei_bb attn_bb encW encb W1 b1 W2 b2)⟩]
    concatenates_S1x50000x256_S1x50000x256_S2x50000x256_d0

theorem out_eq_core (x_a x_b : FVec F S50000x256 .f32) (ei_aa ei_bb : IVec S2x500000 32) (attn_aa attn_bb : FVec F S500000 .f32)
    (encW : FVec F S256x256 .f32) (encb : FVec F S256 .f32)
    (W1 : FVec F S2x2x256x256 .f32) (b1 : FVec F S2x2x256 .f32) (W2 : FVec F S2x2x256x256 .f32) (b2 : FVec F S2x2x256 .f32) :
    out x_a x_b ei_aa ei_bb attn_aa attn_bb encW encb W1 b1 W2 b2
      = outCore (fin 0 x_a ei_aa attn_aa encW encb W1 b1 W2 b2) (fin 1 x_b ei_bb attn_bb encW encb W1 b1 W2 b2) := rfl

end Cert.ReferenceIdeal.RefTerm

end
-- ==== Proof.RefRead.lean ====
/-
  The reference's named functions read at one entry, at the extended reals.

  An affine layer's entry (n, j) is row n of the input times column j of the weights, plus entry j of the
  bias; the rectifier and the exponential linear unit act on each entry alone.
-/
import proofs.«135935_j163208757329_2_alg».proof.Proof.RefDefs
import proofs.«135935_j163208757329_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefRead

open Cert.ReferenceIdeal Cert.ReferenceIdeal.Gen Cert.ReferenceIdeal.RefTerm Idealize.ShloMosaic Idealize.ShloMosaic.ValueIdx

/-- The rectifier on one entry is the maximum with the zero word's value. -/
theorem relu_apply (z : FVec Ideal S50000x256 .f32) (i : S50000x256.Idx) :
    relu (F := Ideal) z i = Cert.Gin.relu0 (z i) := rfl

/-- The word `0x3F800000` is the number one: sign plus, exponent 127, significand `2 ^ 23`. -/
theorem one_f32 : (Ideal.ofBits .f32 0x3F800000#32 : EReal) = 1 := by
  simp [Ideal.ofBits, Ideal.ieee]
  rw [← EReal.coe_mul]
  norm_num

/-- The exponential linear unit on one entry: where the entry is above zero both selects take the entry; elsewhere the
    inner select keeps the entry, and `1 · (exp x - 1)` is `exp x - 1`. -/
theorem elu_apply (z : FVec Ideal S50000x256 .f32) (i : S50000x256.Idx) :
    elu (F := Ideal) z i = Cert.Gin.eluK (z i) := by
  show Scalar.select (FloatOps.cmpf (F := Ideal) (φ := .f32) .ogt (z i) Cert.Gin.zeroW) (z i)
      (Cert.Gin.oneW * FloatOps.hostUnary (F := Ideal) (φ := .f32) .expm1
        (Scalar.select (FloatOps.cmpf (F := Ideal) (φ := .f32) .ogt (z i) Cert.Gin.zeroW) Cert.Gin.zeroW (z i))) = _
  unfold Cert.Gin.eluK
  rcases BitVec.eq_zero_or_eq_one (FloatOps.cmpf (F := Ideal) (φ := .f32) .ogt (z i) Cert.Gin.zeroW) with h | h
  · rw [h, select_zero, select_zero, select_zero, Ideal.hostUnary_expm1_def]
    show Ideal.ofBits .f32 0x3F800000#32 * (Ideal.exp (z i) - 1) = Ideal.exp (z i) - Ideal.ofBits .f32 0x3F800000#32
    rw [one_f32, one_mul]
  · rw [h, select_one, select_one]

/-- The bias row copied to every node, read at (n, j), is the bias at j. -/
theorem bias_apply (b : FVec Ideal S256 .f32) (i : S50000x256.Idx) :
    broadcastInDim S50000x256 ![0, 1] bcast_S1x256_S50000x256_0_1 (broadcastInDim S1x256 ![1] bcast_S256_S1x256_1 b) i = b (ix1 (i 1)) :=
  (broadcastInDim_apply _ _ (broadcastInDim S1x256 ![1] bcast_S256_S1x256_1 b) i (ix2 (0 : Fin 1) (i 1)) (fun c => by
    match c with
    | ⟨0, _⟩ => rfl
    | ⟨1, _⟩ => exact (if_neg (show ¬((256 : ℕ) = 1) by decide)).symm)).trans
  (broadcastInDim_apply _ _ b (ix2 (0 : Fin 1) (i 1)) (ix1 (i 1)) (fun c => by
    match c with
    | ⟨0, _⟩ => exact (if_neg (show ¬((256 : ℕ) = 1) by decide)).symm))

/-- The product's dimension numbers: rows × contraction times contraction × columns. -/
abbrev D := dot_S50000x256_S256x256_S50000x256_1_0_0_1_n_n

theorem contr_rank : D.contr.rank = 1 := rfl
theorem contr_size : D.contr.size ⟨0, by rw [contr_rank]; exact Nat.one_pos⟩ = 256 := rfl

/-- The matrix product read at (n, j): the sum over the contraction index k of input (n, k) times weight (k, j). -/
theorem dot_apply (x : FVec Ideal S50000x256 .f32) (W : FVec Ideal S256x256 .f32) (i : S50000x256.Idx) :
    FloatOps.dotGeneral D none .single x W i = ∑ k : Fin 256, x (ix2 (i 0) k) * W (ix2 k (i 1)) := by
  rw [Ideal.dotGeneral_apply]
  rw [← Equiv.sum_comp (contrEquiv1 D 256 contr_rank contr_size).symm]
  refine Finset.sum_congr rfl fun k _ => ?_
  congr 1
  · congr 1
    funext a
    match a with
    | ⟨0, _⟩ => rfl
    | ⟨1, _⟩ =>
      apply Fin.ext
      exact (D.lhsIdx_val_of_single (cl := (1 : Fin 2)) rfl i _).trans (contrEquiv1_symm_val D 256 contr_rank contr_size k)
  · congr 1
    funext a
    match a with
    | ⟨0, _⟩ =>
      apply Fin.ext
      exact (D.rhsIdx_val_of_single (cr := (0 : Fin 2)) rfl i _).trans (contrEquiv1_symm_val D 256 contr_rank contr_size k)
    | ⟨1, _⟩ => rfl

/-- An affine layer's entry (n, j): row n of the input through `· W + b`, at j. -/
theorem enc_apply (x : FVec Ideal S50000x256 .f32) (W : FVec Ideal S256x256 .f32) (b : FVec Ideal S256 .f32) (i : S50000x256.Idx) :
    enc (F := Ideal) x W b i
      = Cert.Gin.rowLin (fun k => x (ix2 (i 0) k)) (fun k j => W (ix2 k j)) (fun j => b (ix1 j)) (i 1) := by
  show FloatOps.dotGeneral D none .single x W i
      + broadcastInDim S50000x256 ![0, 1] bcast_S1x256_S50000x256_0_1 (broadcastInDim S1x256 ![1] bcast_S256_S1x256_1 b) i = _
  rw [dot_apply, bias_apply]
  rfl

end Cert.ReferenceIdeal.RefRead

end
-- ==== Proof.RefLayout.lean ====
/-
  The reference program's layout functions read at an index.

  Picking a round and a node type out of the stacked parameter arrays, or stacking the two node types'
  results, moves no number: the round-l, type-t weight matrix at (k, j) is the parameter array at
  (l, t, k, j), its bias row at j is the parameter array at (l, t, j), and entry (t, n, j) of the stacked
  result is entry (n, j) of node type t's result.
-/
import proofs.«135935_j163208757329_2_alg».proof.Proof.RefDefs
import Idealize.ShloMosaic.Lib.Pipeline.Value
import Idealize.ShloMosaic.Lib.ValueIdx
import Idealize.ShloMosaic.Lib.ValueLayout

set_option maxRecDepth 16384

noncomputable section

namespace Cert.ReferenceIdeal.RefRead

open Cert.ReferenceIdeal Cert.ReferenceIdeal.RefTerm Idealize.ShloMosaic Idealize.ShloMosaic.ValueIdx

/-- The weight matrix of round l and node type t, at (k, j): the stacked weights at (l, t, k, j). -/
theorem wsl_apply (l t : Fin 2) (W : FVec Ideal S2x2x256x256 .f32) (k j : Fin 256) :
    wsl (F := Ideal) l t W (ix2 k j) = W (ix4 l t k j) := by
  unfold wsl
  refine (shapeCast_apply _ _ (ix2 k j) (ix4 (0 : Fin 1) (0 : Fin 1) k j) (by
    rw [Shape.rowMajor_val_four, Shape.rowMajor_val_two]
    show ((0 * 1 + 0) * 256 + k.val) * 256 + j.val = k.val * 256 + j.val
    omega)).trans ?_
  exact extractStridedSlice_apply _ W _ _ _ (fun a => by
    match a with
    | ⟨0, _⟩ => exact (Nat.add_zero _).symm
    | ⟨1, _⟩ => exact (Nat.add_zero _).symm
    | ⟨2, _⟩ => exact (Nat.zero_add _).symm
    | ⟨3, _⟩ => exact (Nat.zero_add _).symm)

/-- The bias row of round l and node type t, at j: the stacked biases at (l, t, j). -/
theorem bsl_apply (l t : Fin 2) (b : FVec Ideal S2x2x256 .f32) (j : Fin 256) :
    bsl (F := Ideal) l t b (ix1 j) = b (ix3 l t j) := by
  unfold bsl
  refine (shapeCast_apply _ _ (ix1 j) (ix3 (0 : Fin 1) (0 : Fin 1) j) (by
    rw [Shape.rowMajor_val_three, Shape.rowMajor_val_one]
    show (0 * 1 + 0) * 256 + j.val = j.val
    omega)).trans ?_
  exact extractStridedSlice_apply _ b _ _ _ (fun a => by
    match a with
    | ⟨0, _⟩ => exact (Nat.add_zero _).symm
    | ⟨1, _⟩ => exact (Nat.add_zero _).symm
    | ⟨2, _⟩ => exact (Nat.zero_add _).symm)

/-- A node array given a leading unit axis, at (0, n, j): the array at (n, j). -/
theorem bcastRow_apply {α : Type} (h : S50000x256.BroadcastsInDim S1x50000x256 ![1, 2]) (a : S50000x256.Idx → α)
    (n : Fin 50000) (j : Fin 256) :
    broadcastInDim S1x50000x256 ![1, 2] h a (ix3 (0 : Fin 1) n j) = a (ix2 n j) :=
  broadcastInDim_apply _ _ a _ _ (fun c => by
    match c with
    | ⟨0, _⟩ => exact (if_neg (show ¬((50000 : ℕ) = 1) by decide)).symm
    | ⟨1, _⟩ => exact (if_neg (show ¬((256 : ℕ) = 1) by decide)).symm)

/-- The stacked result at node type 0: the first node type's result. -/
theorem out_apply0 (x_a x_b : FVec Ideal S50000x256 .f32) (ei_aa ei_bb : IVec S2x500000 32) (attn_aa attn_bb : FVec Ideal S500000 .f32)
    (encW : FVec Ideal S256x256 .f32) (encb : FVec Ideal S256 .f32) (W1 : FVec Ideal S2x2x256x256 .f32) (b1 : FVec Ideal S2x2x256 .f32)
    (W2 : FVec Ideal S2x2x256x256 .f32) (b2 : FVec Ideal S2x2x256 .f32) (n : Fin 50000) (j : Fin 256) :
    out (F := Ideal) x_a x_b ei_aa ei_bb attn_aa attn_bb encW encb W1 b1 W2 b2 (ix3 (0 : Fin 2) n j) = fin (F := Ideal) 0 x_a ei_aa attn_aa encW encb W1 b1 W2 b2 (ix2 n j) := by
  unfold out
  rw [concatenate_pair_apply_left (t := S2x50000x256) (s₁ := S1x50000x256) (s₂ := S1x50000x256) (0 : Fin 3) _ _ _
    (ix3 (0 : Fin 2) n j) rfl (ix3 (0 : Fin 1) n j)
    (fun c => by match c with | ⟨0, _⟩ => rfl | ⟨1, _⟩ => rfl | ⟨2, _⟩ => rfl)]
  exact bcastRow_apply _ _ n j

/-- The stacked result at node type 1: the second node type's result. -/
theorem out_apply1 (x_a x_b : FVec Ideal S50000x256 .f32) (ei_aa ei_bb : IVec S2x500000 32) (attn_aa attn_bb : FVec Ideal S500000 .f32)
    (encW : FVec Ideal S256x256 .f32) (encb : FVec Ideal S256 .f32) (W1 : FVec Ideal S2x2x256x256 .f32) (b1 : FVec Ideal S2x2x256 .f32)
    (W2 : FVec Ideal S2x2x256x256 .f32) (b2 : FVec Ideal S2x2x256 .f32) (n : Fin 50000) (j : Fin 256) :
    out (F := Ideal) x_a x_b ei_aa ei_bb attn_aa attn_bb encW encb W1 b1 W2 b2 (ix3 (1 : Fin 2) n j) = fin (F := Ideal) 1 x_b ei_bb attn_bb encW encb W1 b1 W2 b2 (ix2 n j) := by
  unfold out
  rw [concatenate_pair_apply_right (t := S2x50000x256) (s₁ := S1x50000x256) (s₂ := S1x50000x256) (0 : Fin 3) _ _ _
    (ix3 (1 : Fin 2) n j) rfl rfl (ix3 (0 : Fin 1) n j)
    (fun c hc => by
      match c with
      | ⟨0, _⟩ => exact absurd rfl hc
      | ⟨1, _⟩ => rfl
      | ⟨2, _⟩ => rfl)
    rfl]
  exact bcastRow_apply _ _ n j

end Cert.ReferenceIdeal.RefRead

end
-- ==== Proof.Bridge.lean ====
/-
  The two programs compute one function.

  Per node type `t`: slab `t` of the kernel's encoder output is the reference's encoder on `x_t`; slab `t` of
  each round's stacked output is the reference's round on that type, because entry (t, n, ·) of the stacked update
  reads only row (t, n) of the stacked aggregate and hidden state and the type's own weights, and the
  aggregate of type `t` is the one message-passing function applied to slab `t`.  The row network on both
  sides is `rowMlp`; the exponential linear unit on both sides is `eluK`.
-/
import proofs.«135935_j163208757329_2_alg».proof.Proof.KerValue
import proofs.«135935_j163208757329_2_alg».proof.Proof.KerLayout
import proofs.«135935_j163208757329_2_alg».proof.Proof.RefRead
import proofs.«135935_j163208757329_2_alg».proof.Proof.RefLayout

set_option maxRecDepth 16384

noncomputable section

namespace Cert.Bridge

open Idealize.ShloMosaic Idealize.ShloMosaic.ValueIdx
open Cert.Gin Cert.KernelIdeal.Glue Cert.KernelIdeal.KerValue
open Cert.ReferenceIdeal.RefTerm Cert.ReferenceIdeal.RefRead

abbrev NHv := FVec Ideal Cert.KernelIdeal.S50000x256 FTy.f32
abbrev TNHv := FVec Ideal Cert.KernelIdeal.S2x50000x256 FTy.f32
abbrev EIv := IVec Cert.KernelIdeal.S2x500000 32
abbrev ATv := FVec Ideal Cert.KernelIdeal.S500000 FTy.f32
abbrev W4v := FVec Ideal Cert.KernelIdeal.S2x2x256x256 FTy.f32
abbrev B3v := FVec Ideal Cert.KernelIdeal.S2x2x256 FTy.f32

/-- The message-passing chain is the same term in both programs. -/
theorem aggK_eq (h : NHv) (ei : EIv) (attn : ATv) : aggK h ei attn = agg (F := Ideal) h ei attn := rfl

/-- Entry (t, n, j) of a stacked round reads row (t, n) and type `t`'s weights. -/
theorem Gmlp_apply (act : EReal → EReal) (A Hh : TNHv) (W1 : FVec Ideal Cert.KernelIdeal.S2x256x256 .f32)
    (b1 : FVec Ideal Cert.KernelIdeal.S2x1x256 .f32) (W2 : FVec Ideal Cert.KernelIdeal.S2x256x256 .f32)
    (b2 : FVec Ideal Cert.KernelIdeal.S2x1x256 .f32) (t : Fin 2) (n : Fin 50000) (j : Fin 256) :
    Gmlp act A Hh W1 b1 W2 b2 (ix3 t n j)
      = act (rowMlp (fun k => A (ix3 t n k) + Hh (ix3 t n k)) (fun k j => W1 (ix3 t k j)) (fun j => b1 (ix3 t (0 : Fin 1) j))
          (fun k j => W2 (ix3 t k j)) (fun j => b2 (ix3 t (0 : Fin 1) j)) j) := rfl

/-- Entry (t, n, j) of the stacked encoder reads row (t, n). -/
theorem G0_apply (X : TNHv) (W : FVec Ideal Cert.KernelIdeal.S256x256 .f32) (b : FVec Ideal Cert.KernelIdeal.S256 .f32)
    (t : Fin 2) (n : Fin 50000) (j : Fin 256) :
    G0 X W b (ix3 t n j) = rowLin (fun k => X (ix3 t n k)) (fun k j => W (ix2 k j)) (fun j => b (ix1 j)) j := rfl

/-- The reference's round at a node: the row network on the aggregate plus the node's own row. -/
theorem layer_apply (h : NHv) (ei : EIv) (attn : ATv) (W1 : FVec Ideal Cert.KernelIdeal.S256x256 .f32)
    (b1 : FVec Ideal Cert.KernelIdeal.S256 .f32) (W2 : FVec Ideal Cert.KernelIdeal.S256x256 .f32)
    (b2 : FVec Ideal Cert.KernelIdeal.S256 .f32) (n : Fin 50000) (j : Fin 256) :
    layer (F := Ideal) h ei attn W1 b1 W2 b2 (ix2 n j)
      = rowMlp (fun k => agg (F := Ideal) h ei attn (ix2 n k) + h (ix2 n k)) (fun k j => W1 (ix2 k j)) (fun j => b1 (ix1 j))
          (fun k j => W2 (ix2 k j)) (fun j => b2 (ix1 j)) j := by
  unfold layer
  rw [enc_apply]
  show rowLin (fun k => relu (F := Ideal) (enc (F := Ideal) (addf (agg (F := Ideal) h ei attn) h) W1 b1) (ix2 n k)) _ _ j = _
  simp only [relu_apply, enc_apply]
  rfl

section Round
variable (act : EReal → EReal) (H : TNHv) (eia eib : EIv) (ata atb : ATv) (W1 W2 : W4v) (b1 b2 : B3v) (L : Fin 2)
  (wl : W4v → FVec Ideal Cert.KernelIdeal.S2x256x256 .f32) (bl : B3v → FVec Ideal Cert.KernelIdeal.S2x1x256 .f32)
  (hwl : ∀ (W : W4v) (t : Fin 2) (k j : Fin 256), wl W (ix3 t k j) = W (ix4 L t k j))
  (hbl : ∀ (b : B3v) (t : Fin 2) (j : Fin 256), bl b (ix3 t (0 : Fin 1) j) = b (ix3 L t j))

include hwl hbl in
/-- Slab 0 of a stacked round is the reference's round on node type 0. -/
theorem round0 (h : NHv) (hH : unstack0 H = h) (n : Fin 50000) (j : Fin 256) :
    Gmlp act (aggs H eia eib ata atb) H (wl W1) (bl b1) (wl W2) (bl b2) (ix3 (0 : Fin 2) n j)
      = act (layer (F := Ideal) h eia ata (wsl L 0 W1) (bsl L 0 b1) (wsl L 0 W2) (bsl L 0 b2) (ix2 n j)) := by
  rw [Gmlp_apply, layer_apply]
  have hz : (fun k : Fin 256 => aggs H eia eib ata atb (ix3 (0 : Fin 2) n k) + H (ix3 (0 : Fin 2) n k))
      = fun k => agg (F := Ideal) h eia ata (ix2 n k) + h (ix2 n k) := by
    funext k
    unfold aggs
    rw [stack2_apply0, ← unstack0_apply H n k, hH, aggK_eq]
  have hW1 : (fun k j : Fin 256 => wl W1 (ix3 (0 : Fin 2) k j)) = fun k j => wsl (F := Ideal) L 0 W1 (ix2 k j) := by
    funext k j; rw [hwl, wsl_apply]
  have hW2 : (fun k j : Fin 256 => wl W2 (ix3 (0 : Fin 2) k j)) = fun k j => wsl (F := Ideal) L 0 W2 (ix2 k j) := by
    funext k j; rw [hwl, wsl_apply]
  have hb1 : (fun j : Fin 256 => bl b1 (ix3 (0 : Fin 2) (0 : Fin 1) j)) = fun j => bsl (F := Ideal) L 0 b1 (ix1 j) := by
    funext j; rw [hbl, bsl_apply]
  have hb2 : (fun j : Fin 256 => bl b2 (ix3 (0 : Fin 2) (0 : Fin 1) j)) = fun j => bsl (F := Ideal) L 0 b2 (ix1 j) := by
    funext j; rw [hbl, bsl_apply]
  rw [hz, hW1, hW2, hb1, hb2]

include hwl hbl in
/-- Slab 1 of a stacked round is the reference's round on node type 1. -/
theorem round1 (h : NHv) (hH : unstack1 H = h) (n : Fin 50000) (j : Fin 256) :
    Gmlp act (aggs H eia eib ata atb) H (wl W1) (bl b1) (wl W2) (bl b2) (ix3 (1 : Fin 2) n j)
      = act (layer (F := Ideal) h eib atb (wsl L 1 W1) (bsl L 1 b1) (wsl L 1 W2) (bsl L 1 b2) (ix2 n j)) := by
  rw [Gmlp_apply, layer_apply]
  have hz : (fun k : Fin 256 => aggs H eia eib ata atb (ix3 (1 : Fin 2) n k) + H (ix3 (1 : Fin 2) n k))
      = fun k => agg (F := Ideal) h eib atb (ix2 n k) + h (ix2 n k) := by
    funext k
    unfold aggs
    rw [stack2_apply1, ← unstack1_apply H n k, hH, aggK_eq]
  have hW1 : (fun k j : Fin 256 => wl W1 (ix3 (1 : Fin 2) k j)) = fun k j => wsl (F := Ideal) L 1 W1 (ix2 k j) := by
    funext k j; rw [hwl, wsl_apply]
  have hW2 : (fun k j : Fin 256 => wl W2 (ix3 (1 : Fin 2) k j)) = fun k j => wsl (F := Ideal) L 1 W2 (ix2 k j) := by
    funext k j; rw [hwl, wsl_apply]
  have hb1 : (fun j : Fin 256 => bl b1 (ix3 (1 : Fin 2) (0 : Fin 1) j)) = fun j => bsl (F := Ideal) L 1 b1 (ix1 j) := by
    funext j; rw [hbl, bsl_apply]
  have hb2 : (fun j : Fin 256 => bl b2 (ix3 (1 : Fin 2) (0 : Fin 1) j)) = fun j => bsl (F := Ideal) L 1 b2 (ix1 j) := by
    funext j; rw [hbl, bsl_apply]
  rw [hz, hW1, hW2, hb1, hb2]

end Round

variable (xa xb : NHv) (eia eib : EIv) (ata atb : ATv) (encW : FVec Ideal Cert.KernelIdeal.S256x256 .f32)
  (encb : FVec Ideal Cert.KernelIdeal.S256 .f32) (W1 : W4v) (b1 : B3v) (W2 : W4v) (b2 : B3v)

/-! ## The encoder -/

theorem enc_slab0 : unstack0 (hid0 xa xb encW encb) = enc (F := Ideal) xa encW encb := by
  funext i
  obtain ⟨n, j, rfl⟩ : ∃ (n : Fin 50000) (j : Fin 256), i = ix2 n j := ⟨i 0, i 1, eq_ix2 i⟩
  rw [unstack0_apply, enc_apply]
  unfold hid0
  rw [G0_apply]
  simp only [stack2_apply0]

theorem enc_slab1 : unstack1 (hid0 xa xb encW encb) = enc (F := Ideal) xb encW encb := by
  funext i
  obtain ⟨n, j, rfl⟩ : ∃ (n : Fin 50000) (j : Fin 256), i = ix2 n j := ⟨i 0, i 1, eq_ix2 i⟩
  rw [unstack1_apply, enc_apply]
  unfold hid0
  rw [G0_apply]
  simp only [stack2_apply1]

/-! ## Round one -/

theorem hid_slab0 : unstack0 (hid1 xa xb eia eib ata atb encW encb W1 b1 W2 b2)
    = hid (F := Ideal) 0 xa eia ata encW encb W1 b1 W2 b2 := by
  funext i
  obtain ⟨n, j, rfl⟩ : ∃ (n : Fin 50000) (j : Fin 256), i = ix2 n j := ⟨i 0, i 1, eq_ix2 i⟩
  rw [unstack0_apply]
  unfold hid1 hid
  rw [elu_apply]
  exact round0 eluK (hid0 xa xb encW encb) eia eib ata atb W1 W2 b1 b2 0 wl0 bl0 wl0_apply bl0_apply _
    (enc_slab0 xa xb encW encb) n j

theorem hid_slab1 : unstack1 (hid1 xa xb eia eib ata atb encW encb W1 b1 W2 b2)
    = hid (F := Ideal) 1 xb eib atb encW encb W1 b1 W2 b2 := by
  funext i
  obtain ⟨n, j, rfl⟩ : ∃ (n : Fin 50000) (j : Fin 256), i = ix2 n j := ⟨i 0, i 1, eq_ix2 i⟩
  rw [unstack1_apply]
  unfold hid1 hid
  rw [elu_apply]
  exact round1 eluK (hid0 xa xb encW encb) eia eib ata atb W1 W2 b1 b2 0 wl0 bl0 wl0_apply bl0_apply _
    (enc_slab1 xa xb encW encb) n j

/-! ## Round two, and the result -/

theorem out_slab0 (n : Fin 50000) (j : Fin 256) :
    kerOut xa xb eia eib ata atb encW encb W1 b1 W2 b2 (ix3 (0 : Fin 2) n j)
      = fin (F := Ideal) 0 xa eia ata encW encb W1 b1 W2 b2 (ix2 n j) := by
  unfold kerOut fin
  exact round0 id (hid1 xa xb eia eib ata atb encW encb W1 b1 W2 b2) eia eib ata atb W1 W2 b1 b2 1 wl1 bl1 wl1_apply bl1_apply _
    (hid_slab0 xa xb eia eib ata atb encW encb W1 b1 W2 b2) n j

theorem out_slab1 (n : Fin 50000) (j : Fin 256) :
    kerOut xa xb eia eib ata atb encW encb W1 b1 W2 b2 (ix3 (1 : Fin 2) n j)
      = fin (F := Ideal) 1 xb eib atb encW encb W1 b1 W2 b2 (ix2 n j) := by
  unfold kerOut fin
  exact round1 id (hid1 xa xb eia eib ata atb encW encb W1 b1 W2 b2) eia eib ata atb W1 W2 b1 b2 1 wl1 bl1 wl1_apply bl1_apply _
    (hid_slab1 xa xb eia eib ata atb encW encb W1 b1 W2 b2) n j

/-- The kernel's function of the arguments is the reference's. -/
theorem out_eq : kerOut xa xb eia eib ata atb encW encb W1 b1 W2 b2
    = out (F := Ideal) xa xb eia eib ata atb encW encb W1 b1 W2 b2 := by
  funext i
  obtain ⟨t, n, j, rfl⟩ : ∃ (t : Fin 2) (n : Fin 50000) (j : Fin 256), i = ix3 t n j := ⟨i 0, i 1, i 2, eq_ix3 i⟩
  match t with
  | ⟨0, _⟩ => exact (out_slab0 xa xb eia eib ata atb encW encb W1 b1 W2 b2 n j).trans (out_apply0 _ _ _ _ _ _ _ _ _ _ _ _ n j).symm
  | ⟨1, _⟩ => exact (out_slab1 xa xb eia eib ata atb encW encb W1 b1 W2 b2 n j).trans (out_apply1 _ _ _ _ _ _ _ _ _ _ _ _ n j).symm

end Cert.Bridge

end
-- ==== Proof.RefRun.lean ====
/-
  The reference program's @main as the list of its 201 whole-array operations, and its run.

  @main is a straight line: the encoder on both node types, then two rounds of message passing (gather the
  source rows, scale each by its edge weight, scatter-add into the destination rows), each followed by the
  two-layer network of the node's type, the first round ending in the exponential linear unit. A call of a
  module-local function (the rectifier, the exponential linear unit and the two selects inside it) means its
  body over the call's own buffers: the list has those bodies in place of the six calls. Every buffer ends at
  the operations' fold over the launch contents.
-/
import proofs.«135935_j163208757329_2_alg».proof.Proof.Gen.ReferenceIdeal
import Idealize.ShloMosaic.Lib.StableHlo.Run

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 … 60, calls substituted. -/
abbrev ops_part0 : List (HloOp τ sig (Elt F)) :=
  [ StableHlo.binary main_arg0 main_arg6 main_v0 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S50000x256 ![0, 1] bcast_S1x256_S50000x256_0_1 : (⟨S1x256, .f32⟩ : BufTy).Contents (Elt F) → (⟨S50000x256, .f32⟩ : BufTy).Contents (Elt F)),
    StableHlo.binary main_v0 main_v2 main_v3 (addf : (⟨S50000x256, .f32⟩ : BufTy).Contents (Elt F) → (⟨S50000x256, .f32⟩ : BufTy).Contents (Elt F) → (⟨S50000x256, .f32⟩ : BufTy).Contents (Elt F)),
    StableHlo.binary main_arg1 main_arg6 main_v4 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_arg7 main_v5 (broadcastInDim S1x256 ![1] bcast_S256_S1x256_1 : (⟨S256, .f32⟩ : BufTy).Contents (Elt F) → (⟨S1x256, .f32⟩ : BufTy).Contents (Elt F)),
    StableHlo.unary main_v5 main_v6 (broadcastInDim S50000x256 ![0, 1] bcast_S1x256_S50000x256_0_1 : (⟨S1x256, .f32⟩ : BufTy).Contents (Elt F) → (⟨S50000x256, .f32⟩ : BufTy).Contents (Elt F)),
    StableHlo.binary main_v4 main_v6 main_v7 (addf : (⟨S50000x256, .f32⟩ : BufTy).Contents (Elt F) → (⟨S50000x256, .f32⟩ : BufTy).Contents (Elt F) → (⟨S50000x256, .f32⟩ : BufTy).Contents (Elt F)),
    StableHlo.unary main_arg2 main_v8 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v8 main_v9 rfl shapeCasts_S1x500000_S500000,
    StableHlo.unary main_arg2 main_v10 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v10 main_v11 rfl shapeCasts_S1x500000_S500000,
    StableHlo.unary main_arg8 main_v12 ((extractStridedSlice S1x1x256x256 ![0, 0, 0, 0] · slices_S2x2x256x256_S1x1x256x256_0_0_0_0) : (⟨S2x2x256x256, .f32⟩ : BufTy).Contents (Elt F) → (⟨S1x1x256x256, .f32⟩ : BufTy).Contents (Elt F)),
    StableHlo.reshape main_v12 main_v13 rfl shapeCasts_S1x1x256x256_S256x256,
    StableHlo.unary main_arg9 main_v14 ((extractStridedSlice S1x1x256 ![0, 0, 0] · slices_S2x2x256_S1x1x256_0_0_0) : (⟨S2x2x256, .f32⟩ : BufTy).Contents (Elt F) → (⟨S1x1x256, .f32⟩ : BufTy).Contents (Elt F)),
    StableHlo.reshape main_v14 main_v15 rfl shapeCasts_S1x1x256_S256,
    StableHlo.unary main_arg10 main_v16 ((extractStridedSlice S1x1x256x256 ![0, 0, 0, 0] · slices_S2x2x256x256_S1x1x256x256_0_0_0_0) : (⟨S2x2x256x256, .f32⟩ : BufTy).Contents (Elt F) → (⟨S1x1x256x256, .f32⟩ : BufTy).Contents (Elt F)),
    StableHlo.reshape main_v16 main_v17 rfl shapeCasts_S1x1x256x256_S256x256,
    StableHlo.unary main_arg11 main_v18 ((extractStridedSlice S1x1x256 ![0, 0, 0] · slices_S2x2x256_S1x1x256_0_0_0) : (⟨S2x2x256, .f32⟩ : BufTy).Contents (Elt F) → (⟨S1x1x256, .f32⟩ : BufTy).Contents (Elt F)),
    StableHlo.reshape main_v18 main_v19 rfl shapeCasts_S1x1x256_S256,
    StableHlo.nullary main_c (constantI S_ 32 0#32),
    StableHlo.unary main_c main_v20 (broadcastInDim S500000 ![] bcast_S_S500000 : (⟨S_, .i32⟩ : BufTy).Contents (Elt F) → (⟨S500000, .i32⟩ : BufTy).Contents (Elt F)),
    StableHlo.binary main_v9 main_v20 main_v21 (cmpi .slt : (⟨S500000, .i32⟩ : BufTy).Contents (Elt F) → (⟨S500000, .i32⟩ : BufTy).Contents (Elt F) → (⟨S500000, .i1⟩ : BufTy).Contents (Elt F)),
    StableHlo.nullary main_c_0 (constantI S_ 32 50000#32),
    StableHlo.unary main_c_0 main_v22 (broadcastInDim S500000 ![] bcast_S_S500000 : (⟨S_, .i32⟩ : BufTy).Contents (Elt F) → (⟨S500000, .i32⟩ : BufTy).Contents (Elt F)),
    StableHlo.binary main_v9 main_v22 main_v23 (addi : (⟨S500000, .i32⟩ : BufTy).Contents (Elt F) → (⟨S500000, .i32⟩ : BufTy).Contents (Elt F) → (⟨S500000, .i32⟩ : BufTy).Contents (Elt F)),
    StableHlo.ternary main_v21 main_v23 main_v9 main_v24 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v24 main_v25 (broadcastInDim S500000x1 ![0] bcast_S500000_S500000x1_0 : (⟨S500000, .i32⟩ : BufTy).Contents (Elt F) → (⟨S500000x1, .i32⟩ : BufTy).Contents (Elt F)),
    StableHlo.binary main_v3 main_v25 main_v26 ((fun x i => Host.gather gather_S50000x256_S500000x1_S500000x256_1_0_n_n_0_1_1256 x i) : (⟨S50000x256, .f32⟩ : BufTy).Contents (Elt F) → (⟨S500000x1, .i32⟩ : BufTy).Contents (Elt F) → (⟨S500000x256, .f32⟩ : BufTy).Contents (Elt F)),
    StableHlo.unary main_arg4 main_v27 (broadcastInDim S500000x1 ![0] bcast_S500000_S500000x1_0 : (⟨S500000, .f32⟩ : BufTy).Contents (Elt F) → (⟨S500000x1, .f32⟩ : BufTy).Contents (Elt F)),
    StableHlo.unary main_v27 main_v28 (broadcastInDim S500000x256 ![0, 1] bcast_S500000x1_S500000x256_0_1 : (⟨S500000x1, .f32⟩ : BufTy).Contents (Elt F) → (⟨S500000x256, .f32⟩ : BufTy).Contents (Elt F)),
    StableHlo.binary main_v26 main_v28 main_v29 (mulf : (⟨S500000x256, .f32⟩ : BufTy).Contents (Elt F) → (⟨S500000x256, .f32⟩ : BufTy).Contents (Elt F) → (⟨S500000x256, .f32⟩ : BufTy).Contents (Elt F)),
    StableHlo.nullary main_cst (constant S_ .f32 0x00000000#32),
    StableHlo.unary main_cst main_v30 (broadcastInDim S50000x256 ![] bcast_S_S50000x256 : (⟨S_, .f32⟩ : BufTy).Contents (Elt F) → (⟨S50000x256, .f32⟩ : BufTy).Contents (Elt F)),
    StableHlo.unary main_v11 main_v31 (broadcastInDim S500000x1 ![0] bcast_S500000_S500000x1_0 : (⟨S500000, .i32⟩ : BufTy).Contents (Elt F) → (⟨S500000x1, .i32⟩ : BufTy).Contents (Elt F)),
    StableHlo.ternary main_v30 main_v31 main_v29 main_v32 ((fun x i u => Host.scatterAdd scatter_S50000x256_S500000x1_S500000x256_1_0_0_1 x i u) : (⟨S50000x256, .f32⟩ : BufTy).Contents (Elt F) → (⟨S500000x1, .i32⟩ : BufTy).Contents (Elt F) → (⟨S500000x256, .f32⟩ : BufTy).Contents (Elt F) → (⟨S50000x256, .f32⟩ : BufTy).Contents (Elt F)),
    StableHlo.binary main_v32 main_v3 main_v33 (addf : (⟨S50000x256, .f32⟩ : BufTy).Contents (Elt F) → (⟨S50000x256, .f32⟩ : BufTy).Contents (Elt F) → (⟨S50000x256, .f32⟩ : BufTy).Contents (Elt F)),
    StableHlo.binary main_v33 main_v13 main_v34 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v15 main_v35 (broadcastInDim S1x256 ![1] bcast_S256_S1x256_1 : (⟨S256, .f32⟩ : BufTy).Contents (Elt F) → (⟨S1x256, .f32⟩ : BufTy).Contents (Elt F)),
    StableHlo.unary main_v35 main_v36 (broadcastInDim S50000x256 ![0, 1] bcast_S1x256_S50000x256_0_1 : (⟨S1x256, .f32⟩ : BufTy).Contents (Elt F) → (⟨S50000x256, .f32⟩ : BufTy).Contents (Elt F)),
    StableHlo.binary main_v34 main_v36 main_v37 (addf : (⟨S50000x256, .f32⟩ : BufTy).Contents (Elt F) → (⟨S50000x256, .f32⟩ : BufTy).Contents (Elt F) → (⟨S50000x256, .f32⟩ : BufTy).Contents (Elt F)),
    TRef.nullary main_call0.cst (constant S_ .f32 0x00000000#32),
    TRef.unary main_call0.cst main_call0.v0 (broadcastInDim S50000x256 ![] bcast_S_S50000x256),
    TRef.binary (.of main_v37) main_call0.v0 main_call0.v1 maximumf,
    StableHlo.binary main_v38 main_v17 main_v39 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v19 main_v40 (broadcastInDim S1x256 ![1] bcast_S256_S1x256_1 : (⟨S256, .f32⟩ : BufTy).Contents (Elt F) → (⟨S1x256, .f32⟩ : BufTy).Contents (Elt F)),
    StableHlo.unary main_v40 main_v41 (broadcastInDim S50000x256 ![0, 1] bcast_S1x256_S50000x256_0_1 : (⟨S1x256, .f32⟩ : BufTy).Contents (Elt F) → (⟨S50000x256, .f32⟩ : BufTy).Contents (Elt F)),
    StableHlo.binary main_v39 main_v41 main_v42 (addf : (⟨S50000x256, .f32⟩ : BufTy).Contents (Elt F) → (⟨S50000x256, .f32⟩ : BufTy).Contents (Elt F) → (⟨S50000x256, .f32⟩ : BufTy).Contents (Elt F)),
    StableHlo.unary main_arg3 main_v43 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v43 main_v44 rfl shapeCasts_S1x500000_S500000,
    StableHlo.unary main_arg3 main_v45 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v45 main_v46 rfl shapeCasts_S1x500000_S500000,
    StableHlo.unary main_arg8 main_v47 ((extractStridedSlice S1x1x256x256 ![0, 1, 0, 0] · slices_S2x2x256x256_S1x1x256x256_0_1_0_0) : (⟨S2x2x256x256, .f32⟩ : BufTy).Contents (Elt F) → (⟨S1x1x256x256, .f32⟩ : BufTy).Contents (Elt F)),
    StableHlo.reshape main_v47 main_v48 rfl shapeCasts_S1x1x256x256_S256x256,
    StableHlo.unary main_arg9 main_v49 ((extractStridedSlice S1x1x256 ![0, 1, 0] · slices_S2x2x256_S1x1x256_0_1_0) : (⟨S2x2x256, .f32⟩ : BufTy).Contents (Elt F) → (⟨S1x1x256, .f32⟩ : BufTy).Contents (Elt F)),
    StableHlo.reshape main_v49 main_v50 rfl shapeCasts_S1x1x256_S256,
    StableHlo.unary main_arg10 main_v51 ((extractStridedSlice S1x1x256x256 ![0, 1, 0, 0] · slices_S2x2x256x256_S1x1x256x256_0_1_0_0) : (⟨S2x2x256x256, .f32⟩ : BufTy).Contents (Elt F) → (⟨S1x1x256x256, .f32⟩ : BufTy).Contents (Elt F)),
    StableHlo.reshape main_v51 main_v52 rfl shapeCasts_S1x1x256x256_S256x256,
    StableHlo.unary main_arg11 main_v53 ((extractStridedSlice S1x1x256 ![0, 1, 0] · slices_S2x2x256_S1x1x256_0_1_0) : (⟨S2x2x256, .f32⟩ : BufTy).Contents (Elt F) → (⟨S1x1x256, .f32⟩ : BufTy).Contents (Elt F)),
    StableHlo.reshape main_v53 main_v54 rfl shapeCasts_S1x1x256_S256,
    StableHlo.nullary main_c_1 (constantI S_ 32 0#32),
    StableHlo.unary main_c_1 main_v55 (broadcastInDim S500000 ![] bcast_S_S500000 : (⟨S_, .i32⟩ : BufTy).Contents (Elt F) → (⟨S500000, .i32⟩ : BufTy).Contents (Elt F)) ]

/-- The operations of @main's statements 61 … 120, calls substituted. -/
abbrev ops_part1 : List (HloOp τ sig (Elt F)) :=
  [ StableHlo.binary main_v44 main_v55 main_v56 (cmpi .slt : (⟨S500000, .i32⟩ : BufTy).Contents (Elt F) → (⟨S500000, .i32⟩ : BufTy).Contents (Elt F) → (⟨S500000, .i1⟩ : BufTy).Contents (Elt F)),
    StableHlo.nullary main_c_2 (constantI S_ 32 50000#32),
    StableHlo.unary main_c_2 main_v57 (broadcastInDim S500000 ![] bcast_S_S500000 : (⟨S_, .i32⟩ : BufTy).Contents (Elt F) → (⟨S500000, .i32⟩ : BufTy).Contents (Elt F)),
    StableHlo.binary main_v44 main_v57 main_v58 (addi : (⟨S500000, .i32⟩ : BufTy).Contents (Elt F) → (⟨S500000, .i32⟩ : BufTy).Contents (Elt F) → (⟨S500000, .i32⟩ : BufTy).Contents (Elt F)),
    StableHlo.ternary main_v56 main_v58 main_v44 main_v59 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v59 main_v60 (broadcastInDim S500000x1 ![0] bcast_S500000_S500000x1_0 : (⟨S500000, .i32⟩ : BufTy).Contents (Elt F) → (⟨S500000x1, .i32⟩ : BufTy).Contents (Elt F)),
    StableHlo.binary main_v7 main_v60 main_v61 ((fun x i => Host.gather gather_S50000x256_S500000x1_S500000x256_1_0_n_n_0_1_1256 x i) : (⟨S50000x256, .f32⟩ : BufTy).Contents (Elt F) → (⟨S500000x1, .i32⟩ : BufTy).Contents (Elt F) → (⟨S500000x256, .f32⟩ : BufTy).Contents (Elt F)),
    StableHlo.unary main_arg5 main_v62 (broadcastInDim S500000x1 ![0] bcast_S500000_S500000x1_0 : (⟨S500000, .f32⟩ : BufTy).Contents (Elt F) → (⟨S500000x1, .f32⟩ : BufTy).Contents (Elt F)),
    StableHlo.unary main_v62 main_v63 (broadcastInDim S500000x256 ![0, 1] bcast_S500000x1_S500000x256_0_1 : (⟨S500000x1, .f32⟩ : BufTy).Contents (Elt F) → (⟨S500000x256, .f32⟩ : BufTy).Contents (Elt F)),
    StableHlo.binary main_v61 main_v63 main_v64 (mulf : (⟨S500000x256, .f32⟩ : BufTy).Contents (Elt F) → (⟨S500000x256, .f32⟩ : BufTy).Contents (Elt F) → (⟨S500000x256, .f32⟩ : BufTy).Contents (Elt F)),
    StableHlo.nullary main_cst_3 (constant S_ .f32 0x00000000#32),
    StableHlo.unary main_cst_3 main_v65 (broadcastInDim S50000x256 ![] bcast_S_S50000x256 : (⟨S_, .f32⟩ : BufTy).Contents (Elt F) → (⟨S50000x256, .f32⟩ : BufTy).Contents (Elt F)),
    StableHlo.unary main_v46 main_v66 (broadcastInDim S500000x1 ![0] bcast_S500000_S500000x1_0 : (⟨S500000, .i32⟩ : BufTy).Contents (Elt F) → (⟨S500000x1, .i32⟩ : BufTy).Contents (Elt F)),
    StableHlo.ternary main_v65 main_v66 main_v64 main_v67 ((fun x i u => Host.scatterAdd scatter_S50000x256_S500000x1_S500000x256_1_0_0_1 x i u) : (⟨S50000x256, .f32⟩ : BufTy).Contents (Elt F) → (⟨S500000x1, .i32⟩ : BufTy).Contents (Elt F) → (⟨S500000x256, .f32⟩ : BufTy).Contents (Elt F) → (⟨S50000x256, .f32⟩ : BufTy).Contents (Elt F)),
    StableHlo.binary main_v67 main_v7 main_v68 (addf : (⟨S50000x256, .f32⟩ : BufTy).Contents (Elt F) → (⟨S50000x256, .f32⟩ : BufTy).Contents (Elt F) → (⟨S50000x256, .f32⟩ : BufTy).Contents (Elt F)),
    StableHlo.binary main_v68 main_v48 main_v69 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v50 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (addf : (⟨S50000x256, .f32⟩ : BufTy).Contents (Elt F) → (⟨S50000x256, .f32⟩ : BufTy).Contents (Elt F) → (⟨S50000x256, .f32⟩ : BufTy).Contents (Elt F)),
    TRef.nullary main_call1.cst (constant S_ .f32 0x00000000#32),
    TRef.unary main_call1.cst main_call1.v0 (broadcastInDim S50000x256 ![] bcast_S_S50000x256),
    TRef.binary (.of main_v72) main_call1.v0 main_call1.v1 maximumf,
    StableHlo.binary main_v73 main_v52 main_v74 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v54 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S50000x256 ![0, 1] bcast_S1x256_S50000x256_0_1 : (⟨S1x256, .f32⟩ : BufTy).Contents (Elt F) → (⟨S50000x256, .f32⟩ : BufTy).Contents (Elt F)),
    StableHlo.binary main_v74 main_v76 main_v77 (addf : (⟨S50000x256, .f32⟩ : BufTy).Contents (Elt F) → (⟨S50000x256, .f32⟩ : BufTy).Contents (Elt F) → (⟨S50000x256, .f32⟩ : BufTy).Contents (Elt F)),
    TRef.nullary main_call2.cst (constant S_ .f32 0x00000000#32),
    TRef.unary main_call2.cst main_call2.v0 (broadcastInDim S50000x256 ![] bcast_S_S50000x256),
    TRef.binary (.of main_v42) main_call2.v0 main_call2.v1 (cmpf .ogt),
    TRef.nullary main_call2.cst_0 (constant S_ .f32 0x00000000#32),
    TRef.unary main_call2.cst_0 main_call2.v2 (broadcastInDim S50000x256 ![] bcast_S_S50000x256),
    TRef.binary (.of main_v42) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S50000x256 ![] bcast_S_S50000x256),
    TRef.ternary main_call2.v3 main_call2.call0.v1 (.of main_v42) main_call2.call0.v2 select,
    TRef.unary main_call2.call0.v2 main_call2.v5 Host.expm1,
    TRef.nullary main_call2.cst_2 (constant S_ .f32 0x3F800000#32),
    TRef.unary main_call2.cst_2 main_call2.v6 (broadcastInDim S50000x256 ![] bcast_S_S50000x256),
    TRef.binary main_call2.v6 main_call2.v5 main_call2.v7 mulf,
    TRef.ternary main_call2.v1 (.of main_v42) main_call2.v7 main_call2.call1.v0 select,
    TRef.nullary main_call3.cst (constant S_ .f32 0x00000000#32),
    TRef.unary main_call3.cst main_call3.v0 (broadcastInDim S50000x256 ![] bcast_S_S50000x256),
    TRef.binary (.of main_v77) main_call3.v0 main_call3.v1 (cmpf .ogt),
    TRef.nullary main_call3.cst_0 (constant S_ .f32 0x00000000#32),
    TRef.unary main_call3.cst_0 main_call3.v2 (broadcastInDim S50000x256 ![] bcast_S_S50000x256),
    TRef.binary (.of main_v77) main_call3.v2 main_call3.v3 (cmpf .ogt),
    TRef.nullary main_call3.cst_1 (constant S_ .f32 0x00000000#32),
    TRef.unary main_call3.cst_1 main_call3.call0.v0 id,
    TRef.unary main_call3.call0.v0 main_call3.call0.v1 (broadcastInDim S50000x256 ![] bcast_S_S50000x256),
    TRef.ternary main_call3.v3 main_call3.call0.v1 (.of main_v77) main_call3.call0.v2 select,
    TRef.unary main_call3.call0.v2 main_call3.v5 Host.expm1,
    TRef.nullary main_call3.cst_2 (constant S_ .f32 0x3F800000#32),
    TRef.unary main_call3.cst_2 main_call3.v6 (broadcastInDim S50000x256 ![] bcast_S_S50000x256),
    TRef.binary main_call3.v6 main_call3.v5 main_call3.v7 mulf,
    TRef.ternary main_call3.v1 (.of main_v77) main_call3.v7 main_call3.call1.v0 select,
    StableHlo.unary main_arg2 main_v80 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v80 main_v81 rfl shapeCasts_S1x500000_S500000,
    StableHlo.unary main_arg2 main_v82 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v82 main_v83 rfl shapeCasts_S1x500000_S500000,
    StableHlo.unary main_arg8 main_v84 ((extractStridedSlice S1x1x256x256 ![1, 0, 0, 0] · slices_S2x2x256x256_S1x1x256x256_1_0_0_0) : (⟨S2x2x256x256, .f32⟩ : BufTy).Contents (Elt F) → (⟨S1x1x256x256, .f32⟩ : BufTy).Contents (Elt F)),
    StableHlo.reshape main_v84 main_v85 rfl shapeCasts_S1x1x256x256_S256x256,
    StableHlo.unary main_arg9 main_v86 ((extractStridedSlice S1x1x256 ![1, 0, 0] · slices_S2x2x256_S1x1x256_1_0_0) : (⟨S2x2x256, .f32⟩ : BufTy).Contents (Elt F) → (⟨S1x1x256, .f32⟩ : BufTy).Contents (Elt F)),
    StableHlo.reshape main_v86 main_v87 rfl shapeCasts_S1x1x256_S256,
    StableHlo.unary main_arg10 main_v88 ((extractStridedSlice S1x1x256x256 ![1, 0, 0, 0] · slices_S2x2x256x256_S1x1x256x256_1_0_0_0) : (⟨S2x2x256x256, .f32⟩ : BufTy).Contents (Elt F) → (⟨S1x1x256x256, .f32⟩ : BufTy).Contents (Elt F)),
    StableHlo.reshape main_v88 main_v89 rfl shapeCasts_S1x1x256x256_S256x256,
    StableHlo.unary main_arg11 main_v90 ((extractStridedSlice S1x1x256 ![1, 0, 0] · slices_S2x2x256_S1x1x256_1_0_0) : (⟨S2x2x256, .f32⟩ : BufTy).Contents (Elt F) → (⟨S1x1x256, .f32⟩ : BufTy).Contents (Elt F)),
    StableHlo.reshape main_v90 main_v91 rfl shapeCasts_S1x1x256_S256,
    StableHlo.nullary main_c_4 (constantI S_ 32 0#32),
    StableHlo.unary main_c_4 main_v92 (broadcastInDim S500000 ![] bcast_S_S500000 : (⟨S_, .i32⟩ : BufTy).Contents (Elt F) → (⟨S500000, .i32⟩ : BufTy).Contents (Elt F)),
    StableHlo.binary main_v81 main_v92 main_v93 (cmpi .slt : (⟨S500000, .i32⟩ : BufTy).Contents (Elt F) → (⟨S500000, .i32⟩ : BufTy).Contents (Elt F) → (⟨S500000, .i1⟩ : BufTy).Contents (Elt F)),
    StableHlo.nullary main_c_5 (constantI S_ 32 50000#32),
    StableHlo.unary main_c_5 main_v94 (broadcastInDim S500000 ![] bcast_S_S500000 : (⟨S_, .i32⟩ : BufTy).Contents (Elt F) → (⟨S500000, .i32⟩ : BufTy).Contents (Elt F)),
    StableHlo.binary main_v81 main_v94 main_v95 (addi : (⟨S500000, .i32⟩ : BufTy).Contents (Elt F) → (⟨S500000, .i32⟩ : BufTy).Contents (Elt F) → (⟨S500000, .i32⟩ : BufTy).Contents (Elt F)),
    StableHlo.ternary main_v93 main_v95 main_v81 main_v96 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v96 main_v97 (broadcastInDim S500000x1 ![0] bcast_S500000_S500000x1_0 : (⟨S500000, .i32⟩ : BufTy).Contents (Elt F) → (⟨S500000x1, .i32⟩ : BufTy).Contents (Elt F)),
    StableHlo.binary main_v78 main_v97 main_v98 ((fun x i => Host.gather gather_S50000x256_S500000x1_S500000x256_1_0_n_n_0_1_1256 x i) : (⟨S50000x256, .f32⟩ : BufTy).Contents (Elt F) → (⟨S500000x1, .i32⟩ : BufTy).Contents (Elt F) → (⟨S500000x256, .f32⟩ : BufTy).Contents (Elt F)),
    StableHlo.unary main_arg4 main_v99 (broadcastInDim S500000x1 ![0] bcast_S500000_S500000x1_0 : (⟨S500000, .f32⟩ : BufTy).Contents (Elt F) → (⟨S500000x1, .f32⟩ : BufTy).Contents (Elt F)),
    StableHlo.unary main_v99 main_v100 (broadcastInDim S500000x256 ![0, 1] bcast_S500000x1_S500000x256_0_1 : (⟨S500000x1, .f32⟩ : BufTy).Contents (Elt F) → (⟨S500000x256, .f32⟩ : BufTy).Contents (Elt F)),
    StableHlo.binary main_v98 main_v100 main_v101 (mulf : (⟨S500000x256, .f32⟩ : BufTy).Contents (Elt F) → (⟨S500000x256, .f32⟩ : BufTy).Contents (Elt F) → (⟨S500000x256, .f32⟩ : BufTy).Contents (Elt F)),
    StableHlo.nullary main_cst_6 (constant S_ .f32 0x00000000#32),
    StableHlo.unary main_cst_6 main_v102 (broadcastInDim S50000x256 ![] bcast_S_S50000x256 : (⟨S_, .f32⟩ : BufTy).Contents (Elt F) → (⟨S50000x256, .f32⟩ : BufTy).Contents (Elt F)),
    StableHlo.unary main_v83 main_v103 (broadcastInDim S500000x1 ![0] bcast_S500000_S500000x1_0 : (⟨S500000, .i32⟩ : BufTy).Contents (Elt F) → (⟨S500000x1, .i32⟩ : BufTy).Contents (Elt F)),
    StableHlo.ternary main_v102 main_v103 main_v101 main_v104 ((fun x i u => Host.scatterAdd scatter_S50000x256_S500000x1_S500000x256_1_0_0_1 x i u) : (⟨S50000x256, .f32⟩ : BufTy).Contents (Elt F) → (⟨S500000x1, .i32⟩ : BufTy).Contents (Elt F) → (⟨S500000x256, .f32⟩ : BufTy).Contents (Elt F) → (⟨S50000x256, .f32⟩ : BufTy).Contents (Elt F)),
    StableHlo.binary main_v104 main_v78 main_v105 (addf : (⟨S50000x256, .f32⟩ : BufTy).Contents (Elt F) → (⟨S50000x256, .f32⟩ : BufTy).Contents (Elt F) → (⟨S50000x256, .f32⟩ : BufTy).Contents (Elt F)),
    StableHlo.binary main_v105 main_v85 main_v106 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v87 main_v107 (broadcastInDim S1x256 ![1] bcast_S256_S1x256_1 : (⟨S256, .f32⟩ : BufTy).Contents (Elt F) → (⟨S1x256, .f32⟩ : BufTy).Contents (Elt F)),
    StableHlo.unary main_v107 main_v108 (broadcastInDim S50000x256 ![0, 1] bcast_S1x256_S50000x256_0_1 : (⟨S1x256, .f32⟩ : BufTy).Contents (Elt F) → (⟨S50000x256, .f32⟩ : BufTy).Contents (Elt F)),
    StableHlo.binary main_v106 main_v108 main_v109 (addf : (⟨S50000x256, .f32⟩ : BufTy).Contents (Elt F) → (⟨S50000x256, .f32⟩ : BufTy).Contents (Elt F) → (⟨S50000x256, .f32⟩ : BufTy).Contents (Elt F)),
    TRef.nullary main_call4.cst (constant S_ .f32 0x00000000#32),
    TRef.unary main_call4.cst main_call4.v0 (broadcastInDim S50000x256 ![] bcast_S_S50000x256),
    TRef.binary (.of main_v109) main_call4.v0 main_call4.v1 maximumf ]

/-- The operations of @main's statements 121 … 166, calls substituted. -/
abbrev ops_part2 : List (HloOp τ sig (Elt F)) :=
  [ StableHlo.binary main_v110 main_v89 main_v111 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v91 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S50000x256 ![0, 1] bcast_S1x256_S50000x256_0_1 : (⟨S1x256, .f32⟩ : BufTy).Contents (Elt F) → (⟨S50000x256, .f32⟩ : BufTy).Contents (Elt F)),
    StableHlo.binary main_v111 main_v113 main_v114 (addf : (⟨S50000x256, .f32⟩ : BufTy).Contents (Elt F) → (⟨S50000x256, .f32⟩ : BufTy).Contents (Elt F) → (⟨S50000x256, .f32⟩ : BufTy).Contents (Elt F)),
    StableHlo.unary main_arg3 main_v115 ((extractStridedSlice S1x500000 ![0, 0] · slices_S2x500000_S1x500000_0_0) : (⟨S2x500000, .i32⟩ : BufTy).Contents (Elt F) → (⟨S1x500000, .i32⟩ : BufTy).Contents (Elt F)),
    StableHlo.reshape main_v115 main_v116 rfl shapeCasts_S1x500000_S500000,
    StableHlo.unary main_arg3 main_v117 ((extractStridedSlice S1x500000 ![1, 0] · slices_S2x500000_S1x500000_1_0) : (⟨S2x500000, .i32⟩ : BufTy).Contents (Elt F) → (⟨S1x500000, .i32⟩ : BufTy).Contents (Elt F)),
    StableHlo.reshape main_v117 main_v118 rfl shapeCasts_S1x500000_S500000,
    StableHlo.unary main_arg8 main_v119 ((extractStridedSlice S1x1x256x256 ![1, 1, 0, 0] · slices_S2x2x256x256_S1x1x256x256_1_1_0_0) : (⟨S2x2x256x256, .f32⟩ : BufTy).Contents (Elt F) → (⟨S1x1x256x256, .f32⟩ : BufTy).Contents (Elt F)),
    StableHlo.reshape main_v119 main_v120 rfl shapeCasts_S1x1x256x256_S256x256,
    StableHlo.unary main_arg9 main_v121 ((extractStridedSlice S1x1x256 ![1, 1, 0] · slices_S2x2x256_S1x1x256_1_1_0) : (⟨S2x2x256, .f32⟩ : BufTy).Contents (Elt F) → (⟨S1x1x256, .f32⟩ : BufTy).Contents (Elt F)),
    StableHlo.reshape main_v121 main_v122 rfl shapeCasts_S1x1x256_S256,
    StableHlo.unary main_arg10 main_v123 ((extractStridedSlice S1x1x256x256 ![1, 1, 0, 0] · slices_S2x2x256x256_S1x1x256x256_1_1_0_0) : (⟨S2x2x256x256, .f32⟩ : BufTy).Contents (Elt F) → (⟨S1x1x256x256, .f32⟩ : BufTy).Contents (Elt F)),
    StableHlo.reshape main_v123 main_v124 rfl shapeCasts_S1x1x256x256_S256x256,
    StableHlo.unary main_arg11 main_v125 ((extractStridedSlice S1x1x256 ![1, 1, 0] · slices_S2x2x256_S1x1x256_1_1_0) : (⟨S2x2x256, .f32⟩ : BufTy).Contents (Elt F) → (⟨S1x1x256, .f32⟩ : BufTy).Contents (Elt F)),
    StableHlo.reshape main_v125 main_v126 rfl shapeCasts_S1x1x256_S256,
    StableHlo.nullary main_c_7 (constantI S_ 32 0#32),
    StableHlo.unary main_c_7 main_v127 (broadcastInDim S500000 ![] bcast_S_S500000 : (⟨S_, .i32⟩ : BufTy).Contents (Elt F) → (⟨S500000, .i32⟩ : BufTy).Contents (Elt F)),
    StableHlo.binary main_v116 main_v127 main_v128 (cmpi .slt : (⟨S500000, .i32⟩ : BufTy).Contents (Elt F) → (⟨S500000, .i32⟩ : BufTy).Contents (Elt F) → (⟨S500000, .i1⟩ : BufTy).Contents (Elt F)),
    StableHlo.nullary main_c_8 (constantI S_ 32 50000#32),
    StableHlo.unary main_c_8 main_v129 (broadcastInDim S500000 ![] bcast_S_S500000 : (⟨S_, .i32⟩ : BufTy).Contents (Elt F) → (⟨S500000, .i32⟩ : BufTy).Contents (Elt F)),
    StableHlo.binary main_v116 main_v129 main_v130 (addi : (⟨S500000, .i32⟩ : BufTy).Contents (Elt F) → (⟨S500000, .i32⟩ : BufTy).Contents (Elt F) → (⟨S500000, .i32⟩ : BufTy).Contents (Elt F)),
    StableHlo.ternary main_v128 main_v130 main_v116 main_v131 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v131 main_v132 (broadcastInDim S500000x1 ![0] bcast_S500000_S500000x1_0 : (⟨S500000, .i32⟩ : BufTy).Contents (Elt F) → (⟨S500000x1, .i32⟩ : BufTy).Contents (Elt F)),
    StableHlo.binary main_v79 main_v132 main_v133 ((fun x i => Host.gather gather_S50000x256_S500000x1_S500000x256_1_0_n_n_0_1_1256 x i) : (⟨S50000x256, .f32⟩ : BufTy).Contents (Elt F) → (⟨S500000x1, .i32⟩ : BufTy).Contents (Elt F) → (⟨S500000x256, .f32⟩ : BufTy).Contents (Elt F)),
    StableHlo.unary main_arg5 main_v134 (broadcastInDim S500000x1 ![0] bcast_S500000_S500000x1_0 : (⟨S500000, .f32⟩ : BufTy).Contents (Elt F) → (⟨S500000x1, .f32⟩ : BufTy).Contents (Elt F)),
    StableHlo.unary main_v134 main_v135 (broadcastInDim S500000x256 ![0, 1] bcast_S500000x1_S500000x256_0_1 : (⟨S500000x1, .f32⟩ : BufTy).Contents (Elt F) → (⟨S500000x256, .f32⟩ : BufTy).Contents (Elt F)),
    StableHlo.binary main_v133 main_v135 main_v136 (mulf : (⟨S500000x256, .f32⟩ : BufTy).Contents (Elt F) → (⟨S500000x256, .f32⟩ : BufTy).Contents (Elt F) → (⟨S500000x256, .f32⟩ : BufTy).Contents (Elt F)),
    StableHlo.nullary main_cst_9 (constant S_ .f32 0x00000000#32),
    StableHlo.unary main_cst_9 main_v137 (broadcastInDim S50000x256 ![] bcast_S_S50000x256 : (⟨S_, .f32⟩ : BufTy).Contents (Elt F) → (⟨S50000x256, .f32⟩ : BufTy).Contents (Elt F)),
    StableHlo.unary main_v118 main_v138 (broadcastInDim S500000x1 ![0] bcast_S500000_S500000x1_0 : (⟨S500000, .i32⟩ : BufTy).Contents (Elt F) → (⟨S500000x1, .i32⟩ : BufTy).Contents (Elt F)),
    StableHlo.ternary main_v137 main_v138 main_v136 main_v139 ((fun x i u => Host.scatterAdd scatter_S50000x256_S500000x1_S500000x256_1_0_0_1 x i u) : (⟨S50000x256, .f32⟩ : BufTy).Contents (Elt F) → (⟨S500000x1, .i32⟩ : BufTy).Contents (Elt F) → (⟨S500000x256, .f32⟩ : BufTy).Contents (Elt F) → (⟨S50000x256, .f32⟩ : BufTy).Contents (Elt F)),
    StableHlo.binary main_v139 main_v79 main_v140 (addf : (⟨S50000x256, .f32⟩ : BufTy).Contents (Elt F) → (⟨S50000x256, .f32⟩ : BufTy).Contents (Elt F) → (⟨S50000x256, .f32⟩ : BufTy).Contents (Elt F)),
    StableHlo.binary main_v140 main_v120 main_v141 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v122 main_v142 (broadcastInDim S1x256 ![1] bcast_S256_S1x256_1 : (⟨S256, .f32⟩ : BufTy).Contents (Elt F) → (⟨S1x256, .f32⟩ : BufTy).Contents (Elt F)),
    StableHlo.unary main_v142 main_v143 (broadcastInDim S50000x256 ![0, 1] bcast_S1x256_S50000x256_0_1 : (⟨S1x256, .f32⟩ : BufTy).Contents (Elt F) → (⟨S50000x256, .f32⟩ : BufTy).Contents (Elt F)),
    StableHlo.binary main_v141 main_v143 main_v144 (addf : (⟨S50000x256, .f32⟩ : BufTy).Contents (Elt F) → (⟨S50000x256, .f32⟩ : BufTy).Contents (Elt F) → (⟨S50000x256, .f32⟩ : BufTy).Contents (Elt F)),
    TRef.nullary main_call5.cst (constant S_ .f32 0x00000000#32),
    TRef.unary main_call5.cst main_call5.v0 (broadcastInDim S50000x256 ![] bcast_S_S50000x256),
    TRef.binary (.of main_v144) main_call5.v0 main_call5.v1 maximumf,
    StableHlo.binary main_v145 main_v124 main_v146 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    StableHlo.unary main_v126 main_v147 (broadcastInDim S1x256 ![1] bcast_S256_S1x256_1 : (⟨S256, .f32⟩ : BufTy).Contents (Elt F) → (⟨S1x256, .f32⟩ : BufTy).Contents (Elt F)),
    StableHlo.unary main_v147 main_v148 (broadcastInDim S50000x256 ![0, 1] bcast_S1x256_S50000x256_0_1 : (⟨S1x256, .f32⟩ : BufTy).Contents (Elt F) → (⟨S50000x256, .f32⟩ : BufTy).Contents (Elt F)),
    StableHlo.binary main_v146 main_v148 main_v149 (addf : (⟨S50000x256, .f32⟩ : BufTy).Contents (Elt F) → (⟨S50000x256, .f32⟩ : BufTy).Contents (Elt F) → (⟨S50000x256, .f32⟩ : BufTy).Contents (Elt F)),
    StableHlo.unary main_v114 main_v150 (broadcastInDim S1x50000x256 ![1, 2] bcast_S50000x256_S1x50000x256_1_2 : (⟨S50000x256, .f32⟩ : BufTy).Contents (Elt F) → (⟨S1x50000x256, .f32⟩ : BufTy).Contents (Elt F)),
    StableHlo.unary main_v149 main_v151 (broadcastInDim S1x50000x256 ![1, 2] bcast_S50000x256_S1x50000x256_1_2 : (⟨S50000x256, .f32⟩ : BufTy).Contents (Elt F) → (⟨S1x50000x256, .f32⟩ : BufTy).Contents (Elt F)),
    StableHlo.binary main_v150 main_v151 main_v152 ((fun a b => concatenate S2x50000x256 0 [⟨S1x50000x256, a⟩, ⟨S1x50000x256, b⟩] concatenates_S1x50000x256_S1x50000x256_S2x50000x256_d0) : (⟨S1x50000x256, .f32⟩ : BufTy).Contents (Elt F) → (⟨S1x50000x256, .f32⟩ : BufTy).Contents (Elt F) → (⟨S2x50000x256, .f32⟩ : BufTy).Contents (Elt F)) ]

/-- @main's 201 operations, in order. -/
abbrev ops : List (HloOp τ sig (Elt F)) :=
  ops_part0 ++ (ops_part1 ++ ops_part2)

set_option maxRecDepth 8192 in
set_option maxHeartbeats 4000000 in
theorem main_part0_eq (c : Dev nD) : main_part0 (F := F) c = seq ops_part0 := by
  simp only [main_part0, fn_relu.body, fn_elu.body, fn_where.body, fn_where_0.body, seq, bind_assoc, pure_bind]
  all_goals rfl

set_option maxRecDepth 8192 in
set_option maxHeartbeats 4000000 in
theorem main_part1_eq (c : Dev nD) : main_part1 (F := F) c = seq ops_part1 := by
  simp only [main_part1, fn_relu.body, fn_elu.body, fn_where.body, fn_where_0.body, seq, bind_assoc, pure_bind]
  all_goals rfl

set_option maxRecDepth 8192 in
set_option maxHeartbeats 4000000 in
theorem main_part2_eq (c : Dev nD) : main_part2 (F := F) c = seq ops_part2 := by
  simp only [main_part2, fn_relu.body, fn_elu.body, fn_where.body, fn_where_0.body, seq, bind_assoc, pure_bind]
  all_goals rfl

set_option maxRecDepth 8192 in
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_part0_sub : (ops_part0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub ..⟩

set_option maxRecDepth 8192 in
theorem ops_part1_sub : (ops_part1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub ..⟩

set_option maxRecDepth 8192 in
theorem ops_part2_sub : (ops_part2 : List (HloOp τ sig (Elt F))).Forall fun op => op.bufs ⊆ tcRefs τ sig :=
  ⟨binary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops_part0_sub op h, List.forall_iff_forall_mem.mp ops_part1_sub op h, List.forall_iff_forall_mem.mp ops_part2_sub op h]

/-- On every device, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefWin0.lean ====
/-
  The fold of the reference's first 62 operations, from any contents `V` of the buffers: the encoder on both node
  types, round one of node type a, and the index rows and round-one weights of node type b.
-/
import proofs.«135935_j163208757329_2_alg».proof.Proof.RefRun
import proofs.«135935_j163208757329_2_alg».proof.Proof.RefDefs

set_option Elab.async false

noncomputable section

namespace Cert.ReferenceIdeal.RefTerm

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The buffers these operations write. -/
abbrev W0 : List (Ref sig .tc) := [main_v0, main_v1, main_v2, main_v3, main_v4, main_v5, main_v6, main_v7, main_v8, main_v9, main_v10, main_v11, main_v12, main_v13, main_v14, main_v15, main_v16, main_v17, main_v18, main_v19, main_c, main_v20, main_v21, main_c_0, main_v22, main_v23, main_v24, main_v25, main_v26, main_v27, main_v28, main_v29, main_cst, main_v30, main_v31, main_v32, main_v33, main_v34, main_v35, main_v36, main_v37, main_call0.cst.ref, main_call0.v0.ref, main_call0.v1.ref, main_v39, main_v40, main_v41, main_v42, main_v43, main_v44, main_v45, main_v46, main_v47, main_v48, main_v49, main_v50, main_v51, main_v52, main_v53, main_v54, main_c_1, main_v55]

set_option maxRecDepth 8192 in
set_option maxHeartbeats 4000000 in
theorem ops_part0_writes : (ops_part0 : List (HloOp τ sig (Elt F))).Forall fun op => op.writes ⊆ (W0.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- A buffer they do not write keeps its contents. -/
theorem w0_keep (V : Valuation τ sig (Elt F)) (r : Ref sig .tc) (h : r ∉ W0) :
    after ops_part0 V (Proc.devRef .tc r) = V (Proc.devRef .tc r) :=
  after_of_writes_sub ops_part0 _ ops_part0_writes h

set_option maxRecDepth 8192 in
set_option maxHeartbeats 4000000 in
theorem w0_v7 (V : Valuation τ sig (Elt F)) : after ops_part0 V (Proc.devRef .tc main_v7) = enc (V (Proc.devRef .tc main_arg1)) (V (Proc.devRef .tc main_arg6)) (V (Proc.devRef .tc main_arg7)) := by
  simp only [ops_part0]
  after_results_simp
  all_goals rfl

set_option maxRecDepth 8192 in
set_option maxHeartbeats 4000000 in
theorem w0_v42 (V : Valuation τ sig (Elt F)) : after ops_part0 V (Proc.devRef .tc main_v42) = layer (enc (V (Proc.devRef .tc main_arg0)) (V (Proc.devRef .tc main_arg6)) (V (Proc.devRef .tc main_arg7))) (V (Proc.devRef .tc main_arg2)) (V (Proc.devRef .tc main_arg4)) (wsl 0 0 (V (Proc.devRef .tc main_arg8))) (bsl 0 0 (V (Proc.devRef .tc main_arg9))) (wsl 0 0 (V (Proc.devRef .tc main_arg10))) (bsl 0 0 (V (Proc.devRef .tc main_arg11))) := by
  simp only [ops_part0]
  after_results_simp
  all_goals rfl

set_option maxRecDepth 8192 in
set_option maxHeartbeats 4000000 in
theorem w0_v44 (V : Valuation τ sig (Elt F)) : after ops_part0 V (Proc.devRef .tc main_v44) = shapeCast S500000 (extractStridedSlice S1x500000 ![0, 0] (V (Proc.devRef .tc main_arg3)) slices_S2x500000_S1x500000_0_0) shapeCasts_S1x500000_S500000 := by
  simp only [ops_part0]
  after_results_simp
  all_goals rfl

set_option maxRecDepth 8192 in
set_option maxHeartbeats 4000000 in
theorem w0_v46 (V : Valuation τ sig (Elt F)) : after ops_part0 V (Proc.devRef .tc main_v46) = shapeCast S500000 (extractStridedSlice S1x500000 ![1, 0] (V (Proc.devRef .tc main_arg3)) slices_S2x500000_S1x500000_1_0) shapeCasts_S1x500000_S500000 := by
  simp only [ops_part0]
  after_results_simp
  all_goals rfl

set_option maxRecDepth 8192 in
set_option maxHeartbeats 4000000 in
theorem w0_v48 (V : Valuation τ sig (Elt F)) : after ops_part0 V (Proc.devRef .tc main_v48) = wsl 0 1 (V (Proc.devRef .tc main_arg8)) := by
  simp only [ops_part0]
  after_results_simp
  all_goals rfl

set_option maxRecDepth 8192 in
set_option maxHeartbeats 4000000 in
theorem w0_v50 (V : Valuation τ sig (Elt F)) : after ops_part0 V (Proc.devRef .tc main_v50) = bsl 0 1 (V (Proc.devRef .tc main_arg9)) := by
  simp only [ops_part0]
  after_results_simp
  all_goals rfl

set_option maxRecDepth 8192 in
set_option maxHeartbeats 4000000 in
theorem w0_v52 (V : Valuation τ sig (Elt F)) : after ops_part0 V (Proc.devRef .tc main_v52) = wsl 0 1 (V (Proc.devRef .tc main_arg10)) := by
  simp only [ops_part0]
  after_results_simp
  all_goals rfl

set_option maxRecDepth 8192 in
set_option maxHeartbeats 4000000 in
theorem w0_v54 (V : Valuation τ sig (Elt F)) : after ops_part0 V (Proc.devRef .tc main_v54) = bsl 0 1 (V (Proc.devRef .tc main_arg11)) := by
  simp only [ops_part0]
  after_results_simp
  all_goals rfl

set_option maxRecDepth 8192 in
set_option maxHeartbeats 4000000 in
theorem w0_v55 (V : Valuation τ sig (Elt F)) : after ops_part0 V (Proc.devRef .tc main_v55) = (broadcastInDim S500000 ![] bcast_S_S500000 (constantI S_ 32 0#32) : IVec S500000 32) := by
  simp only [ops_part0]
  after_results_simp
  all_goals rfl

end Cert.ReferenceIdeal.RefTerm

end
-- ==== Proof.RefWin1.lean ====
/-
  The fold of the reference's operations 63 to 154, from any contents `V` of the buffers: round one of node type b
  from its index rows and weights, the exponential linear unit on both node types, and round two of node type a up
  to its rectifier.
-/
import proofs.«135935_j163208757329_2_alg».proof.Proof.RefRun
import proofs.«135935_j163208757329_2_alg».proof.Proof.RefDefs

set_option Elab.async false

noncomputable section

namespace Cert.ReferenceIdeal.RefTerm

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The buffers these operations write. -/
abbrev W1 : List (Ref sig .tc) := [main_v56, main_c_2, main_v57, main_v58, main_v59, main_v60, main_v61, main_v62, main_v63, main_v64, main_cst_3, main_v65, main_v66, main_v67, main_v68, main_v69, main_v70, main_v71, main_v72, main_call1.cst.ref, main_call1.v0.ref, main_call1.v1.ref, main_v74, main_v75, main_v76, main_v77, main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref, main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref, main_v80, main_v81, main_v82, main_v83, main_v84, main_v85, main_v86, main_v87, main_v88, main_v89, main_v90, main_v91, main_c_4, main_v92, main_v93, main_c_5, main_v94, main_v95, main_v96, main_v97, main_v98, main_v99, main_v100, main_v101, main_cst_6, main_v102, main_v103, main_v104, main_v105, main_v106, main_v107, main_v108, main_v109, main_call4.cst.ref, main_call4.v0.ref, main_call4.v1.ref]

set_option maxRecDepth 8192 in
set_option maxHeartbeats 4000000 in
theorem ops_part1_writes : (ops_part1 : List (HloOp τ sig (Elt F))).Forall fun op => op.writes ⊆ (W1.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- A buffer they do not write keeps its contents. -/
theorem w1_keep (V : Valuation τ sig (Elt F)) (r : Ref sig .tc) (h : r ∉ W1) :
    after ops_part1 V (Proc.devRef .tc r) = V (Proc.devRef .tc r) :=
  after_of_writes_sub ops_part1 _ ops_part1_writes h

set_option maxRecDepth 8192 in
set_option maxHeartbeats 4000000 in
theorem w1_v79 (V : Valuation τ sig (Elt F)) : after ops_part1 V (Proc.devRef .tc main_v79) = elu (layerCore (V (Proc.devRef .tc main_v7)) (V (Proc.devRef .tc main_v44)) (V (Proc.devRef .tc main_v46)) (V (Proc.devRef .tc main_v55)) (V (Proc.devRef .tc main_arg5)) (V (Proc.devRef .tc main_v48)) (V (Proc.devRef .tc main_v50)) (V (Proc.devRef .tc main_v52)) (V (Proc.devRef .tc main_v54))) := by
  simp only [ops_part1]
  after_results_simp
  all_goals rfl

set_option maxRecDepth 8192 in
set_option maxHeartbeats 4000000 in
theorem w1_v110 (V : Valuation τ sig (Elt F)) : after ops_part1 V (Proc.devRef .tc main_v110) = relu (enc (addf (agg (elu (V (Proc.devRef .tc main_v42))) (V (Proc.devRef .tc main_arg2)) (V (Proc.devRef .tc main_arg4))) (elu (V (Proc.devRef .tc main_v42)))) (wsl 1 0 (V (Proc.devRef .tc main_arg8))) (bsl 1 0 (V (Proc.devRef .tc main_arg9)))) := by
  simp only [ops_part1]
  after_results_simp
  all_goals rfl

set_option maxRecDepth 8192 in
set_option maxHeartbeats 4000000 in
theorem w1_v89 (V : Valuation τ sig (Elt F)) : after ops_part1 V (Proc.devRef .tc main_v89) = wsl 1 0 (V (Proc.devRef .tc main_arg10)) := by
  simp only [ops_part1]
  after_results_simp
  all_goals rfl

set_option maxRecDepth 8192 in
set_option maxHeartbeats 4000000 in
theorem w1_v91 (V : Valuation τ sig (Elt F)) : after ops_part1 V (Proc.devRef .tc main_v91) = bsl 1 0 (V (Proc.devRef .tc main_arg11)) := by
  simp only [ops_part1]
  after_results_simp
  all_goals rfl

end Cert.ReferenceIdeal.RefTerm

end
-- ==== Proof.RefWin2.lean ====
/-
  The fold of the reference's last 47 operations, from any contents `V` of the buffers: the second affine layer of
  round two of node type a, round two of node type b, and the two results stacked.
-/
import proofs.«135935_j163208757329_2_alg».proof.Proof.RefRun
import proofs.«135935_j163208757329_2_alg».proof.Proof.RefDefs

set_option Elab.async false

noncomputable section

namespace Cert.ReferenceIdeal.RefTerm

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The buffers these operations write. -/
abbrev W2 : List (Ref sig .tc) := [main_v111, main_v112, main_v113, main_v114, main_v115, main_v116, main_v117, main_v118, main_v119, main_v120, main_v121, main_v122, main_v123, main_v124, main_v125, main_v126, main_c_7, main_v127, main_v128, main_c_8, main_v129, main_v130, main_v131, main_v132, main_v133, main_v134, main_v135, main_v136, main_cst_9, main_v137, main_v138, main_v139, main_v140, main_v141, main_v142, main_v143, main_v144, main_call5.cst.ref, main_call5.v0.ref, main_call5.v1.ref, main_v146, main_v147, main_v148, main_v149, main_v150, main_v151, main_v152]

set_option maxRecDepth 8192 in
set_option maxHeartbeats 4000000 in
theorem ops_part2_writes : (ops_part2 : List (HloOp τ sig (Elt F))).Forall fun op => op.writes ⊆ (W2.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide), by simp only [nullary_writes, unary_writes, binary_writes, ternary_writes, quaternary_writes, reshape_writes, Finset.singleton_subset_iff, List.mem_toFinset]; exact List.mem_map_of_mem (by decide)⟩

/-- A buffer they do not write keeps its contents. -/
theorem w2_keep (V : Valuation τ sig (Elt F)) (r : Ref sig .tc) (h : r ∉ W2) :
    after ops_part2 V (Proc.devRef .tc r) = V (Proc.devRef .tc r) :=
  after_of_writes_sub ops_part2 _ ops_part2_writes h

set_option maxRecDepth 8192 in
set_option maxHeartbeats 4000000 in
theorem w2_v152 (V : Valuation τ sig (Elt F)) : after ops_part2 V (Proc.devRef .tc main_v152) = outCore (enc (V (Proc.devRef .tc main_v110)) (V (Proc.devRef .tc main_v89)) (V (Proc.devRef .tc main_v91))) (layer (V (Proc.devRef .tc main_v79)) (V (Proc.devRef .tc main_arg3)) (V (Proc.devRef .tc main_arg5)) (wsl 1 1 (V (Proc.devRef .tc main_arg8))) (bsl 1 1 (V (Proc.devRef .tc main_arg9))) (wsl 1 1 (V (Proc.devRef .tc main_arg10))) (bsl 1 1 (V (Proc.devRef .tc main_arg11)))) := by
  simp only [ops_part2, after_cons, after_nil]
  generalize hf : ((fun a b => concatenate S2x50000x256 0 [⟨S1x50000x256, a⟩, ⟨S1x50000x256, b⟩] concatenates_S1x50000x256_S1x50000x256_S2x50000x256_d0) : (⟨S1x50000x256, .f32⟩ : BufTy).Contents (Elt F) → (⟨S1x50000x256, .f32⟩ : BufTy).Contents (Elt F) → (⟨S2x50000x256, .f32⟩ : BufTy).Contents (Elt F)) = f
  after_results_simp
  subst hf
  all_goals rfl

end Cert.ReferenceIdeal.RefTerm

end
-- ==== Proof.RefTerm.lean ====
/-
  The reference program's result as one composed term of its arguments.

  The fold of all 201 operations is the fold of three consecutive runs of them, one after the other. Reading the
  result buffer back through the three runs gives `out` of the argument buffers' contents, and no run writes an
  argument buffer.
-/
import proofs.«135935_j163208757329_2_alg».proof.Proof.RefWin0
import proofs.«135935_j163208757329_2_alg».proof.Proof.RefWin1
import proofs.«135935_j163208757329_2_alg».proof.Proof.RefWin2

noncomputable section

namespace Cert.ReferenceIdeal.RefTerm

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole fold is the three runs' folds, composed. -/
theorem after_ops (V : Valuation τ sig (Elt F)) : after ops V = after ops_part2 (after ops_part1 (after ops_part0 V)) := by
  show after (ops_part0 ++ (ops_part1 ++ ops_part2)) V = _
  rw [after_app, after_app]

set_option maxRecDepth 8192 in
set_option maxHeartbeats 4000000 in
/-- The fold at the result buffer is `out` of the argument buffers' contents. -/
theorem out_eq (V : Valuation τ sig (Elt F)) :
    after ops V (main_v152 : DevRef τ sig)
      = out (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) := by
  rw [after_ops, w2_v152]
  rw [w1_v110, w1_v89, w1_v91, w1_v79, w1_keep _ main_arg3 (by decide), w1_keep _ main_arg5 (by decide), w1_keep _ main_arg8 (by decide), w1_keep _ main_arg9 (by decide), w1_keep _ main_arg10 (by decide), w1_keep _ main_arg11 (by decide)]
  rw [w0_v42, w0_v7, w0_v44, w0_v46, w0_v55, w0_v48, w0_v50, w0_v52, w0_v54, w0_keep _ main_arg2 (by decide), w0_keep _ main_arg3 (by decide), w0_keep _ main_arg4 (by decide), w0_keep _ main_arg5 (by decide), w0_keep _ main_arg8 (by decide), w0_keep _ main_arg9 (by decide), w0_keep _ main_arg10 (by decide), w0_keep _ main_arg11 (by decide)]
  rfl

theorem arg0_eq (V : Valuation τ sig (Elt F)) : after ops V (main_arg0 : DevRef τ sig) = V (main_arg0 : DevRef τ sig) := by
  rw [after_ops, w2_keep _ main_arg0 (by decide), w1_keep _ main_arg0 (by decide), w0_keep _ main_arg0 (by decide)]
theorem arg1_eq (V : Valuation τ sig (Elt F)) : after ops V (main_arg1 : DevRef τ sig) = V (main_arg1 : DevRef τ sig) := by
  rw [after_ops, w2_keep _ main_arg1 (by decide), w1_keep _ main_arg1 (by decide), w0_keep _ main_arg1 (by decide)]
theorem arg2_eq (V : Valuation τ sig (Elt F)) : after ops V (main_arg2 : DevRef τ sig) = V (main_arg2 : DevRef τ sig) := by
  rw [after_ops, w2_keep _ main_arg2 (by decide), w1_keep _ main_arg2 (by decide), w0_keep _ main_arg2 (by decide)]
theorem arg3_eq (V : Valuation τ sig (Elt F)) : after ops V (main_arg3 : DevRef τ sig) = V (main_arg3 : DevRef τ sig) := by
  rw [after_ops, w2_keep _ main_arg3 (by decide), w1_keep _ main_arg3 (by decide), w0_keep _ main_arg3 (by decide)]
theorem arg4_eq (V : Valuation τ sig (Elt F)) : after ops V (main_arg4 : DevRef τ sig) = V (main_arg4 : DevRef τ sig) := by
  rw [after_ops, w2_keep _ main_arg4 (by decide), w1_keep _ main_arg4 (by decide), w0_keep _ main_arg4 (by decide)]
theorem arg5_eq (V : Valuation τ sig (Elt F)) : after ops V (main_arg5 : DevRef τ sig) = V (main_arg5 : DevRef τ sig) := by
  rw [after_ops, w2_keep _ main_arg5 (by decide), w1_keep _ main_arg5 (by decide), w0_keep _ main_arg5 (by decide)]
theorem arg6_eq (V : Valuation τ sig (Elt F)) : after ops V (main_arg6 : DevRef τ sig) = V (main_arg6 : DevRef τ sig) := by
  rw [after_ops, w2_keep _ main_arg6 (by decide), w1_keep _ main_arg6 (by decide), w0_keep _ main_arg6 (by decide)]
theorem arg7_eq (V : Valuation τ sig (Elt F)) : after ops V (main_arg7 : DevRef τ sig) = V (main_arg7 : DevRef τ sig) := by
  rw [after_ops, w2_keep _ main_arg7 (by decide), w1_keep _ main_arg7 (by decide), w0_keep _ main_arg7 (by decide)]
theorem arg8_eq (V : Valuation τ sig (Elt F)) : after ops V (main_arg8 : DevRef τ sig) = V (main_arg8 : DevRef τ sig) := by
  rw [after_ops, w2_keep _ main_arg8 (by decide), w1_keep _ main_arg8 (by decide), w0_keep _ main_arg8 (by decide)]
theorem arg9_eq (V : Valuation τ sig (Elt F)) : after ops V (main_arg9 : DevRef τ sig) = V (main_arg9 : DevRef τ sig) := by
  rw [after_ops, w2_keep _ main_arg9 (by decide), w1_keep _ main_arg9 (by decide), w0_keep _ main_arg9 (by decide)]
theorem arg10_eq (V : Valuation τ sig (Elt F)) : after ops V (main_arg10 : DevRef τ sig) = V (main_arg10 : DevRef τ sig) := by
  rw [after_ops, w2_keep _ main_arg10 (by decide), w1_keep _ main_arg10 (by decide), w0_keep _ main_arg10 (by decide)]
theorem arg11_eq (V : Valuation τ sig (Elt F)) : after ops V (main_arg11 : DevRef τ sig) = V (main_arg11 : DevRef τ sig) := by
  rw [after_ops, w2_keep _ main_arg11 (by decide), w1_keep _ main_arg11 (by decide), w0_keep _ main_arg11 (by decide)]

end Cert.ReferenceIdeal.RefTerm

end
-- ==== Proof.lean ====
/-
  A two-round heterogeneous graph network on two node types: encode every node's features by one affine map,
  then twice aggregate each node's neighbours' rows (scaled by the edges' attention weights) into the node and
  pass `aggregate + own row` through a two-layer network with a rectifier, with the exponential linear unit
  between the rounds.  The kernel stacks the two node types, tiles the nodes 2000 rows at a time and runs the
  affine maps in three grid regions with the aggregation between them on the host; the reference runs each
  node type's whole matrices through the same operations.

  Over the extended reals the two compute one function of the arguments.  No entry of a region's output depends
  on more than its own row of the region's inputs, so tiling the rows changes nothing; the sums over the 256
  features are the same sums in the same order; the message aggregation is one function applied on both sides
  to equal arrays; and `exp x - 1` is what the reference's `expm1` means, multiplied by one.  No step
  distributes a product over a sum or cancels, so the inputs' finiteness is never used.

  The frames of the two kernel programs are the generated ones; the reference's frame is its run
  (written out by hand: its exponential linear unit calls a selection function of its own) with the result dropped.
  The idealization rewrote nothing, so `preserves` is trivial.
-/
import proofs.«135935_j163208757329_2_alg».proof.Defs
import proofs.«135935_j163208757329_2_alg».proof.Proof.Gen.Kernel
import proofs.«135935_j163208757329_2_alg».proof.Proof.Gen.Kernel.Frame
import proofs.«135935_j163208757329_2_alg».proof.Proof.Gen.KernelIdeal
import proofs.«135935_j163208757329_2_alg».proof.Proof.Gen.KernelIdeal.Frame
import proofs.«135935_j163208757329_2_alg».proof.Proof.Gen.ReferenceIdeal
import proofs.«135935_j163208757329_2_alg».proof.Proof.Gen.Pre_finite_inputs
import proofs.«135935_j163208757329_2_alg».proof.Proof.Bridge
import proofs.«135935_j163208757329_2_alg».proof.Proof.RefTerm
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run leaves every argument as launched. -/
theorem frame_reference : Cert.frame_ReferenceIdeal := fun m ρ _ =>
  (θ_run Cert.ReferenceIdeal.defs _ _).mono (fun r h c =>
    ⟨(h c Cert.ReferenceIdeal.main_arg0).trans (Cert.ReferenceIdeal.RefTerm.arg0_eq _),
      (h c Cert.ReferenceIdeal.main_arg1).trans (Cert.ReferenceIdeal.RefTerm.arg1_eq _),
      (h c Cert.ReferenceIdeal.main_arg2).trans (Cert.ReferenceIdeal.RefTerm.arg2_eq _),
      (h c Cert.ReferenceIdeal.main_arg3).trans (Cert.ReferenceIdeal.RefTerm.arg3_eq _),
      (h c Cert.ReferenceIdeal.main_arg4).trans (Cert.ReferenceIdeal.RefTerm.arg4_eq _),
      (h c Cert.ReferenceIdeal.main_arg5).trans (Cert.ReferenceIdeal.RefTerm.arg5_eq _),
      (h c Cert.ReferenceIdeal.main_arg6).trans (Cert.ReferenceIdeal.RefTerm.arg6_eq _),
      (h c Cert.ReferenceIdeal.main_arg7).trans (Cert.ReferenceIdeal.RefTerm.arg7_eq _),
      (h c Cert.ReferenceIdeal.main_arg8).trans (Cert.ReferenceIdeal.RefTerm.arg8_eq _),
      (h c Cert.ReferenceIdeal.main_arg9).trans (Cert.ReferenceIdeal.RefTerm.arg9_eq _),
      (h c Cert.ReferenceIdeal.main_arg10).trans (Cert.ReferenceIdeal.RefTerm.arg10_eq _),
      (h c Cert.ReferenceIdeal.main_arg11).trans (Cert.ReferenceIdeal.RefTerm.arg11_eq _)⟩)
    (Cert.ReferenceIdeal.RefRun.run_main (F := Ideal) m ρ)

theorem preserves : Cert.preserves_Kernel_KernelIdeal := trivial

/-- From memories that agree on the arguments the two runs end with the same result array: the kernel's
    function of the arguments is the reference's. -/
theorem algebraic : Cert.algebraic_KernelIdeal_ReferenceIdeal := by
  intro m g m' g' _ hagree
  refine ⟨_, Cert.KernelIdeal.KerValue.run m g, ?_⟩
  refine (θ_run Cert.ReferenceIdeal.defs _ _).mono (fun r h c =>
    ⟨?_, (h c Cert.ReferenceIdeal.main_arg0).trans (Cert.ReferenceIdeal.RefTerm.arg0_eq _),
      (h c Cert.ReferenceIdeal.main_arg1).trans (Cert.ReferenceIdeal.RefTerm.arg1_eq _),
      (h c Cert.ReferenceIdeal.main_arg2).trans (Cert.ReferenceIdeal.RefTerm.arg2_eq _),
      (h c Cert.ReferenceIdeal.main_arg3).trans (Cert.ReferenceIdeal.RefTerm.arg3_eq _),
      (h c Cert.ReferenceIdeal.main_arg4).trans (Cert.ReferenceIdeal.RefTerm.arg4_eq _),
      (h c Cert.ReferenceIdeal.main_arg5).trans (Cert.ReferenceIdeal.RefTerm.arg5_eq _),
      (h c Cert.ReferenceIdeal.main_arg6).trans (Cert.ReferenceIdeal.RefTerm.arg6_eq _),
      (h c Cert.ReferenceIdeal.main_arg7).trans (Cert.ReferenceIdeal.RefTerm.arg7_eq _),
      (h c Cert.ReferenceIdeal.main_arg8).trans (Cert.ReferenceIdeal.RefTerm.arg8_eq _),
      (h c Cert.ReferenceIdeal.main_arg9).trans (Cert.ReferenceIdeal.RefTerm.arg9_eq _),
      (h c Cert.ReferenceIdeal.main_arg10).trans (Cert.ReferenceIdeal.RefTerm.arg10_eq _),
      (h c Cert.ReferenceIdeal.main_arg11).trans (Cert.ReferenceIdeal.RefTerm.arg11_eq _)⟩)
    (Cert.ReferenceIdeal.RefRun.run_main (F := Ideal) m' g')
  obtain ⟨e0, e1, e2, e3, e4, e5, e6, e7, e8, e9, e10, e11⟩ := hagree c
  refine (h c Cert.ReferenceIdeal.main_v152).trans ((Cert.ReferenceIdeal.RefTerm.out_eq _).trans ?_)
  show Cert.ReferenceIdeal.RefTerm.out (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11)) = _
  rw [e0, e1, e2, e3, e4, e5, e6, e7, e8, e9, e10, e11]
  exact (Cert.Bridge.out_eq _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
